-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64x256 : Shape := ⟨4, ![16, 64, 64, 256]⟩
abbrev S256x32 : Shape := ⟨2, ![256, 32]⟩
abbrev S256x256 : Shape := ⟨2, ![256, 256]⟩
abbrev S32 : Shape := ⟨1, ![32]⟩
abbrev S256 : Shape := ⟨1, ![256]⟩
abbrev S1 : Shape := ⟨1, ![1]⟩
abbrev S_ : Shape := ⟨0, ![]⟩

class Facts : Prop where
  bcast_S_S16x64x64x256 : S_.BroadcastsInDim S16x64x64x256 (![] : Fin 0 → Fin S16x64x64x256.rank)
  reducesTo_S16x64x64x256_S_d0_1_2_3 : S16x64x64x256.ReducesTo [0, 1, 2, 3] S_
  h_S_ : 0 < S_.numel
  bcast_S_S256x32 : S_.BroadcastsInDim S256x32 (![] : Fin 0 → Fin S256x32.rank)
  reducesTo_S256x32_S_d0_1 : S256x32.ReducesTo [0, 1] S_
  bcast_S_S256x256 : S_.BroadcastsInDim S256x256 (![] : Fin 0 → Fin S256x256.rank)
  reducesTo_S256x256_S_d0_1 : S256x256.ReducesTo [0, 1] S_
  bcast_S_S32 : S_.BroadcastsInDim S32 (![] : Fin 0 → Fin S32.rank)
  reducesTo_S32_S_d0 : S32.ReducesTo [0] S_
  bcast_S_S256 : S_.BroadcastsInDim S256 (![] : Fin 0 → Fin S256.rank)
  reducesTo_S256_S_d0 : S256.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S32 .f32) (main_arg5 : FVec F S32 .f32) (main_arg6 : FVec F S256 .f32) (main_arg7 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_v33

def fn {F : FTy → Type} [FloatOps F] (main_arg0 : FVec F S16x64x64x256 .f32) (main_arg1 : FVec F S256x32 .f32) (main_arg2 : FVec F S256x32 .f32) (main_arg3 : FVec F S256x256 .f32) (main_arg4 : FVec F S32 .f32) (main_arg5 : FVec F S32 .f32) (main_arg6 : FVec F S256 .f32) (main_arg7 : FVec F S1 .f32) : IVec S_ 1 :=
  let main_v0 : FVec F S16x64x64x256 .f32 := Host.absf main_arg0
  let main_cst : FVec F S_ .f32 := constant S_ .f32 0x7F800000#32
  let main_v1 : FVec F S16x64x64x256 .f32 := broadcastInDim S16x64x64x256 ![] bcast_S_S16x64x64x256 main_cst
  let main_v2 : IVec S16x64x64x256 1 := cmpf .olt main_v0 main_v1
  let main_c : IVec S_ 1 := constantI S_ 1 1#1
  let main_v3 : IVec S_ 1 := (fun x v => Host.reduce IntOp.andi x v reducesTo_S16x64x64x256_S_d0_1_2_3 h_S_) main_v2 main_c
  let main_v4 : FVec F S256x32 .f32 := Host.absf main_arg1
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S256x32 .f32 := Host.absf main_arg2
  let main_cst_2 : FVec F S_ .f32 := constant S_ .f32 0x7F800000#32
  let main_v10 : FVec F S256x32 .f32 := broadcastInDim S256x32 ![] bcast_S_S256x32 main_cst_2
  let main_v11 : IVec S256x32 1 := cmpf .olt main_v9 main_v10
  let main_c_3 : IVec S_ 1 := constantI S_ 1 1#1
  let main_v12 : IVec S_ 1 := (fun x v => Host.reduce IntOp.andi x v reducesTo_S256x32_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_v13 main_v16
-- ==== Kernel.lean ====
abbrev S16x64x64x256 : Shape := ⟨4, ![16, 64, 64, 256]⟩
abbrev S256x32 : Shape := ⟨2, ![256, 32]⟩
abbrev S256x256 : Shape := ⟨2, ![256, 256]⟩
abbrev S32 : Shape := ⟨1, ![32]⟩
abbrev S256 : Shape := ⟨1, ![256]⟩
abbrev S1 : Shape := ⟨1, ![1]⟩
abbrev S65536x256 : Shape := ⟨2, ![65536, 256]⟩
abbrev S1x32 : Shape := ⟨2, ![1, 32]⟩
abbrev S1x256 : Shape := ⟨2, ![1, 256]⟩
abbrev S1x1 : Shape := ⟨2, ![1, 1]⟩
abbrev S65536x32 : Shape := ⟨2, ![65536, 32]⟩
abbrev S2048x256 : Shape := ⟨2, ![2048, 256]⟩
abbrev S2048x32 : Shape := ⟨2, ![2048, 32]⟩
abbrev S16x131072 : Shape := ⟨2, ![16, 131072]⟩
abbrev S16x16 : Shape := ⟨2, ![16, 16]⟩
abbrev S16x32768 : Shape := ⟨2, ![16, 32768]⟩
abbrev S_ : Shape := ⟨0, ![]⟩
abbrev S16 : Shape := ⟨1, ![16]⟩
abbrev S16x1 : Shape := ⟨2, ![16, 1]⟩
abbrev S16x1048576 : Shape := ⟨2, ![16, 1048576]⟩

abbrev nBuf : Space → Nat
  | .hbm => 35
  | .vmem => 23
  | .smem => 0
  | _ => 0

abbrev bufTy : (tb : Table) → Fin (tcTables nBuf tb) → BufTy
  | .hbm, ⟨0, _⟩ => ⟨S16x64x64x256, .f32⟩
  | .hbm, ⟨1, _⟩ => ⟨S256x32, .f32⟩
  | .hbm, ⟨2, _⟩ => ⟨S256x32, .f32⟩
  | .hbm, ⟨3, _⟩ => ⟨S256x256, .f32⟩
  | .hbm, ⟨4, _⟩ => ⟨S32, .f32⟩
  | .hbm, ⟨5, _⟩ => ⟨S32, .f32⟩
  | .hbm, ⟨6, _⟩ => ⟨S256, .f32⟩
  | .hbm, ⟨7, _⟩ => ⟨S1, .f32⟩
  | .hbm, ⟨8, _⟩ => ⟨S65536x256, .f32⟩
  | .hbm, ⟨9, _⟩ => ⟨S1x32, .f32⟩
  | .hbm, ⟨10, _⟩ => ⟨S1x32, .f32⟩
  | .hbm, ⟨11, _⟩ => ⟨S1x256, .f32⟩
  | .hbm, ⟨12, _⟩ => ⟨S1x1, .f32⟩
  | .hbm, ⟨13, _⟩ => ⟨S65536x32, .f32⟩
  | .hbm, ⟨14, _⟩ => ⟨S65536x32, .f32⟩
  | .hbm, ⟨15, _⟩ => ⟨S16x131072, .f32⟩
  | .hbm, ⟨16, _⟩ => ⟨S16x131072, .f32⟩
  | .hbm, ⟨17, _⟩ => ⟨S16x16, .f32⟩
  | .hbm, ⟨18, _⟩ => ⟨S_, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S16x1, .f32⟩
  | .hbm, ⟨24, _⟩ => ⟨S16x16, .f32⟩
  | .hbm, ⟨25, _⟩ => ⟨S16x16, .f32⟩
  | .hbm, ⟨26, _⟩ => ⟨S16x16, .f32⟩
  | .hbm, ⟨27, _⟩ => ⟨S_, .f32⟩
  | .hbm, ⟨28, _⟩ => ⟨S16, .f32⟩
  | .hbm, ⟨29, _⟩ => ⟨S16x1, .f32⟩
  | .hbm, ⟨30, _⟩ => ⟨S16x16, .f32⟩
  | .hbm, ⟨31, _⟩ => ⟨S16x16, .f32⟩
  | .hbm, ⟨32, _⟩ => ⟨S16x1048576, .f32⟩
  | .hbm, ⟨33, _⟩ => ⟨S16x1048576, .f32⟩
  | .hbm, ⟨34, _⟩ => ⟨S16x64x64x256, .f32⟩
  | .local _ .vmem, ⟨0, _⟩ => ⟨S2048x256, .f32⟩
  | .local _ .vmem, ⟨1, _⟩ => ⟨S2048x256, .f32⟩
  | .local _ .vmem, ⟨2, _⟩ => ⟨S256x32, .f32⟩
  | .local _ .vmem, ⟨3, _⟩ => ⟨S256x32, .f32⟩
  | .local _ .vmem, ⟨4, _⟩ => ⟨S1x32, .f32⟩
  | .local _ .vmem, ⟨5, _⟩ => ⟨S1x32, .f32⟩
  | .local _ .vmem, ⟨6, _⟩ => ⟨S2048x32, .f32⟩
  | .local _ .vmem, ⟨7, _⟩ => ⟨S2048x32, .f32⟩
  | .local _ .vmem, ⟨8, _⟩ => ⟨S2048x32, .f32⟩
  | .local _ .vmem, ⟨9, _⟩ => ⟨S2048x32, .f32⟩
  | .local _ .vmem, ⟨10, _⟩ => ⟨S16x32768, .f32⟩
  | .local _ .vmem, ⟨11, _⟩ => ⟨S16x32768, .f32⟩
  | .local _ .vmem, ⟨12, _⟩ => ⟨S16x32768, .f32⟩
  | .local _ .vmem, ⟨13, _⟩ => ⟨S16x32768, .f32⟩
  | .local _ .vmem, ⟨14, _⟩ => ⟨S16x16, .f32⟩
  | .local _ .vmem, ⟨15, _⟩ => ⟨S16x16, .f32⟩
  | .local _ .vmem, ⟨16, _⟩ => ⟨S16x32768, .f32⟩
  | .local _ .vmem, ⟨17, _⟩ => ⟨S16x32768, .f32⟩
  | .local _ .vmem, ⟨18, _⟩ => ⟨S256x256, .f32⟩
  | .local _ .vmem, ⟨19, _⟩ => ⟨S1x256, .f32⟩
  | .local _ .vmem, ⟨20, _⟩ => ⟨S1x1, .f32⟩
  | .local _ .vmem, ⟨21, _⟩ => ⟨S16x32768, .f32⟩
  | .local _ .vmem, ⟨22, _⟩ => ⟨S16x32768, .f32⟩
  | _, _ => ⟨S16x64x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc2_stg0_0 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc2_sem0_0 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S16x32768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x32768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S16x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S16x32768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S16x32768 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S16x64x64x256_S65536x256 : S16x64x64x256.ShapeCasts S65536x256
  shapeCasts_S32_S1x32 : S32.ShapeCasts S1x32
  shapeCasts_S256_S1x256 : S256.ShapeCasts S1x256
  shapeCasts_S1_S1x1 : S1.ShapeCasts S1x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S2048x32_S2048x32_0_0 : ∀ a, (![0, 0] : Fin 2 → Nat) a + S2048x32.size a ≤ S2048x32.size a
  h_S2048x32 : 0 < S2048x32.numel
  shapeCasts_S65536x32_S16x131072 : S65536x32.ShapeCasts S16x131072
  inb_S16x16_S16x16_0_0 : ∀ a, (![0, 0] : Fin 2 → Nat) a + S16x16.size a ≤ S16x16.size a
  h_S16x16 : 0 < S16x16.numel
  inb_S16x32768_S16x32768_0_0 : ∀ a, (![0, 0] : Fin 2 → Nat) a + S16x32768.size a ≤ S16x32768.size a
  h_S16x32768 : 0 < S16x32768.numel
  shapeCasts_S16x32768_S16x32768 : S16x32768.ShapeCasts S16x32768
  shapeCasts_S16x16_S16x16 : S16x16.ShapeCasts S16x16
  reducesTo_S16x16_S16_d1 : S16x16.ReducesTo [1] S16
  h_S_ : 0 < S_.numel
  bcast_S_S16 : S_.BroadcastsInDim S16 (![] : Fin 0 → Fin S16.rank)
  bcast_S16_S16x1_0 : S16.BroadcastsInDim S16x1 (![0] : Fin 1 → Fin S16x1.rank)
  bcast_S16x1_S16x16_0_1 : S16x1.BroadcastsInDim S16x16 (![0, 1] : Fin 2 → Fin S16x16.rank)
  shapeCasts_S16x64x64x256_S16x1048576 : S16x64x64x256.ShapeCasts S16x1048576
  shapeCasts_S16x32768_S2048x256 : S16x32768.ShapeCasts S2048x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  shapeCasts_S2048x256_S16x32768 : S2048x256.ShapeCasts S16x32768
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S16x1048576_S16x64x64x256 : S16x1048576.ShapeCasts S16x64x64x256
  dot_S2048x256_S256x32_S2048x32_1_0_0_1_n_n_wf : DotDims.WF S2048x256 S256x32 S2048x32 [1] [0] [0] [1] [] []
  dot_S16x32768_S16x32768_S16x16_1_1_0_0_n_n_wf : DotDims.WF S16x32768 S16x32768 S16x16 [1] [1] [0] [0] [] []
  dot_S16x16_S16x32768_S16x32768_1_0_0_1_n_n_wf : DotDims.WF S16x16 S16x32768 S16x32768 [1] [0] [0] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S256x32.size a
  hwx0_2 : ∀ i : grid0.Coords, EltTy.bits .f32 = 32 ∨ (Rect.block (s := S256x32) S256x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x32.size a ≤ S65536x32.size a
  hwx0_5 : ∀ i : grid0.Coords, EltTy.bits .f32 = 32 ∨ (Rect.block (s := S65536x32) S2048x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x32.size a ≤ S65536x32.size a
  hwx0_6 : ∀ i : grid0.Coords, EltTy.bits .f32 = 32 ∨ (Rect.block (s := S65536x32) S2048x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x32768.size a ≤ S16x131072.size a
  hwx1_0 : ∀ i : grid1.Coords, EltTy.bits .f32 = 32 ∨ (Rect.block (s := S16x131072) S16x32768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x32768.size a ≤ S16x131072.size a
  hwx1_1 : ∀ i : grid1.Coords, EltTy.bits .f32 = 32 ∨ (Rect.block (s := S16x131072) S16x32768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S16x16.size a ≤ S16x16.size a
  hwx2_0 : ∀ i : grid2.Coords, EltTy.bits .f32 = 32 ∨ (Rect.block (s := S16x16) S16x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16x32768.size a ≤ S16x1048576.size a
  hwx2_1 : ∀ i : grid2.Coords, EltTy.bits .f32 = 32 ∨ (Rect.block (s := S16x1048576) S16x32768.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S16x32768.size a ≤ S16x1048576.size a
  hwx2_5 : ∀ i : grid2.Coords, EltTy.bits .f32 = 32 ∨ (Rect.block (s := S16x1048576) S16x32768.size (cc2_transform_5 i) (hinb2_5 i)).WholeWords (EltTy.packing .f32)

variable [Facts₀]

def dot_S2048x256_S256x32_S2048x32_1_0_0_1_n_n : DotDims S2048x256 S256x32 S2048x32 where
  lhsContracting := [1]
  rhsContracting := [0]
  lhsNonContracting := [0]
  rhsNonContracting := [1]
  lhsBatch := []
  rhsBatch := []
  wf := dot_S2048x256_S256x32_S2048x32_1_0_0_1_n_n_wf
def dot_S16x32768_S16x32768_S16x16_1_1_0_0_n_n : DotDims S16x32768 S16x32768 S16x16 where
  lhsContracting := [1]
  rhsContracting := [1]
  lhsNonContracting := [0]
  rhsNonContracting := [0]
  lhsBatch := []
  rhsBatch := []
  wf := dot_S16x32768_S16x32768_S16x16_1_1_0_0_n_n_wf
def dot_S16x16_S16x32768_S16x32768_1_0_0_1_n_n : DotDims S16x16 S16x32768 S16x32768 where
  lhsContracting := [1]
  rhsContracting := [0]
  lhsNonContracting := [0]
  rhsNonContracting := [1]
  lhsBatch := []
  rhsBatch := []
  wf := dot_S16x16_S16x32768_S16x32768_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S2048x32.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S2048x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v6) S16x32768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S16x32768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S16x16.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v19) S16x16.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v20) S16x32768.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v21) S16x32768.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S16x64x64x256 : Shape := ⟨4, ![16, 64, 64, 256]⟩
abbrev S256x32 : Shape := ⟨2, ![256, 32]⟩
abbrev S256x256 : Shape := ⟨2, ![256, 256]⟩
abbrev S32 : Shape := ⟨1, ![32]⟩
abbrev S256 : Shape := ⟨1, ![256]⟩
abbrev S1 : Shape := ⟨1, ![1]⟩
abbrev S16x64x64x32 : Shape := ⟨4, ![16, 64, 64, 32]⟩
abbrev S1x1x1x32 : Shape := ⟨4, ![1, 1, 1, 32]⟩
abbrev S1x1x1x256 : Shape := ⟨4, ![1, 1, 1, 256]⟩
abbrev S16x131072 : Shape := ⟨2, ![16, 131072]⟩
abbrev S16x1048576 : Shape := ⟨2, ![16, 1048576]⟩
abbrev S131072x16 : Shape := ⟨2, ![131072, 16]⟩
abbrev S16x16 : Shape := ⟨2, ![16, 16]⟩
abbrev S_ : Shape := ⟨0, ![]⟩
abbrev S16 : Shape := ⟨1, ![16]⟩
abbrev S16x1 : Shape := ⟨2, ![16, 1]⟩
abbrev S1x1x1x1 : Shape := ⟨4, ![1, 1, 1, 1]⟩

abbrev nBuf : Space → Nat
  | .hbm => 45
  | .vmem => 0
  | .smem => 0
  | _ => 0

abbrev bufTy : (tb : Table) → Fin (tcTables nBuf tb) → BufTy
  | .hbm, ⟨0, _⟩ => ⟨S16x64x64x256, .f32⟩
  | .hbm, ⟨1, _⟩ => ⟨S256x32, .f32⟩
  | .hbm, ⟨2, _⟩ => ⟨S256x32, .f32⟩
  | .hbm, ⟨3, _⟩ => ⟨S256x256, .f32⟩
  | .hbm, ⟨4, _⟩ => ⟨S32, .f32⟩
  | .hbm, ⟨5, _⟩ => ⟨S32, .f32⟩
  | .hbm, ⟨6, _⟩ => ⟨S256, .f32⟩
  | .hbm, ⟨7, _⟩ => ⟨S1, .f32⟩
  | .hbm, ⟨8, _⟩ => ⟨S16x64x64x32, .f32⟩
  | .hbm, ⟨9, _⟩ => ⟨S1x1x1x32, .f32⟩
  | .hbm, ⟨10, _⟩ => ⟨S16x64x64x32, .f32⟩
  | .hbm, ⟨11, _⟩ => ⟨S16x64x64x32, .f32⟩
  | .hbm, ⟨12, _⟩ => ⟨S16x64x64x32, .f32⟩
  | .hbm, ⟨13, _⟩ => ⟨S1x1x1x32, .f32⟩
  | .hbm, ⟨14, _⟩ => ⟨S16x64x64x32, .f32⟩
  | .hbm, ⟨15, _⟩ => ⟨S16x64x64x32, .f32⟩
  | .hbm, ⟨16, _⟩ => ⟨S16x64x64x256, .f32⟩
  | .hbm, ⟨17, _⟩ => ⟨S1x1x1x256, .f32⟩
  | .hbm, ⟨18, _⟩ => ⟨S16x64x64x256, .f32⟩
  | .hbm, ⟨19, _⟩ => ⟨S16x64x64x256, .f32⟩
  | .hbm, ⟨20, _⟩ => ⟨S16x131072, .f32⟩
  | .hbm, ⟨21, _⟩ => ⟨S16x131072, .f32⟩
  | .hbm, ⟨22, _⟩ => ⟨S16x1048576, .f32⟩
  | .hbm, ⟨23, _⟩ => ⟨S131072x16, .f32⟩
  | .hbm, ⟨24, _⟩ => ⟨S16x16, .f32⟩
  | .hbm, ⟨25, _⟩ => ⟨S_, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S16x1, .f32⟩
  | .hbm, ⟨31, _⟩ => ⟨S16x16, .f32⟩
  | .hbm, ⟨32, _⟩ => ⟨S16x16, .f32⟩
  | .hbm, ⟨33, _⟩ => ⟨S16x16, .f32⟩
  | .hbm, ⟨34, _⟩ => ⟨S_, .f32⟩
  | .hbm, ⟨35, _⟩ => ⟨S16, .f32⟩
  | .hbm, ⟨36, _⟩ => ⟨S16x1, .f32⟩
  | .hbm, ⟨37, _⟩ => ⟨S16x16, .f32⟩
  | .hbm, ⟨38, _⟩ => ⟨S16x16, .f32⟩
  | .hbm, ⟨39, _⟩ => ⟨S16x1048576, .f32⟩
  | .hbm, ⟨40, _⟩ => ⟨S16x64x64x256, .f32⟩
  | .hbm, ⟨41, _⟩ => ⟨S1x1x1x1, .f32⟩
  | .hbm, ⟨42, _⟩ => ⟨S16x64x64x256, .f32⟩
  | .hbm, ⟨43, _⟩ => ⟨S16x64x64x256, .f32⟩
  | .hbm, ⟨44, _⟩ => ⟨S16x64x64x256, .f32⟩
  | _, _ => ⟨S16x64x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]

class Facts₀ : Prop where
  bcast_S32_S1x1x1x32_3 : S32.BroadcastsInDim S1x1x1x32 (![3] : Fin 1 → Fin S1x1x1x32.rank)
  bcast_S1x1x1x32_S16x64x64x32_0_1_2_3 : S1x1x1x32.BroadcastsInDim S16x64x64x32 (![0, 1, 2, 3] : Fin 4 → Fin S16x64x64x32.rank)
  bcast_S256_S1x1x1x256_3 : S256.BroadcastsInDim S1x1x1x256 (![3] : Fin 1 → Fin S1x1x1x256.rank)
  bcast_S1x1x1x256_S16x64x64x256_0_1_2_3 : S1x1x1x256.BroadcastsInDim S16x64x64x256 (![0, 1, 2, 3] : Fin 4 → Fin S16x64x64x256.rank)
  shapeCasts_S16x64x64x32_S16x131072 : S16x64x64x32.ShapeCasts S16x131072
  shapeCasts_S16x64x64x256_S16x1048576 : S16x64x64x256.ShapeCasts S16x1048576
  transposes_S16x131072_S131072x16_1_0 : S16x131072.Transposes [1, 0] S131072x16
  reducesTo_S16x16_S16_d1 : S16x16.ReducesTo [1] S16
  h_S_ : 0 < S_.numel
  bcast_S_S16 : S_.BroadcastsInDim S16 (![] : Fin 0 → Fin S16.rank)
  bcast_S16_S16x1_0 : S16.BroadcastsInDim S16x1 (![0] : Fin 1 → Fin S16x1.rank)
  bcast_S16x1_S16x16_0_1 : S16x1.BroadcastsInDim S16x16 (![0, 1] : Fin 2 → Fin S16x16.rank)
  shapeCasts_S16x1048576_S16x64x64x256 : S16x1048576.ShapeCasts S16x64x64x256
  bcast_S1_S1x1x1x1_3 : S1.BroadcastsInDim S1x1x1x1 (![3] : Fin 1 → Fin S1x1x1x1.rank)
  bcast_S1x1x1x1_S16x64x64x256_0_1_2_3 : S1x1x1x1.BroadcastsInDim S16x64x64x256 (![0, 1, 2, 3] : Fin 4 → Fin S16x64x64x256.rank)
  dot_S16x64x64x256_S256x32_S16x64x64x32_3_0_012_1_n_n_wf : DotDims.WF S16x64x64x256 S256x32 S16x64x64x32 [3] [0] [0, 1, 2] [1] [] []
  dot_S16x64x64x256_S256x256_S16x64x64x256_3_0_012_1_n_n_wf : DotDims.WF S16x64x64x256 S256x256 S16x64x64x256 [3] [0] [0, 1, 2] [1] [] []
  dot_S16x131072_S131072x16_S16x16_1_0_0_1_n_n_wf : DotDims.WF S16x131072 S131072x16 S16x16 [1] [0] [0] [1] [] []
  dot_S16x16_S16x1048576_S16x1048576_1_0_0_1_n_n_wf : DotDims.WF S16x16 S16x1048576 S16x1048576 [1] [0] [0] [1] [] []

variable [Facts₀]

def dot_S16x64x64x256_S256x32_S16x64x64x32_3_0_012_1_n_n : DotDims S16x64x64x256 S256x32 S16x64x64x32 where
  lhsContracting := [3]
  rhsContracting := [0]
  lhsNonContracting := [0, 1, 2]
  rhsNonContracting := [1]
  lhsBatch := []
  rhsBatch := []
  wf := dot_S16x64x64x256_S256x32_S16x64x64x32_3_0_012_1_n_n_wf
def dot_S16x64x64x256_S256x256_S16x64x64x256_3_0_012_1_n_n : DotDims S16x64x64x256 S256x256 S16x64x64x256 where
  lhsContracting := [3]
  rhsContracting := [0]
  lhsNonContracting := [0, 1, 2]
  rhsNonContracting := [1]
  lhsBatch := []
  rhsBatch := []
  wf := dot_S16x64x64x256_S256x256_S16x64x64x256_3_0_012_1_n_n_wf
def dot_S16x131072_S131072x16_S16x16_1_0_0_1_n_n : DotDims S16x131072 S131072x16 S16x16 where
  lhsContracting := [1]
  rhsContracting := [0]
  lhsNonContracting := [0]
  rhsNonContracting := [1]
  lhsBatch := []
  rhsBatch := []
  wf := dot_S16x131072_S131072x16_S16x16_1_0_0_1_n_n_wf
def dot_S16x16_S16x1048576_S16x1048576_1_0_0_1_n_n : DotDims S16x16 S16x1048576 S16x1048576 where
  lhsContracting := [1]
  rhsContracting := [0]
  lhsNonContracting := [0]
  rhsNonContracting := [1]
  lhsBatch := []
  rhsBatch := []
  wf := dot_S16x16_S16x1048576_S16x1048576_1_0_0_1_n_n_wf

class Facts : Prop extends Facts₀ where

variable [Facts]
-- ==== Proof.NamedRun.lean ====
/-
  The idealized kernel's run with its result named: every weakly fair execution of @main terminates, nothing
  faulting, the result buffer holding the last boundary's contents of it (the fold of the four host stretches and the
  three regions' write-backs from the launch memory) and every argument array as launched.
-/
import proofs.«145494_j13391708029779_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main from any memory with zero counters: the result buffer ends at the last boundary's contents
    `W7`, the arguments as launched. -/
theorem run : θ_run defs (onTc (τ := τ) (main (F := F))) ⟨m, fun _ => 0, ρ⟩ (fun r => ∀ c : Dev nD,
      r.2.mem ((c.tc : Thread nD τ).loc main_v22) = W7 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v22 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.Named

end
-- ==== Proof.Boundary.lean ====
/-
  The contents of the kernel's buffers at the boundaries between its host stretches and its three regions, read
  back to the launch memory: each region's operands as reshapes of the arguments or of the results of the region
  before, and the result as the reshape of the last region's output array.
-/
import proofs.«145494_j13391708029779_2_alg».proof.Proof.Gen.KernelIdeal.Frame
import Idealize.ShloMosaic.PureOps.Ideal

set_option maxRecDepth 16384

noncomputable section

namespace Cert.Attention.Boundary

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-- A buffer that no operation of a host stretch writes keeps its contents over the stretch. -/
macro "kept_over " ops:ident : tactic =>
  `(tactic| (refine StableHlo.after_of_forall_not_mem (b := _) _ _ (List.forall_iff_forall_mem.mp ?_)
             simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

/-! ## Region 0's operands: reshapes of the arguments -/

theorem V1_v0 (c : Dev nD) : V1 m ρ c main_v0 = shapeCast _ (m ((c : Thread nD τ).loc main_arg0)) shapeCasts_S16x64x64x256_S65536x256 := by
  show StableHlo.after hostOps0 (W0 m ρ c) (Proc.devRef .tc main_v0) = _
  after_results; rfl
theorem V1_v1 (c : Dev nD) : V1 m ρ c main_v1 = shapeCast _ (m ((c : Thread nD τ).loc main_arg4)) shapeCasts_S32_S1x32 := by
  show StableHlo.after hostOps0 (W0 m ρ c) (Proc.devRef .tc main_v1) = _
  after_results; rfl
theorem V1_v2 (c : Dev nD) : V1 m ρ c main_v2 = shapeCast _ (m ((c : Thread nD τ).loc main_arg5)) shapeCasts_S32_S1x32 := by
  show StableHlo.after hostOps0 (W0 m ρ c) (Proc.devRef .tc main_v2) = _
  after_results; rfl
theorem W1_v3 (c : Dev nD) : W1 m ρ c (Proc.devRef .tc main_v3) = shapeCast _ (m ((c : Thread nD τ).loc main_arg6)) shapeCasts_S256_S1x256 := by
  show StableHlo.after hostOps0 (W0 m ρ c) (Proc.devRef .tc main_v3) = _
  after_results; rfl
theorem W1_v4 (c : Dev nD) : W1 m ρ c (Proc.devRef .tc main_v4) = shapeCast _ (m ((c : Thread nD τ).loc main_arg7)) shapeCasts_S1_S1x1 := by
  show StableHlo.after hostOps0 (W0 m ρ c) (Proc.devRef .tc main_v4) = _
  after_results; rfl
theorem V1_arg1 (c : Dev nD) : V1 m ρ c main_arg1 = m ((c : Thread nD τ).loc main_arg1) := by
  show StableHlo.after hostOps0 (W0 m ρ c) (Proc.devRef .tc main_arg1) = _
  after_results
theorem V1_arg2 (c : Dev nD) : V1 m ρ c main_arg2 = m ((c : Thread nD τ).loc main_arg2) := by
  show StableHlo.after hostOps0 (W0 m ρ c) (Proc.devRef .tc main_arg2) = _
  after_results

/-! ## Region 1's operands: reshapes of region 0's two results -/

theorem V3_v6 (c : Dev nD) : V3 m ρ c main_v6 = shapeCast _ ((dat0 (V1 m ρ) c).arrAt 6 cfg0.N) shapeCasts_S65536x32_S16x131072 := by
  show StableHlo.after hostOps1 (W2 m ρ c) (Proc.devRef .tc main_v6) = _
  after_results
  rw [show W2 m ρ c (Proc.devRef .tc main_v5_1) = (dat0 (V1 m ρ) c).arrAt 6 cfg0.N from W2_arr m ρ c 6]
  rfl
theorem V3_v7 (c : Dev nD) : V3 m ρ c main_v7 = shapeCast _ ((dat0 (V1 m ρ) c).arrAt 5 cfg0.N) shapeCasts_S65536x32_S16x131072 := by
  show StableHlo.after hostOps1 (W2 m ρ c) (Proc.devRef .tc main_v7) = _
  after_results
  rw [show W2 m ρ c (Proc.devRef .tc main_v5_0) = (dat0 (V1 m ρ) c).arrAt 5 cfg0.N from W2_arr m ρ c 5]
  rfl

/-! ## Region 2's operands -/

theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := by kept_over hostOps1
    _ = W1 m ρ c (Proc.devRef .tc main_arg0) := W2_of_ne m ρ c main_arg0 (by decide)
    _ = W0 m ρ c (Proc.devRef .tc main_arg0) := by kept_over hostOps0
    _ = m ((c : Thread nD τ).loc main_arg0) := rfl

theorem V5_v20 (c : Dev nD) : V5 m ρ c main_v20 = shapeCast _ (m ((c : Thread nD τ).loc main_arg0)) shapeCasts_S16x64x64x256_S16x1048576 := by
  show StableHlo.after hostOps2 (W4 m ρ c) (Proc.devRef .tc main_v20) = _
  after_results
  rw [W4_arg0]
  rfl

theorem V5_arg3 (c : Dev nD) : V5 m ρ c main_arg3 = m ((c : Thread nD τ).loc main_arg3) :=
  calc W5 m ρ c (Proc.devRef .tc main_arg3)
    _ = W4 m ρ c (Proc.devRef .tc main_arg3) := by kept_over hostOps2
    _ = W3 m ρ c (Proc.devRef .tc main_arg3) := W4_of_ne m ρ c main_arg3 (by decide)
    _ = W2 m ρ c (Proc.devRef .tc main_arg3) := by kept_over hostOps1
    _ = W1 m ρ c (Proc.devRef .tc main_arg3) := W2_of_ne m ρ c main_arg3 (by decide)
    _ = W0 m ρ c (Proc.devRef .tc main_arg3) := by kept_over hostOps0
    _ = m ((c : Thread nD τ).loc main_arg3) := rfl

theorem V5_v3 (c : Dev nD) : V5 m ρ c main_v3 = shapeCast _ (m ((c : Thread nD τ).loc main_arg6)) shapeCasts_S256_S1x256 :=
  calc W5 m ρ c (Proc.devRef .tc main_v3)
    _ = W4 m ρ c (Proc.devRef .tc main_v3) := by kept_over hostOps2
    _ = W3 m ρ c (Proc.devRef .tc main_v3) := W4_of_ne m ρ c main_v3 (by decide)
    _ = W2 m ρ c (Proc.devRef .tc main_v3) := by kept_over hostOps1
    _ = W1 m ρ c (Proc.devRef .tc main_v3) := W2_of_ne m ρ c main_v3 (by decide)
    _ = _ := W1_v3 m ρ c

theorem V5_v4 (c : Dev nD) : V5 m ρ c main_v4 = shapeCast _ (m ((c : Thread nD τ).loc main_arg7)) shapeCasts_S1_S1x1 :=
  calc W5 m ρ c (Proc.devRef .tc main_v4)
    _ = W4 m ρ c (Proc.devRef .tc main_v4) := by kept_over hostOps2
    _ = W3 m ρ c (Proc.devRef .tc main_v4) := W4_of_ne m ρ c main_v4 (by decide)
    _ = W2 m ρ c (Proc.devRef .tc main_v4) := by kept_over hostOps1
    _ = W1 m ρ c (Proc.devRef .tc main_v4) := W2_of_ne m ρ c main_v4 (by decide)
    _ = _ := W1_v4 m ρ c

/-! ## The result: the reshape of region 2's output array -/

theorem W7_v22 (c : Dev nD) : W7 m ρ c (Proc.devRef .tc main_v22) = shapeCast _ ((dat2 (V5 m ρ) c).arrAt 5 cfg2.N) shapeCasts_S16x1048576_S16x64x64x256 := by
  show StableHlo.after hostOps3 (W6 m ρ c) (Proc.devRef .tc main_v22) = _
  after_results
  rw [show W6 m ρ c (Proc.devRef .tc main_v21) = (dat2 (V5 m ρ) c).arrAt 5 cfg2.N from W6_arr m ρ c 5]
  rfl

end Cert.Attention.Boundary

end
-- ==== Proof.SoftmaxDef.lean ====
/-
  The row-wise softmax of a 16 × 16 array of extended reals, as the composition of the host's operations on whole
  arrays: for every row, the maximum of the row's entries (a maximum reduction started from −∞ and joined once more
  with −∞), the exponential of every entry less its row's maximum, the sum of these exponentials along the row
  (started from 0), and the quotient of every exponential by its row's sum.  A row's maximum and a row's sum are
  vectors of 16 entries; each is made a 16 × 1 column and the column is spread over the 16 columns before it meets
  the array again.
-/
import Idealize.ShloMosaic.PureOps.Ideal
import proofs.«145494_j13391708029779_2_alg».proof.KernelIdeal

noncomputable section

namespace Cert.Attention.Softmax

open Idealize.ShloMosaic
open Cert.KernelIdeal Cert.KernelIdeal.Facts₀

variable [Cert.KernelIdeal.Facts₀]

/-- The softmax along the last axis: `exp (s − rowmax s) / rowsum (exp (s − rowmax s))`, every step a whole-array
    operation of the host at the extended reals. -/
def softmaxRows (s : FVec Ideal S16x16 .f32) : FVec Ideal S16x16 .f32 :=
  Host.divf
    (Host.exp (subf s
      (broadcastInDim S16x16 ![0, 1] bcast_S16x1_S16x16_0_1
        (broadcastInDim S16x1 ![0] bcast_S16_S16x1_0
          (maximumf (broadcastInDim S16 ![] bcast_S_S16 (constant (F := Ideal) S_ .f32 0xFF800000#32))
            (Host.reduce (FloatOps.maximumf (F := Ideal) (φ := .f32)) s (constant (F := Ideal) S_ .f32 0xFF800000#32)
              reducesTo_S16x16_S16_d1 h_S_))))))
    (broadcastInDim S16x16 ![0, 1] bcast_S16x1_S16x16_0_1
      (broadcastInDim S16x1 ![0] bcast_S16_S16x1_0
        (Host.reduceAdd
          (Host.exp (subf s
            (broadcastInDim S16x16 ![0, 1] bcast_S16x1_S16x16_0_1
              (broadcastInDim S16x1 ![0] bcast_S16_S16x1_0
                (maximumf (broadcastInDim S16 ![] bcast_S_S16 (constant (F := Ideal) S_ .f32 0xFF800000#32))
                  (Host.reduce (FloatOps.maximumf (F := Ideal) (φ := .f32)) s (constant (F := Ideal) S_ .f32 0xFF800000#32)
                    reducesTo_S16x16_S16_d1 h_S_))))))
          (constant (F := Ideal) S_ .f32 0x00000000#32) reducesTo_S16x16_S16_d1 h_S_)))

end Cert.Attention.Softmax

end
-- ==== Proof.Weights.lean ====
/-
  Region 2's attention weights: the host stretch between regions 1 and 2 is the row-wise softmax of region 1's
  output array (the scores).
-/
import proofs.«145494_j13391708029779_2_alg».proof.Proof.Boundary
import proofs.«145494_j13391708029779_2_alg».proof.Proof.SoftmaxDef

set_option maxRecDepth 16384

noncomputable section

namespace Cert.Attention.Boundary

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

theorem V5_v19 (c : Dev nD) :
    V5 m ρ c main_v19 = Cert.Attention.Softmax.softmaxRows ((dat1 (V3 m ρ) c).arrAt 2 cfg1.N) := by
  show StableHlo.after hostOps2 (W4 m ρ c) (Proc.devRef .tc main_v19) = _
  after_results
  rw [show W4 m ρ c (Proc.devRef .tc main_v8) = (dat1 (V3 m ρ) c).arrAt 2 cfg1.N from W4_arr m ρ c 2]
  rfl

end Cert.Attention.Boundary

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibDotColsHost.lean ====
/-
  The host's plain matrix product read at one entry.

  For `x : M × K` and `y : K × N` the host's `dot_general` with dimension numbers "contract axis 1 of the left with axis 0 of
  the right, keep axis 0 of the left and axis 1 of the right" has no accumulator: over the extended reals its entry `(p, q)` is
  `∑ k, x[p, k] · y[k, q]`. The operand indices are those of the plain product (the companion module identifies them with the
  coordinate pairs `(p, k)` and `(k, q)`); only the operation differs.
-/
import proofs.«145494_j13391708029779_2_alg».proof.Proof.LibDotCols

noncomputable section

open scoped BigOperators

namespace Cert.Lib.DotColsHost

open Idealize.ShloMosaic Idealize.ShloMosaic.ValueIdx Cert.Lib.DotCols

variable {M K N : Nat}

/-- THE HOST'S PLAIN PRODUCT AT AN ENTRY. Over the extended reals, a `dot_general` with these dimension numbers (any record `D`
    that spells them: `hD`), whatever its precision and schedule, holds at `(p, q)` the sum `∑ k, x[p, k] · y[k, q]`. -/
theorem dotGeneral_cols_apply {φ₁ φ₂ : FTy} (D : DotDims ⟨2, ![M, K]⟩ ⟨2, ![K, N]⟩ ⟨2, ![M, N]⟩) (hD : D = DotDims.plain M K N)
    (prec : Option ContractPrecision) (sched : HostSchedule) (x : FVec Ideal ⟨2, ![M, K]⟩ φ₁) (y : FVec Ideal ⟨2, ![K, N]⟩ φ₂)
    (p : Fin M) (q : Fin N) :
    FloatOps.dotGeneral D prec sched x y (ix2 p q) = ∑ k : Fin K, x (ix2 p k) * y (ix2 k q) := by
  subst hD
  rw [Ideal.dotGeneral_apply, ← Equiv.sum_comp (contrEquiv1 (DotDims.plain M K N) K rfl rfl).symm]
  refine Finset.sum_congr rfl fun k _ => ?_
  rw [lhsIdx_cols, rhsIdx_cols]

end Cert.Lib.DotColsHost

end
-- ==== Proof.LibDenseLayer.lean ====
/-
  One dense layer, entry by entry.

  For `X : n × K`, `W : K × N` and a bias row `B : 1 × N` the layer's entry `(r, q)` is `∑ k, X[r, k] · W[k, q] + B[0, q]`
  (`affine`), and after the rectifier `max (…) 0` (`affineRelu`). Over the extended reals a change of float format is the
  identity, so three spellings of the layer are this one function:
    • a kernel body's block: the operands rounded to bf16, multiplied into the zero accumulator, the bias row broadcast over the
      rows and added, the maximum with a broadcast zero (`block_affine_eq`, `block_affineRelu_eq`);
    • the host's: `dot_general`, the bias vector broadcast to a row and then over the rows, added, the maximum with a broadcast
      zero (`host_affine_eq`, `host_affineRelu_eq`) — the bias row there is the bias vector cast to `1 × N`;
    • and an entry of the layer depends on ONE row of `X` only (`affine_entry`, `affineRelu_entry`), which is what lets a grid of
      row blocks compute the layer of the whole array.
-/
import proofs.«145494_j13391708029779_2_alg».proof.Proof.LibDotColsHost
import Idealize.ShloMosaic.Lib.Pipeline.Value
import Idealize.ShloMosaic.Lib.ValueLayout

noncomputable section

open scoped BigOperators

namespace Cert.Lib.DenseLayer

open Idealize.ShloMosaic Idealize.ShloMosaic.ValueIdx Cert.Lib.DotCols Cert.Lib.DotColsHost

variable {n M K N : Nat}

/-- Entry `(r, q)` of `X · W` plus the bias row's entry `q`. -/
def affine (X : FVec Ideal ⟨2, ![n, K]⟩ .f32) (W : FVec Ideal ⟨2, ![K, N]⟩ .f32) (B : FVec Ideal ⟨2, ![1, N]⟩ .f32) :
    FVec Ideal ⟨2, ![n, N]⟩ .f32 :=
  fun i => (∑ k : Fin K, X (ix2 (n0 := n) (n1 := K) (i 0) k) * W (ix2 (n0 := K) (n1 := N) k (i 1)))
    + B (ix2 (n0 := 1) (n1 := N) (0 : Fin 1) (i 1))

/-- The same, rectified: the maximum with the float zero. -/
def affineRelu (X : FVec Ideal ⟨2, ![n, K]⟩ .f32) (W : FVec Ideal ⟨2, ![K, N]⟩ .f32) (B : FVec Ideal ⟨2, ![1, N]⟩ .f32) :
    FVec Ideal ⟨2, ![n, N]⟩ .f32 :=
  fun i => max (affine X W B i) (Ideal.ofBits .f32 0x00000000#32)

theorem affine_apply (X : FVec Ideal ⟨2, ![n, K]⟩ .f32) (W : FVec Ideal ⟨2, ![K, N]⟩ .f32) (B : FVec Ideal ⟨2, ![1, N]⟩ .f32)
    (r : Fin n) (q : Fin N) :
    affine X W B (ix2 r q) = (∑ k : Fin K, X (ix2 r k) * W (ix2 k q)) + B (ix2 (0 : Fin 1) q) := rfl

theorem affineRelu_apply (X : FVec Ideal ⟨2, ![n, K]⟩ .f32) (W : FVec Ideal ⟨2, ![K, N]⟩ .f32) (B : FVec Ideal ⟨2, ![1, N]⟩ .f32)
    (r : Fin n) (q : Fin N) :
    affineRelu X W B (ix2 r q)
      = max ((∑ k : Fin K, X (ix2 r k) * W (ix2 k q)) + B (ix2 (0 : Fin 1) q)) (Ideal.ofBits .f32 0x00000000#32) := rfl

/-! ## An entry reads one row of the left operand, one column of the right and one entry of the bias -/

/-- If row `p` of `x` is row `r` of `X`, and column `q` of the weights and entry `q` of the bias row agree, the layer of `x` at
    `(p, q)` is the layer of `X` at `(r, q)`. -/
theorem affine_entry (X : FVec Ideal ⟨2, ![n, K]⟩ .f32) (x : FVec Ideal ⟨2, ![M, K]⟩ .f32) (W W' : FVec Ideal ⟨2, ![K, N]⟩ .f32)
    (B B' : FVec Ideal ⟨2, ![1, N]⟩ .f32) (p : Fin M) (r : Fin n) (q : Fin N)
    (hrow : ∀ k : Fin K, x (ix2 p k) = X (ix2 r k)) (hcol : ∀ k : Fin K, W' (ix2 k q) = W (ix2 k q))
    (hbias : B' (ix2 (0 : Fin 1) q) = B (ix2 (0 : Fin 1) q)) :
    affine x W' B' (ix2 p q) = affine X W B (ix2 r q) := by
  rw [affine_apply, affine_apply, hbias]
  exact congrArg (· + B (ix2 (0 : Fin 1) q)) (Finset.sum_congr rfl fun k _ => by rw [hrow k, hcol k])

theorem affineRelu_entry (X : FVec Ideal ⟨2, ![n, K]⟩ .f32) (x : FVec Ideal ⟨2, ![M, K]⟩ .f32) (W W' : FVec Ideal ⟨2, ![K, N]⟩ .f32)
    (B B' : FVec Ideal ⟨2, ![1, N]⟩ .f32) (p : Fin M) (r : Fin n) (q : Fin N)
    (hrow : ∀ k : Fin K, x (ix2 p k) = X (ix2 r k)) (hcol : ∀ k : Fin K, W' (ix2 k q) = W (ix2 k q))
    (hbias : B' (ix2 (0 : Fin 1) q) = B (ix2 (0 : Fin 1) q)) :
    affineRelu x W' B' (ix2 p q) = affineRelu X W B (ix2 r q) :=
  congrArg (fun v => max v (Ideal.ofBits .f32 0x00000000#32)) (affine_entry X x W W' B B' p r q hrow hcol hbias)

/-! ## A kernel body's block -/

/-- The body's sum: both operands rounded to bf16 (the identity here), multiplied into the zero accumulator, plus the bias row
    broadcast over the rows. -/
theorem block_affine_eq (D : DotDims ⟨2, ![M, K]⟩ ⟨2, ![K, N]⟩ ⟨2, ![M, N]⟩) (hD : D = DotDims.plain M K N)
    (h0 : (⟨2, ![M, K]⟩ : Shape).ShapeCasts ⟨2, ![M, K]⟩) (h2 : (⟨2, ![1, N]⟩ : Shape).ShapeCasts ⟨2, ![1, N]⟩)
    (hb : (⟨2, ![1, N]⟩ : Shape).Broadcasts ⟨2, ![M, N]⟩) (hbits : FTy.bits .bf16 < FTy.bits .f32)
    (x0 : FVec Ideal ⟨2, ![M, K]⟩ .f32) (x1 : FVec Ideal ⟨2, ![K, N]⟩ .f32) (x2 : FVec Ideal ⟨2, ![1, N]⟩ .f32) :
    addf (matmul D none (truncf .bf16 (shapeCast ⟨2, ![M, K]⟩ x0 h0) hbits) (truncf .bf16 x1 hbits)
        (constant ⟨2, ![M, N]⟩ .f32 0x00000000#32))
      (broadcastTo ⟨2, ![M, N]⟩ (shapeCast ⟨2, ![1, N]⟩ x2 h2) hb) = affine x0 x1 x2 := by
  funext i
  obtain ⟨p, q, rfl⟩ : ∃ (p : Fin M) (q : Fin N), i = ix2 p q := ⟨i 0, i 1, eq_ix2 i⟩
  rw [affine_apply, addf_apply, shapeCast_self, shapeCast_self, broadcastTo_1b_ab_apply]
  refine congrArg (· + x2 (ix2 (0 : Fin 1) q)) ?_
  exact (matmul_cols_apply D hD none (truncf .bf16 x0 hbits) (truncf .bf16 x1 hbits) p q).trans
    (Finset.sum_congr rfl fun k _ => rfl)

/-- … and its maximum with a broadcast zero. -/
theorem block_affineRelu_eq (D : DotDims ⟨2, ![M, K]⟩ ⟨2, ![K, N]⟩ ⟨2, ![M, N]⟩) (hD : D = DotDims.plain M K N)
    (h0 : (⟨2, ![M, K]⟩ : Shape).ShapeCasts ⟨2, ![M, K]⟩) (h2 : (⟨2, ![1, N]⟩ : Shape).ShapeCasts ⟨2, ![1, N]⟩)
    (hb : (⟨2, ![1, N]⟩ : Shape).Broadcasts ⟨2, ![M, N]⟩) (hbits : FTy.bits .bf16 < FTy.bits .f32)
    (x0 : FVec Ideal ⟨2, ![M, K]⟩ .f32) (x1 : FVec Ideal ⟨2, ![K, N]⟩ .f32) (x2 : FVec Ideal ⟨2, ![1, N]⟩ .f32) :
    maximumf (addf (matmul D none (truncf .bf16 (shapeCast ⟨2, ![M, K]⟩ x0 h0) hbits) (truncf .bf16 x1 hbits)
          (constant ⟨2, ![M, N]⟩ .f32 0x00000000#32))
        (broadcastTo ⟨2, ![M, N]⟩ (shapeCast ⟨2, ![1, N]⟩ x2 h2) hb))
      (broadcast ⟨2, ![M, N]⟩ (Scalar.ofBits (F := Ideal) .f32 0x00000000#32)) = affineRelu x0 x1 x2 := by
  rw [block_affine_eq D hD h0 h2 hb hbits]
  rfl

/-! ## The host's layer -/

/-- A bias vector broadcast to a row and then over the rows reads, at `(r, q)`, its entry `q`. -/
theorem bias_rows_apply (hb1 : (⟨1, ![N]⟩ : Shape).BroadcastsInDim ⟨2, ![1, N]⟩ ![1])
    (hb2 : (⟨2, ![1, N]⟩ : Shape).BroadcastsInDim ⟨2, ![n, N]⟩ ![0, 1]) (b : FVec Ideal ⟨1, ![N]⟩ .f32) (r : Fin n) (q : Fin N) :
    broadcastInDim ⟨2, ![n, N]⟩ ![0, 1] hb2 (broadcastInDim ⟨2, ![1, N]⟩ ![1] hb1 b) (ix2 r q) = b (ix1 q) := by
  rw [broadcastInDim_apply ![0, 1] hb2 _ (ix2 r q) (ix2 (0 : Fin 1) q) (fun a => by
      match a with
      | ⟨0, _⟩ => exact (if_pos rfl).symm
      | ⟨1, _⟩ =>
        show q.val = if N = 1 then 0 else q.val
        split
        · have := q.isLt; omega
        · rfl),
    broadcastInDim_apply ![1] hb1 b (ix2 (0 : Fin 1) q) (ix1 q) (fun a => by
      match a with
      | ⟨0, _⟩ =>
        show q.val = if N = 1 then 0 else q.val
        split
        · have := q.isLt; omega
        · rfl)]

/-- The bias vector cast to a row reads the same entry. -/
theorem bias_cast_apply (hsc : (⟨1, ![N]⟩ : Shape).ShapeCasts ⟨2, ![1, N]⟩) (b : FVec Ideal ⟨1, ![N]⟩ .f32) (q : Fin N) :
    shapeCast ⟨2, ![1, N]⟩ b hsc (ix2 (0 : Fin 1) q) = b (ix1 q) :=
  shapeCast_a_1a_apply b hsc 0 q

/-- The host's product plus the broadcast bias is the layer at the bias cast to a row. -/
theorem host_affine_eq (D : DotDims ⟨2, ![n, K]⟩ ⟨2, ![K, N]⟩ ⟨2, ![n, N]⟩) (hD : D = DotDims.plain n K N)
    (hb1 : (⟨1, ![N]⟩ : Shape).BroadcastsInDim ⟨2, ![1, N]⟩ ![1])
    (hb2 : (⟨2, ![1, N]⟩ : Shape).BroadcastsInDim ⟨2, ![n, N]⟩ ![0, 1])
    (hsc : (⟨1, ![N]⟩ : Shape).ShapeCasts ⟨2, ![1, N]⟩)
    (X : FVec Ideal ⟨2, ![n, K]⟩ .f32) (W : FVec Ideal ⟨2, ![K, N]⟩ .f32) (b : FVec Ideal ⟨1, ![N]⟩ .f32) :
    addf (Host.dotGeneral D none X W) (broadcastInDim ⟨2, ![n, N]⟩ ![0, 1] hb2 (broadcastInDim ⟨2, ![1, N]⟩ ![1] hb1 b))
      = affine X W (shapeCast ⟨2, ![1, N]⟩ b hsc) := by
  funext i
  obtain ⟨r, q, rfl⟩ : ∃ (r : Fin n) (q : Fin N), i = ix2 r q := ⟨i 0, i 1, eq_ix2 i⟩
  rw [affine_apply, addf_apply, bias_rows_apply hb1 hb2 b r q, bias_cast_apply hsc b q]
  exact congrArg (· + b (ix1 q)) (dotGeneral_cols_apply D hD none .single X W r q)

/-- … and its maximum with a broadcast zero the rectified layer. -/
theorem host_affineRelu_eq (D : DotDims ⟨2, ![n, K]⟩ ⟨2, ![K, N]⟩ ⟨2, ![n, N]⟩) (hD : D = DotDims.plain n K N)
    (hb1 : (⟨1, ![N]⟩ : Shape).BroadcastsInDim ⟨2, ![1, N]⟩ ![1])
    (hb2 : (⟨2, ![1, N]⟩ : Shape).BroadcastsInDim ⟨2, ![n, N]⟩ ![0, 1])
    (hb0 : (⟨0, ![]⟩ : Shape).BroadcastsInDim ⟨2, ![n, N]⟩ ![])
    (hsc : (⟨1, ![N]⟩ : Shape).ShapeCasts ⟨2, ![1, N]⟩)
    (X : FVec Ideal ⟨2, ![n, K]⟩ .f32) (W : FVec Ideal ⟨2, ![K, N]⟩ .f32) (b : FVec Ideal ⟨1, ![N]⟩ .f32) :
    maximumf (addf (Host.dotGeneral D none X W) (broadcastInDim ⟨2, ![n, N]⟩ ![0, 1] hb2 (broadcastInDim ⟨2, ![1, N]⟩ ![1] hb1 b)))
        (broadcastInDim ⟨2, ![n, N]⟩ ![] hb0 (constant (F := Ideal) ⟨0, ![]⟩ .f32 0x00000000#32))
      = affineRelu X W (shapeCast ⟨2, ![1, N]⟩ b hsc) := by
  rw [host_affine_eq D hD hb1 hb2 hsc]
  funext i
  rw [maximumf_apply, broadcastInDim_apply ![] hb0 _ i ix0 (fun a => a.elim0)]
  rfl

/-- The rectifier applied twice is the rectifier: `max (max v 0) 0 = max v 0`. -/
theorem relu_relu (Y : FVec Ideal ⟨2, ![n, N]⟩ .f32) (hb0 : (⟨0, ![]⟩ : Shape).BroadcastsInDim ⟨2, ![n, N]⟩ ![]) :
    maximumf (maximumf Y (broadcastInDim ⟨2, ![n, N]⟩ ![] hb0 (constant (F := Ideal) ⟨0, ![]⟩ .f32 0x00000000#32)))
        (broadcastInDim ⟨2, ![n, N]⟩ ![] hb0 (constant (F := Ideal) ⟨0, ![]⟩ .f32 0x00000000#32))
      = maximumf Y (broadcastInDim ⟨2, ![n, N]⟩ ![] hb0 (constant (F := Ideal) ⟨0, ![]⟩ .f32 0x00000000#32)) := by
  funext i
  rw [maximumf_apply, maximumf_apply]
  exact max_eq_left (le_max_right _ _)

end Cert.Lib.DenseLayer

end
-- ==== Proof.Spec.lean ====
/-
  The three stages of the attention kernel as whole-array functions on the extended reals, index by index.

  * stage 1 (projections): a dense layer on the 65536 pixel rows, `affine X W B (r, d) = Σ_c X[r,c]·W[c,d] + B[0,d]`
    (the layer of the dense-layer library);
  * stage 2 (scores): `scores G F (p, q) = Σ_k G[p,k]·F[q,k]`, the product of the two flattened projections that
    contracts their last axes (131072 terms);
  * stage 3 (finish): with attention weights `β` (16×16), the flattened input `XF` (16 × 1048576, a row is 4096
    pixels of 256 channels), the weights `Wh`, the bias row `Bh` and the scale `Γ`, entry `(p, n)` with
    `n = 256·pix + d` is `Γ·(Σ_c (Σ_q β[p,q]·XF[q, 256·pix + c])·Wh[c,d] + Bh[0,d]) + XF[p,n]`:
    the batch mix is taken BEFORE the channel product.
-/
import Idealize.ShloMosaic.PureOps.Ideal
import Idealize.ShloMosaic.Lib.ValueIdx
import proofs.«145494_j13391708029779_2_alg».proof.Proof.LibDenseLayer

noncomputable section

namespace Cert.Attention

open Idealize.ShloMosaic Idealize.ShloMosaic.ValueIdx

/-- Column `256·(n / 256) + c` of a flattened row: channel `c` of the pixel that column `n` belongs to. -/
def pixCol (n : Fin 1048576) (c : Fin 256) : Fin 1048576 :=
  ⟨256 * (n.val / 256) + c.val, by have := n.isLt; have := c.isLt; omega⟩

/-- The channel `n % 256` of column `n` of a flattened row. -/
def chan (n : Fin 1048576) : Fin 256 := ⟨n.val % 256, Nat.mod_lt _ (by decide)⟩

/-- The scores: entry `(p, q)` is `Σ_k G[p,k]·F[q,k]`. -/
def scores (G F : FVec Ideal ⟨2, ![16, 131072]⟩ .f32) : FVec Ideal ⟨2, ![16, 16]⟩ .f32 :=
  fun j => ∑ k : Fin 131072, G (ix2 (n0 := 16) (n1 := 131072) (j 0) k) * F (ix2 (n0 := 16) (n1 := 131072) (j 1) k)

theorem scores_apply (G F : FVec Ideal ⟨2, ![16, 131072]⟩ .f32) (p q : Fin 16) :
    scores G F (ix2 p q) = ∑ k : Fin 131072, G (ix2 p k) * F (ix2 q k) := rfl

/-- The batch mix of one pixel's channel `c`: `Σ_q β[p,q]·XF[q, 256·pix + c]`. -/
def mixAt (β : FVec Ideal ⟨2, ![16, 16]⟩ .f32) (XF : FVec Ideal ⟨2, ![16, 1048576]⟩ .f32) (p : Fin 16) (n : Fin 1048576)
    (c : Fin 256) : EReal :=
  ∑ q : Fin 16, β (ix2 p q) * XF (ix2 q (pixCol n c))

/-- The finishing stage, the mix taken before the channel product. -/
def finish (β : FVec Ideal ⟨2, ![16, 16]⟩ .f32) (XF : FVec Ideal ⟨2, ![16, 1048576]⟩ .f32)
    (Wh : FVec Ideal ⟨2, ![256, 256]⟩ .f32) (Bh : FVec Ideal ⟨2, ![1, 256]⟩ .f32) (Γ : FVec Ideal ⟨2, ![1, 1]⟩ .f32) :
    FVec Ideal ⟨2, ![16, 1048576]⟩ .f32 :=
  fun j => Γ (ix2 (0 : Fin 1) (0 : Fin 1))
      * ((∑ c : Fin 256, mixAt β XF (j 0) (j 1) c * Wh (ix2 c (chan (j 1)))) + Bh (ix2 (0 : Fin 1) (chan (j 1))))
    + XF (ix2 (n0 := 16) (n1 := 1048576) (j 0) (j 1))

theorem finish_apply (β : FVec Ideal ⟨2, ![16, 16]⟩ .f32) (XF : FVec Ideal ⟨2, ![16, 1048576]⟩ .f32)
    (Wh : FVec Ideal ⟨2, ![256, 256]⟩ .f32) (Bh : FVec Ideal ⟨2, ![1, 256]⟩ .f32) (Γ : FVec Ideal ⟨2, ![1, 1]⟩ .f32)
    (p : Fin 16) (n : Fin 1048576) :
    finish β XF Wh Bh Γ (ix2 p n) = Γ (ix2 (0 : Fin 1) (0 : Fin 1))
      * ((∑ c : Fin 256, mixAt β XF p n c * Wh (ix2 c (chan n))) + Bh (ix2 (0 : Fin 1) (chan n))) + XF (ix2 p n) := rfl

end Cert.Attention

end
-- ==== Proof.Region0.lean ====
/-
  Region 0 (the two projections): each output array of the first kernel is one dense layer of the whole input.

  The kernel walks the 65536 pixel rows in 32 blocks of 2048 rows. At block t it reads rows 2048·t … 2048·t + 2047 of the
  input X (65536 × 256), the whole weight matrices W₁, W₂ (256 × 32) and the whole bias rows B₁, B₂ (1 × 32), and writes
  rows 2048·t … 2048·t + 2047 of the two outputs (65536 × 32):
      out₁[r, q] = Σ_k X[r, k] · W₁[k, q] + B₁[0, q],      out₂[r, q] = Σ_k X[r, k] · W₂[k, q] + B₂[0, q].
  An entry of a dense layer reads one row of X only, so the layer of a row block is the row block of the layer of X; the 32
  row blocks cover every row (row r lies in block r / 2048), hence each output array ends holding the layer of X.
-/
import proofs.«145494_j13391708029779_2_alg».proof.Proof.Gen.KernelIdeal.Frame
import proofs.«145494_j13391708029779_2_alg».proof.Proof.Spec
import proofs.«145494_j13391708029779_2_alg».proof.Proof.LibDenseLayer

set_option maxRecDepth 16384

noncomputable section

open Idealize.ShloMosaic Idealize.ShloMosaic.TcCoe Idealize.SL.Sem
open Idealize.ShloMosaic.Pipeline (Dat)
open Idealize.ShloMosaic.ValueIdx

namespace Cert.Attention.Region0

open Cert.KernelIdeal Cert.KernelIdeal.Gen Cert.Lib.DenseLayer

variable (V : (c : Dev nD) → (b : Ref sig .tc) → Buf (Elt Ideal) ((c : Thread nD τ).loc b))

theorem hz : (![0, 0] : Fin 2 → Nat) = fun _ => 0 := funext fun a => by fin_cases a <;> rfl

/-! ## The body's two payloads are dense layers of the blocks -/

theorem pay2_eq (x0 : Vec Ideal S2048x256 .f32) (w : Vec Ideal S256x32 .f32) (b : Vec Ideal S1x32 .f32) :
    k0_pay2 x0 w b = affine x0 w b := by
  unfold k0_pay2 k0_pay1
  exact block_affine_eq dot_S2048x256_S256x32_S2048x32_1_0_0_1_n_n rfl _ _ _ _ x0 w b

theorem pay3_eq (x0 : Vec Ideal S2048x256 .f32) (w : Vec Ideal S256x32 .f32) (b : Vec Ideal S1x32 .f32) :
    k0_pay3 x0 w b = affine x0 w b := by
  unfold k0_pay3 k0_pay1
  exact block_affine_eq dot_S2048x256_S256x32_S2048x32_1_0_0_1_n_n rfl _ _ _ _ x0 w b

/-! ## The index maps, decided over the 32 grid points -/

/-- The input's and the two outputs' row-block index at point t is t, their column-block index 0; the weights' and the bias
    rows' block indices are 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The input blocks as parts of the arrays -/

/-- Row p of the input's block at point t is row 2048·t + p of the input. -/
theorem iblk_x (c : Dev nD) (t : Fin cfg0.N) (y : S2048x256.Idx) (i : S65536x256.Idx)
    (h0 : (i 0).val = 2048 * t.val + (y 0).val) (h1 : (i 1).val = (y 1).val) :
    (iblk0 V c 0 t : Vec Ideal S2048x256 .f32) y = (V c main_v0 : S65536x256.Idx → EReal) i := by
  obtain ⟨e0, e1, -⟩ := idx_facts t
  unfold iblk0
  rw [View.read_apply]
  show V c main_v0 (((cfg0.win 0).blk t).view.emb y) = V c main_v0 i
  congr 1
  funext a
  apply Fin.ext
  match a with
  | ⟨0, _⟩ => show win0_0.index t (0 : Fin 2) * 2048 + 1 * (y 0).val = (i 0).val; rw [e0, h0]; omega
  | ⟨1, _⟩ => show win0_0.index t (1 : Fin 2) * 256 + 1 * (y 1).val = (i 1).val; rw [e1, h1]; omega

/-- The first weight matrix's block at every point is the whole matrix. -/
theorem iblk_w1 (c : Dev nD) (t : Fin cfg0.N) :
    (iblk0 V c 1 t : Vec Ideal S256x32 .f32) = (V c main_arg1 : S256x32.Idx → EReal) := by
  obtain ⟨-, -, e0, e1, -⟩ := idx_facts t
  funext y
  unfold iblk0
  rw [View.read_apply]
  show V c main_arg1 (((cfg0.win 1).blk t).view.emb y) = V c main_arg1 y
  congr 1
  funext a
  apply Fin.ext
  match a with
  | ⟨0, _⟩ => show win0_1.index t (0 : Fin 2) * 256 + 1 * (y 0).val = (y 0).val; rw [e0]; omega
  | ⟨1, _⟩ => show win0_1.index t (1 : Fin 2) * 32 + 1 * (y 1).val = (y 1).val; rw [e1]; omega

/-- The second weight matrix's block at every point is the whole matrix. -/
theorem iblk_w2 (c : Dev nD) (t : Fin cfg0.N) :
    (iblk0 V c 2 t : Vec Ideal S256x32 .f32) = (V c main_arg2 : S256x32.Idx → EReal) := by
  obtain ⟨-, -, -, -, e0, e1, -⟩ := idx_facts t
  funext y
  unfold iblk0
  rw [View.read_apply]
  show V c main_arg2 (((cfg0.win 2).blk t).view.emb y) = V c main_arg2 y
  congr 1
  funext a
  apply Fin.ext
  match a with
  | ⟨0, _⟩ => show win0_2.index t (0 : Fin 2) * 256 + 1 * (y 0).val = (y 0).val; rw [e0]; omega
  | ⟨1, _⟩ => show win0_2.index t (1 : Fin 2) * 32 + 1 * (y 1).val = (y 1).val; rw [e1]; omega

/-- The first bias row's block at every point is the whole row. -/
theorem iblk_b1 (c : Dev nD) (t : Fin cfg0.N) :
    (iblk0 V c 3 t : Vec Ideal S1x32 .f32) = (V c main_v1 : S1x32.Idx → EReal) := by
  obtain ⟨-, -, -, -, -, -, e0, e1, -⟩ := idx_facts t
  funext y
  unfold iblk0
  rw [View.read_apply]
  show V c main_v1 (((cfg0.win 3).blk t).view.emb y) = V c main_v1 y
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 32 + 1 * (y 1).val = (y 1).val; rw [e1]; omega

/-- The second bias row's block at every point is the whole row. -/
theorem iblk_b2 (c : Dev nD) (t : Fin cfg0.N) :
    (iblk0 V c 4 t : Vec Ideal S1x32 .f32) = (V c main_v2 : S1x32.Idx → EReal) := by
  obtain ⟨-, -, -, -, -, -, -, -, e0, e1, -⟩ := idx_facts t
  funext y
  unfold iblk0
  rw [View.read_apply]
  show V c main_v2 (((cfg0.win 4).blk t).view.emb y) = V c main_v2 y
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 32 + 1 * (y 1).val = (y 1).val; rw [e1]; omega

/-! ## A row block of the layer is the layer of the row block -/

/-- If row p of x is row 2048·n + p of X, the layer of x at (p, q) is the layer of X at (2048·n + p, q). -/
theorem layer_block (X : FVec Ideal ⟨2, ![65536, 256]⟩ .f32) (x : FVec Ideal ⟨2, ![2048, 256]⟩ .f32)
    (W : FVec Ideal ⟨2, ![256, 32]⟩ .f32) (B : FVec Ideal ⟨2, ![1, 32]⟩ .f32) (n : Nat)
    (hx : ∀ (y : (⟨2, ![2048, 256]⟩ : Shape).Idx) (i : (⟨2, ![65536, 256]⟩ : Shape).Idx),
      (i 0).val = 2048 * n + (y 0).val → (i 1).val = (y 1).val → x y = X i)
    (j : (⟨2, ![2048, 32]⟩ : Shape).Idx) (i : (⟨2, ![65536, 32]⟩ : Shape).Idx)
    (h0 : (i 0).val = 2048 * n + (j 0).val) (h1 : (i 1).val = (j 1).val) :
    affine x W B j = affine X W B i := by
  obtain ⟨p, q, rfl⟩ : ∃ (p : Fin 2048) (q : Fin 32), j = ix2 p q := ⟨j 0, j 1, eq_ix2 j⟩
  obtain ⟨r, q', rfl⟩ : ∃ (r : Fin 65536) (q' : Fin 32), i = ix2 r q' := ⟨i 0, i 1, eq_ix2 i⟩
  obtain rfl : q' = q := Fin.ext h1
  exact affine_entry X x W W B B p r q' (fun k => hx (ix2 p k) (ix2 r k) h0 rfl) (fun _ => rfl) rfl

/-! ## What each point writes back -/

/-- Point t writes back, to the first output, block t of the first layer of the whole input. -/
theorem flushed5_eq (c : Dev nD) (t : Fin cfg0.N) :
    (dat0 V c).flushed 5 t = ((cfg0.win 5).blk t).view.read (Elt Ideal)
      (affine (V c main_v0) (V c main_arg1) (V c main_v1)) := by
  show (cfg0.win 5).cut (grid0.coords t) ((dat0 V c).after 5 t) = _
  rw [after0_5]
  unfold out0_5
  rw [View.canon_unit_zero hz]
  simp only [View.ld_unit_zero (S := S2048x256) hz, View.ld_unit_zero (S := S256x32) hz, View.ld_unit_zero (S := S1x32) hz]
  rw [pay2_eq, iblk_w1, iblk_b1]
  obtain ⟨-, -, -, -, -, -, -, -, -, -, e0, e1, -⟩ := idx_facts t
  funext j
  show affine (iblk0 V c 0 t) (V c main_arg1) (V c main_v1) j
    = affine (V c main_v0) (V c main_arg1) (V c main_v1) (((cfg0.win 5).blk t).view.emb j)
  refine layer_block (V c main_v0) (iblk0 V c 0 t) (V c main_arg1) (V c main_v1) t.val (fun y i => iblk_x V c t y i) j _ ?_ ?_
  · show win0_5.index t (0 : Fin 2) * 2048 + 1 * (j 0).val = 2048 * t.val + (j 0).val; rw [e0]; omega
  · show win0_5.index t (1 : Fin 2) * 32 + 1 * (j 1).val = (j 1).val; rw [e1]; omega

/-- Point t writes back, to the second output, block t of the second layer of the whole input. -/
theorem flushed6_eq (c : Dev nD) (t : Fin cfg0.N) :
    (dat0 V c).flushed 6 t = ((cfg0.win 6).blk t).view.read (Elt Ideal)
      (affine (V c main_v0) (V c main_arg2) (V c main_v2)) := by
  show (cfg0.win 6).cut (grid0.coords t) ((dat0 V c).after 6 t) = _
  rw [after0_6]
  unfold out0_6
  rw [View.canon_unit_zero hz]
  simp only [View.ld_unit_zero (S := S2048x256) hz, View.ld_unit_zero (S := S256x32) hz, View.ld_unit_zero (S := S1x32) hz]
  rw [pay3_eq, iblk_w2, iblk_b2]
  obtain ⟨-, -, -, -, -, -, -, -, -, -, -, -, e0, e1⟩ := idx_facts t
  funext j
  show affine (iblk0 V c 0 t) (V c main_arg2) (V c main_v2) j
    = affine (V c main_v0) (V c main_arg2) (V c main_v2) (((cfg0.win 6).blk t).view.emb j)
  refine layer_block (V c main_v0) (iblk0 V c 0 t) (V c main_arg2) (V c main_v2) t.val (fun y i => iblk_x V c t y i) j _ ?_ ?_
  · show win0_6.index t (0 : Fin 2) * 2048 + 1 * (j 0).val = 2048 * t.val + (j 0).val; rw [e0]; omega
  · show win0_6.index t (1 : Fin 2) * 32 + 1 * (j 1).val = (j 1).val; rw [e1]; omega

/-! ## The 32 row blocks cover each output -/

/-- An index of the first output is in point t's block iff each coordinate is in the block's range on its axis. -/
theorem mem_blk5 (t : Fin cfg0.N) (i : S65536x32.Idx) :
    i ∈ ((cfg0.win 5).blk t).view.set ↔ ∀ a : Fin 2, win0_5.index t a * S2048x32.size a ≤ (i a).val
      ∧ (i a).val < win0_5.index t a * S2048x32.size a + S2048x32.size a := by
  show i ∈ ((View.whole main_v5_0).slice (win0_5.rect t)).set ↔ _
  rw [View.set_slice_whole, Rect.mem_set_unit]
  exact Iff.rfl

/-- An index of the second output is in point t's block iff each coordinate is in the block's range on its axis. -/
theorem mem_blk6 (t : Fin cfg0.N) (i : S65536x32.Idx) :
    i ∈ ((cfg0.win 6).blk t).view.set ↔ ∀ a : Fin 2, win0_6.index t a * S2048x32.size a ≤ (i a).val
      ∧ (i a).val < win0_6.index t a * S2048x32.size a + S2048x32.size a := by
  show i ∈ ((View.whole main_v5_1).slice (win0_6.rect t)).set ↔ _
  rw [View.set_slice_whole, Rect.mem_set_unit]
  exact Iff.rfl

/-- Row r of the first output lies in the block of point r / 2048, which is written back. -/
theorem cover5 (i : S65536x32.Idx) :
    ∃ t : Fin cfg0.N, (cfg0.win 5).flush t = true ∧ i ∈ ((cfg0.win 5).blk t).view.set := by
  have hi0 : (i 0).val < 65536 := (i 0).isLt
  have hi1 : (i 1).val < 32 := (i 1).isLt
  have hN : cfg0.N = 32 := N_0
  obtain ⟨t, ht⟩ : ∃ t : Fin cfg0.N, t.val = (i 0).val / 2048 := ⟨⟨(i 0).val / 2048, by rw [hN]; omega⟩, rfl⟩
  obtain ⟨-, -, -, -, -, -, -, -, -, -, e0, e1, -⟩ := idx_facts t
  refine ⟨t, flush0_5 t, ?_⟩
  rw [mem_blk5]
  intro a
  match a with
  | ⟨0, _⟩ =>
    show win0_5.index t (0 : Fin 2) * 2048 ≤ (i 0).val ∧ (i 0).val < win0_5.index t (0 : Fin 2) * 2048 + 2048
    rw [e0, ht]; omega
  | ⟨1, _⟩ =>
    show win0_5.index t (1 : Fin 2) * 32 ≤ (i 1).val ∧ (i 1).val < win0_5.index t (1 : Fin 2) * 32 + 32
    rw [e1]; omega

/-- Row r of the second output lies in the block of point r / 2048, which is written back. -/
theorem cover6 (i : S65536x32.Idx) :
    ∃ t : Fin cfg0.N, (cfg0.win 6).flush t = true ∧ i ∈ ((cfg0.win 6).blk t).view.set := by
  have hi0 : (i 0).val < 65536 := (i 0).isLt
  have hi1 : (i 1).val < 32 := (i 1).isLt
  have hN : cfg0.N = 32 := N_0
  obtain ⟨t, ht⟩ : ∃ t : Fin cfg0.N, t.val = (i 0).val / 2048 := ⟨⟨(i 0).val / 2048, by rw [hN]; omega⟩, rfl⟩
  obtain ⟨-, -, -, -, -, -, -, -, -, -, -, -, e0, e1⟩ := idx_facts t
  refine ⟨t, flush0_6 t, ?_⟩
  rw [mem_blk6]
  intro a
  match a with
  | ⟨0, _⟩ =>
    show win0_6.index t (0 : Fin 2) * 2048 ≤ (i 0).val ∧ (i 0).val < win0_6.index t (0 : Fin 2) * 2048 + 2048
    rw [e0, ht]; omega
  | ⟨1, _⟩ =>
    show win0_6.index t (1 : Fin 2) * 32 ≤ (i 1).val ∧ (i 1).val < win0_6.index t (1 : Fin 2) * 32 + 32
    rw [e1]; omega

/-! ## The two output arrays after the region -/

/-- The first output array ends holding the first dense layer of the whole input: entry (r, q) is
    Σ_k X[r, k] · W₁[k, q] + B₁[0, q]. -/
theorem proj_f (c : Dev nD) :
    ((dat0 (F := Ideal) V c).arrAt 5 cfg0.N : S65536x32.Idx → EReal)
      = affine (V c main_v0) (V c main_arg1) (V c main_v1) :=
  (dat0 V c).arrAt_eq_of_cover 5 (affine (V c main_v0) (V c main_arg1) (V c main_v1))
    (fun t _ => flushed5_eq V c t) cover5

/-- The second output array ends holding the second dense layer of the whole input: entry (r, q) is
    Σ_k X[r, k] · W₂[k, q] + B₂[0, q]. -/
theorem proj_g (c : Dev nD) :
    ((dat0 (F := Ideal) V c).arrAt 6 cfg0.N : S65536x32.Idx → EReal)
      = affine (V c main_v0) (V c main_arg2) (V c main_v2) :=
  (dat0 V c).arrAt_eq_of_cover 6 (affine (V c main_v0) (V c main_arg2) (V c main_v2))
    (fun t _ => flushed6_eq V c t) cover6

end Cert.Attention.Region0

end
-- ==== Proof.LibDotRows.lean ====
/-
  A matrix product that contracts the LAST axis of both operands, read at one entry.

  For `x : M × K` and `y : N × K` the product with dimension numbers "contract axis 1 of the left with axis 1 of the right, keep
  axis 0 of each" is the `M × N` array of inner products of ROWS: entry `(p, q)` is `∑ k, x[p, k] · y[q, k]`. Over the extended
  reals, accumulated into the zero array, that is the whole statement (`matmul_rows_apply`); the work is only to identify the
  product's own operand indices — computed from the dimension numbers — with the coordinate pairs `(p, k)` and `(q, k)`, and its
  one-axis contraction index with the coordinate `k`.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_cons_self)]
  rfl

/-- The right operand's kept axis 0 follows the output's axis 1. -/
theorem rhs_axis0 (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_cons_self)]
  rfl

/-- Each operand's contracted axis 1 follows the contraction index's one coordinate. -/
theorem lhs_axis1 (i : (⟨2, ![M, N]⟩ : Shape).Idx) (c : (DotDims.transposedRhs M K N).contr.Idx) :
    ((DotDims.transposedRhs M K N).lhsIdx i c 1).val = (c ⟨0, Nat.zero_lt_one⟩).val :=
  (DotDims.transposedRhs M K N).lhsIdx_val_of_single rfl i c
theorem rhs_axis1 (i : (⟨2, ![M, N]⟩ : Shape).Idx) (c : (DotDims.transposedRhs M K N).contr.Idx) :
    ((DotDims.transposedRhs M K N).rhsIdx i c 1).val = (c ⟨0, Nat.zero_lt_one⟩).val :=
  (DotDims.transposedRhs M K N).rhsIdx_val_of_single rfl i c

/-- So at output entry `(p, q)` and contraction coordinate `k` the left operand is read at `(p, k)` … -/
theorem lhsIdx_rows (p : Fin M) (q : Fin N) (k : Fin K) :
    (DotDims.transposedRhs M K N).lhsIdx (ix2 p q) ((contrEquiv1 (DotDims.transposedRhs M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.transposedRhs M K N) K rfl rfl k))

/-- … and the right operand at `(q, k)`. -/
theorem rhsIdx_rows (p : Fin M) (q : Fin N) (k : Fin K) :
    (DotDims.transposedRhs M K N).rhsIdx (ix2 p q) ((contrEquiv1 (DotDims.transposedRhs M K N) K rfl rfl).symm k) = ix2 q k :=
  funext fun a => Fin.ext (by
    match a with
    | ⟨0, _⟩ => exact rhs_axis0 _ _
    | ⟨1, _⟩ => exact (rhs_axis1 _ _).trans (contrEquiv1_symm_val (DotDims.transposedRhs M K N) K rfl rfl k))

/-- THE PRODUCT OF ROWS AT AN ENTRY. Over the extended reals, a matrix product with these dimension numbers (any record `D`
    that spells them: `hD`), accumulated into the zero array, holds at `(p, q)` the inner product of row `p` of the left operand
    and row `q` of the right: `∑ k, x[p, k] · y[q, k]`. -/
theorem matmul_rows_apply {φ₁ φ₂ : FTy} (D : DotDims ⟨2, ![M, K]⟩ ⟨2, ![N, K]⟩ ⟨2, ![M, N]⟩) (hD : D = DotDims.transposedRhs M K N)
    (prec : Option ContractPrecision) (x : FVec Ideal ⟨2, ![M, K]⟩ φ₁) (y : FVec Ideal ⟨2, ![N, K]⟩ φ₂) (p : Fin M) (q : Fin N) :
    FloatOps.matmul D prec x y (constant ⟨2, ![M, N]⟩ .f32 0x00000000#32) (ix2 p q) = ∑ k : Fin K, x (ix2 p k) * y (ix2 q k) := by
  subst hD
  rw [Ideal.matmul_constant_zero_apply, ← Equiv.sum_comp (contrEquiv1 (DotDims.transposedRhs M K N) K rfl rfl).symm]
  refine Finset.sum_congr rfl fun k _ => ?_
  rw [lhsIdx_rows, rhsIdx_rows]

/-- The same for the host's `dot_general`, which has no accumulator. -/
theorem dotGeneral_rows_apply {φ₁ φ₂ : FTy} (D : DotDims ⟨2, ![M, K]⟩ ⟨2, ![N, K]⟩ ⟨2, ![M, N]⟩) (hD : D = DotDims.transposedRhs M K N)
    (prec : Option ContractPrecision) (sched : HostSchedule) (x : FVec Ideal ⟨2, ![M, K]⟩ φ₁) (y : FVec Ideal ⟨2, ![N, K]⟩ φ₂)
    (p : Fin M) (q : Fin N) :
    FloatOps.dotGeneral D prec sched x y (ix2 p q) = ∑ k : Fin K, x (ix2 p k) * y (ix2 q k) := by
  subst hD
  rw [Ideal.dotGeneral_apply, ← Equiv.sum_comp (contrEquiv1 (DotDims.transposedRhs M K N) K rfl rfl).symm]
  refine Finset.sum_congr rfl fun k _ => ?_
  rw [lhsIdx_rows, rhsIdx_rows]

end Cert.Lib.DotRows

end
-- ==== Proof.LibGridAcc.lean ====
/-
  Two facts about finite sums in an additive commutative monoid (used over the extended reals; nothing here asks the
  summands to be finite).

  A sum over `B · J` consecutive positions is the sum, over the `B` blocks, of each block's `J` entries: position
  `J · j + k` is entry `k` of block `j`. Stated for any `B` and `J`, and once more for 8192 = 8 · 1024 positions over
  `Fin 8192` itself, so that no change of index type is left to the user.

  An accumulator that starts from zero plus the first summand and then adds one summand per step holds, after step
  `n`, the sum of the summands `0, …, n`. Stated for sequences indexed by the natural numbers (with the step law for
  every `j`, or only below a bound), for sequences indexed by `Fin (n + 1)`, and in the variant where every summand
  arrives as zero plus itself.
-/
import Mathlib.Algebra.BigOperators.Fin
import Mathlib.Algebra.BigOperators.Intervals
import Mathlib.Logic.Equiv.Fin.Basic
import Idealize.ShloMosaic.PureOps.Ideal

open scoped BigOperators

namespace Cert.Lib.GridAcc

variable {M : Type*} [AddCommMonoid M]

/-! ## A sum cut into equal blocks -/

/-- Entry `k` of block `j` lies inside the `B · J` positions. -/
theorem blk_lt {B J : ℕ} (j : Fin B) (k : Fin J) : J * j.val + k.val < B * J := by
  have hj := j.isLt
  have hk := k.isLt
  calc J * j.val + k.val < J * j.val + J := by omega
    _ = J * (j.val + 1) := by ring
    _ ≤ J * B := Nat.mul_le_mul_left _ hj
    _ = B * J := Nat.mul_comm _ _

/-- The same position written block index first. -/
theorem blk_lt' {B J : ℕ} (j : Fin B) (k : Fin J) : j.val * J + k.val < B * J := by
  rw [Nat.mul_comm j.val J]; exact blk_lt j k

/-- A sum over `B · J` positions is the sum over the blocks of each block's entries. -/
theorem sum_blocks {B J : ℕ} (g : Fin (B * J) → M) :
    ∑ x : Fin (B * J), g x = ∑ j : Fin B, ∑ k : Fin J, g ⟨J * j.val + k.val, blk_lt j k⟩ := by
  rw [← (finProdFinEquiv (m := B) (n := J)).sum_comp g, Fintype.sum_prod_type]
  refine Finset.sum_congr rfl fun j _ => Finset.sum_congr rfl fun k _ => congrArg g (Fin.ext ?_)
  show k.val + J * j.val = J * j.val + k.val
  exact Nat.add_comm _ _

/-- The same with the position written block index first. -/
theorem sum_blocks' {B J : ℕ} (g : Fin (B * J) → M) :
    ∑ x : Fin (B * J), g x = ∑ j : Fin B, ∑ k : Fin J, g ⟨j.val * J + k.val, blk_lt' j k⟩ := by
  rw [sum_blocks]
  exact Finset.sum_congr rfl fun j _ => Finset.sum_congr rfl fun k _ => congrArg g (Fin.ext (by
    show J * j.val + k.val = j.val * J + k.val
    rw [Nat.mul_comm]))

/-- 8192 positions as 8 blocks of 1024. -/
theorem sum_8192 (g : Fin 8192 → M) :
    ∑ n : Fin 8192, g n = ∑ j : Fin 8, ∑ k : Fin 1024, g ⟨1024 * j.val + k.val, by omega⟩ :=
  sum_blocks (B := 8) (J := 1024) g

/-- The same with the position written block index first. -/
theorem sum_8192' (g : Fin 8192 → M) :
    ∑ n : Fin 8192, g n = ∑ j : Fin 8, ∑ k : Fin 1024, g ⟨j.val * 1024 + k.val, by omega⟩ :=
  sum_blocks' (B := 8) (J := 1024) g

/-! ## An accumulator run step by step -/

/-- With the step law below a bound `N`: after step `n ≤ N` the accumulator holds the sum of the summands `0, …, n`. -/
theorem acc_eq_sum_of_lt (a b : ℕ → M) (N : ℕ) (h0 : a 0 = 0 + b 0) (hs : ∀ j, j < N → a (j + 1) = a j + b (j + 1)) :
    ∀ n, n ≤ N → a n = ∑ j ∈ Finset.range (n + 1), b j := by
  intro n
  induction n with
  | zero => intro _; rw [h0, zero_add, Finset.sum_range_one]
  | succ n ih =>
    intro hn
    rw [hs n (by omega), ih (by omega), Finset.sum_range_succ _ (n + 1)]

/-- With the step law at every `j`: after step `n` the accumulator holds the sum of the summands `0, …, n`. -/
theorem acc_eq_sum (a b : ℕ → M) (h0 : a 0 = 0 + b 0) (hs : ∀ j, a (j + 1) = a j + b (j + 1)) (n : ℕ) :
    a n = ∑ j ∈ Finset.range (n + 1), b j :=
  acc_eq_sum_of_lt a b n h0 (fun j _ => hs j) n (le_refl n)

/-- After the eighth step (step 7), as a sum over `Fin 8`; the step law is needed only below 7. -/
theorem acc7_eq_sum (a b : ℕ → M) (h0 : a 0 = 0 + b 0) (hs : ∀ j, j < 7 → a (j + 1) = a j + b (j + 1)) :
    a 7 = ∑ j : Fin 8, b j.val := by
  rw [acc_eq_sum_of_lt a b 7 h0 hs 7 (le_refl 7), Finset.sum_range]

/-- The variant where every summand arrives as zero plus itself (a product added into a zero accumulator before it is
    added to the running one). -/
theorem acc_eq_sum_zero_add_of_lt (a b : ℕ → M) (N : ℕ) (h0 : a 0 = 0 + (0 + b 0))
    (hs : ∀ j, j < N → a (j + 1) = a j + (0 + b (j + 1))) : ∀ n, n ≤ N → a n = ∑ j ∈ Finset.range (n + 1), b j :=
  acc_eq_sum_of_lt a b N (by rw [h0, zero_add]) (fun j hj => by rw [hs j hj, zero_add])

theorem acc_eq_sum_zero_add (a b : ℕ → M) (h0 : a 0 = 0 + (0 + b 0)) (hs : ∀ j, a (j + 1) = a j + (0 + b (j + 1))) (n : ℕ) :
    a n = ∑ j ∈ Finset.range (n + 1), b j :=
  acc_eq_sum_zero_add_of_lt a b n h0 (fun j _ => hs j) n (le_refl n)

theorem acc7_eq_sum_zero_add (a b : ℕ → M) (h0 : a 0 = 0 + (0 + b 0))
    (hs : ∀ j, j < 7 → a (j + 1) = a j + (0 + b (j + 1))) : a 7 = ∑ j : Fin 8, b j.val := by
  rw [acc_eq_sum_zero_add_of_lt a b 7 h0 hs 7 (le_refl 7), Finset.sum_range]

/-- The accumulator and the summands indexed by `Fin (n + 1)`: the last value is the sum of all the summands. -/
theorem acc_fin_eq_sum {n : ℕ} (a b : Fin (n + 1) → M) (h0 : a 0 = 0 + b 0)
    (hs : ∀ j : Fin n, a j.succ = a j.castSucc + b j.succ) : a (Fin.last n) = ∑ j, b j := by
  have key : ∀ (k : ℕ) (hk : k < n + 1),
      a ⟨k, hk⟩ = ∑ j ∈ Finset.range (k + 1), (if h : j < n + 1 then b ⟨j, h⟩ else 0) := by
    intro k
    induction k with
    | zero =>
      intro hk
      rw [Finset.sum_range_one, dif_pos hk]
      exact h0.trans (zero_add _)
    | succ k ih =>
      intro hk
      have hk' : k < n := by omega
      rw [Finset.sum_range_succ, ← ih (by omega), dif_pos hk]
      exact hs ⟨k, hk'⟩
  rw [show Fin.last n = ⟨n, Nat.lt_succ_self n⟩ from rfl, key n _, Finset.sum_range]
  exact Finset.sum_congr rfl fun j _ => by rw [dif_pos j.isLt]

/-- The same in the variant where every summand arrives as zero plus itself. -/
theorem acc_fin_eq_sum_zero_add {n : ℕ} (a b : Fin (n + 1) → M) (h0 : a 0 = 0 + (0 + b 0))
    (hs : ∀ j : Fin n, a j.succ = a j.castSucc + (0 + b j.succ)) : a (Fin.last n) = ∑ j, b j :=
  acc_fin_eq_sum a b (by rw [h0, zero_add]) (fun j => by rw [hs j, zero_add])

/-- Eight steps over blocks of 1024: an accumulator that adds, at step `j`, the sum of block `j` of a family over
    8192 positions ends at the sum over all 8192 positions. -/
theorem acc8_blocks_eq_sum_8192 (a : Fin 8 → M) (g : Fin 8192 → M)
    (h0 : a 0 = 0 + ∑ k : Fin 1024, g ⟨1024 * (0 : Fin 8).val + k.val, by omega⟩)
    (hs : ∀ j : Fin 7, a j.succ = a j.castSucc + ∑ k : Fin 1024, g ⟨1024 * j.succ.val + k.val, by omega⟩) :
    a 7 = ∑ n : Fin 8192, g n := by
  rw [sum_8192 g]
  exact acc_fin_eq_sum (n := 7) a (fun j => ∑ k : Fin 1024, g ⟨1024 * j.val + k.val, by omega⟩) h0 hs

end Cert.Lib.GridAcc
-- ==== Proof.Region1.lean ====
/-
  The second stage of the attention kernel: the 16 × 16 matrix of scores, accumulated over four grid points.

  The two inputs are 16 × 131072 arrays `G` and `H`, staged in four column blocks of 32768 columns; the output is ONE
  16 × 16 block that stays in place from point to point. The first point stores the zero block and then, like every
  point, stores "block + (G-block · H-blockᵀ)", the product contracting the 32768 columns of both blocks. Over the
  extended reals the entry `(p, q)` left after point `t` is therefore

      0 + Σ_{j ≤ t} Σ_{k < 32768} G[p, 32768·j + k] · H[q, 32768·j + k],

  and after the fourth point the four inner sums join into `Σ_{k < 131072} G[p, k] · H[q, k]`: the scores. Only
  associativity and commutativity of the addition and `0 + x = x` are used, so nothing asks the entries to be finite.
  The output is written back once, after the last point, and its one block is the whole array.
-/
import proofs.«145494_j13391708029779_2_alg».proof.Proof.Gen.KernelIdeal.Frame
import proofs.«145494_j13391708029779_2_alg».proof.Proof.Spec
import proofs.«145494_j13391708029779_2_alg».proof.Proof.LibDotRows
import proofs.«145494_j13391708029779_2_alg».proof.Proof.LibGridAcc
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.Attention.Region1

open Cert.KernelIdeal Cert.KernelIdeal.Gen

variable {F : FTy → Type} [FloatOps F]

/-- The zero offsets of a whole block, however they are spelt. -/
theorem hz : (![0, 0] : Fin 2 → Nat) = fun _ => 0 := funext fun a => by fin_cases a <;> rfl

/-- A point that is not the first leaves, in the output block holding `xo`, the one covering store's value:
    `xo` plus the product of the two input blocks. -/
theorem out_B (c : Dev nD) (i : grid1.Coords) (a1 : Memref sig .tc .vmem S16x32768 .f32) (h1 : a1.IsWhole)
    (a2 : Memref sig .tc .vmem S16x32768 .f32) (h2 : a2.IsWhole) (a3 : Memref sig .tc .vmem S16x16 .f32) (h3 : a3.IsWhole)
    (hc : ¬cond1_0 i) (x0 x1 : Vec F S16x32768 .f32) (xo : Vec F S16x16 .f32) :
    out1_B_2 c i a1 h1 a2 h2 a3 h3 hc x0 x1 xo = k1_pay2 x0 x1 xo := by
  unfold out1_B_2
  rw [View.read_writes_eq_canon _ _ _ (cover1_B_2 c i a1 h1 a2 h2 a3 h3 hc x0 x1 xo)]
  unfold kernelRun1_B
  dsimp only
  rw [View.canon_unit_zero hz]
  simp only [View.readAt_eq_ld, h1.read_unread, h2.read_unread, h3.read_unread, View.ld_unit_zero (S := S16x32768) hz,
    View.ld_unit_zero (S := S16x16) hz]

/-- The first point stores the zero block, reads it back, and leaves the zero block plus the product of the two
    input blocks. -/
theorem out_A (c : Dev nD) (i : grid1.Coords) (a1 : Memref sig .tc .vmem S16x32768 .f32) (h1 : a1.IsWhole)
    (a2 : Memref sig .tc .vmem S16x32768 .f32) (h2 : a2.IsWhole) (a3 : Memref sig .tc .vmem S16x16 .f32) (h3 : a3.IsWhole)
    (hc : cond1_0 i) (x0 x1 : Vec F S16x32768 .f32) :
    out1_A_2 c i a1 h1 a2 h2 a3 h3 hc x0 x1 = k1_pay2 x0 x1 (k1_pay1 (F := F)) := by
  unfold out1_A_2
  rw [View.read_writes_eq_canon _ _ _ (cover1_A_2 c i a1 h1 a2 h2 a3 h3 hc x0 x1)]
  unfold kernelRun1_A
  dsimp only
  sl_unfold_words
  rw [View.canon_cons_unit_zero (S := S16x16) hz, View.readCov_unit_zero (S := S16x16) _ hz]
  simp only [View.readAt_eq_ld, h1.read_unread, h2.read_unread, View.ld_unit_zero (S := S16x32768) hz]

/-! ## The two payloads at an entry, over the extended reals -/

/-- The zero block at an entry. -/
theorem pay1_apply (p q : Fin 16) : k1_pay1 (F := Ideal) (ix2 p q) = 0 := by
  unfold k1_pay1
  exact Ideal.ofBits_zero_f32

/-- The accumulating store's value at entry `(p, q)`: the block's entry plus the inner product of row `p` of the
    first input block and row `q` of the second. -/
theorem pay2_apply (x0 x1 : Vec Ideal S16x32768 .f32) (xo : Vec Ideal S16x16 .f32) (p q : Fin 16) :
    k1_pay2 x0 x1 xo (ix2 p q) = xo (ix2 p q) + ∑ k : Fin 32768, x0 (ix2 p k) * x1 (ix2 q k) := by
  unfold k1_pay2
  simp only [shapeCast_self]
  refine congrArg (fun z => xo (ix2 p q) + z) ?_
  exact Cert.Lib.DotRows.matmul_rows_apply (M := 16) (K := 32768) (N := 16)
    dot_S16x32768_S16x32768_S16x16_1_1_0_0_n_n rfl (some .fp32) x0 x1 p q

/-! ## The input blocks, read in the arrays -/

/-- Column `k` of column block `j` (four blocks of 32768 columns). -/
def col (j : Fin 4) (k : Fin 32768) : Fin 131072 :=
  ⟨32768 * j.val + k.val, by have := j.isLt; have := k.isLt; omega⟩

/-- The index maps, decided over the four points: both inputs are at column block `t` of their one row block, the
    output at its one block. -/
theorem idx_facts : ∀ t : Fin cfg1.N,
    win1_0.index t (0 : Fin 2) = 0 ∧ win1_0.index t (1 : Fin 2) = t.val ∧
    win1_1.index t (0 : Fin 2) = 0 ∧ win1_1.index t (1 : Fin 2) = t.val :=
  (by decide +kernel : ∀ t : Fin grid1.N,
    win1_0.index t (0 : Fin 2) = 0 ∧ win1_0.index t (1 : Fin 2) = t.val ∧
    win1_1.index t (0 : Fin 2) = 0 ∧ win1_1.index t (1 : Fin 2) = t.val)

variable (V : (c : Dev nD) → (b : Ref sig .tc) → Buf (Elt F) ((c : Thread nD τ).loc b))

/-- The first input's block at point `t` is columns `32768·t …` of the first array. -/
theorem iblk0_apply (c : Dev nD) (t : Fin cfg1.N) (j : Fin 4) (hj : t.val = j.val) (p : Fin 16) (k : Fin 32768) :
    (iblk1 V c 0 t : Vec F S16x32768 .f32) (ix2 p k) = V c main_v6 (ix2 p (col j k)) := by
  have hi := idx_facts t
  unfold iblk1
  rw [View.read_apply]
  show V c main_v6 _ = V c main_v6 _
  congr 1
  funext a
  apply Fin.ext
  match a with
  | ⟨0, _⟩ => show win1_0.index t 0 * 16 + 1 * p.val = p.val; rw [hi.1]; omega
  | ⟨1, _⟩ => show win1_0.index t 1 * 32768 + 1 * k.val = 32768 * j.val + k.val; rw [hi.2.1, hj]; omega

/-- The second input's block at point `t` is columns `32768·t …` of the second array. -/
theorem iblk1_apply (c : Dev nD) (t : Fin cfg1.N) (j : Fin 4) (hj : t.val = j.val) (q : Fin 16) (k : Fin 32768) :
    (iblk1 V c 1 t : Vec F S16x32768 .f32) (ix2 q k) = V c main_v7 (ix2 q (col j k)) := by
  have hi := idx_facts t
  unfold iblk1
  rw [View.read_apply]
  show V c main_v7 _ = V c main_v7 _
  congr 1
  funext a
  apply Fin.ext
  match a with
  | ⟨0, _⟩ => show win1_1.index t 0 * 16 + 1 * q.val = q.val; rw [hi.2.2.1]; omega
  | ⟨1, _⟩ => show win1_1.index t 1 * 32768 + 1 * k.val = 32768 * j.val + k.val; rw [hi.2.2.2, hj]; omega

/-! ## The accumulation, entry by entry -/

section Accumulation

variable (V : (c : Dev nD) → (b : Ref sig .tc) → Buf (Elt Ideal) ((c : Thread nD τ).loc b))

/-- Column block `j`'s share of entry `(p, q)` of the scores: the inner product of rows `p` and `q` over the block's
    32768 columns. -/
def share (G H : FVec Ideal ⟨2, ![16, 131072]⟩ .f32) (p q : Fin 16) (j : Fin 4) : EReal :=
  ∑ k : Fin 32768, G (ix2 p (col j k)) * H (ix2 q (col j k))

/-- The product of two blocks that are column block `j` of the two arrays is, at an entry, that block's share. -/
theorem blocks_share (G H : FVec Ideal ⟨2, ![16, 131072]⟩ .f32) (x0 x1 : Vec Ideal S16x32768 .f32) (j : Fin 4)
    (h0 : ∀ (p : Fin 16) (k : Fin 32768), x0 (ix2 p k) = G (ix2 p (col j k)))
    (h1 : ∀ (q : Fin 16) (k : Fin 32768), x1 (ix2 q k) = H (ix2 q (col j k))) (p q : Fin 16) :
    (∑ k : Fin 32768, x0 (ix2 p k) * x1 (ix2 q k)) = share G H p q j :=
  Finset.sum_congr rfl fun k _ => by rw [h0 p k, h1 q k]

/-- At the first point the output block is left at zero plus the first share. -/
theorem step_first (c : Dev nD) (t : Fin cfg1.N) (h0 : t.val % 4 = 0) (j : Fin 4) (hj : t.val = j.val) (p q : Fin 16) :
    outsAt1 V c t.val t.isLt (ix2 p q) = 0 + share (V c main_v6) (V c main_v7) p q j := by
  rw [outsAt1_A V c t h0]
  refine (congrFun (out_A c (grid1.coords t) (ms1_0 t) (hs1_0 t) (ms1_1 t) (hs1_1 t) (ms1_2 t) (hs1_2 t)
    ((hcond1_0 t).mpr h0) (iblk1 V c 0 t) (iblk1 V c 1 t)) (ix2 p q)).trans ?_
  refine (pay2_apply (iblk1 V c 0 t) (iblk1 V c 1 t) (k1_pay1 (F := Ideal)) p q).trans ?_
  exact congrArg₂ (· + ·) (pay1_apply p q)
    (blocks_share (V c main_v6) (V c main_v7) (iblk1 V c 0 t) (iblk1 V c 1 t) j (iblk0_apply V c t j hj)
      (iblk1_apply V c t j hj) p q)

/-- At a later point the output block is left at what the point before left plus this point's share. -/
theorem step_next (c : Dev nD) (t : Fin cfg1.N) (h0 : ¬t.val % 4 = 0) (j : Fin 4) (hj : t.val = j.val) (p q : Fin 16) :
    outsAt1 V c t.val t.isLt (ix2 p q)
      = outsAt1 V c (t.val - 1) (Nat.lt_of_le_of_lt (Nat.sub_le _ _) t.isLt) (ix2 p q)
        + share (V c main_v6) (V c main_v7) p q j := by
  rw [outsAt1_B V c t h0]
  refine (congrFun (out_B c (grid1.coords t) (ms1_0 t) (hs1_0 t) (ms1_1 t) (hs1_1 t) (ms1_2 t) (hs1_2 t)
    (fun h => h0 ((hcond1_0 t).mp h)) (iblk1 V c 0 t) (iblk1 V c 1 t)
    (outsAt1 V c (t.val - 1) (Nat.lt_of_le_of_lt (Nat.sub_le _ _) t.isLt))) (ix2 p q)).trans ?_
  refine (pay2_apply (iblk1 V c 0 t) (iblk1 V c 1 t)
    (outsAt1 V c (t.val - 1) (Nat.lt_of_le_of_lt (Nat.sub_le _ _) t.isLt)) p q).trans ?_
  exact congrArg (outsAt1 V c (t.val - 1) (Nat.lt_of_le_of_lt (Nat.sub_le _ _) t.isLt) (ix2 p q) + ·)
    (blocks_share (V c main_v6) (V c main_v7) (iblk1 V c 0 t) (iblk1 V c 1 t) j (iblk0_apply V c t j hj)
      (iblk1_apply V c t j hj) p q)

/-- The four points as elements of `Fin 4`. -/
theorem lt_N (j : Fin 4) : j.val < cfg1.N := lt_of_lt_of_eq j.isLt (show (4 : ℕ) = cfg1.N from N_1.symm)

/-- After the last point the output block holds, at every entry, the sum of the four shares. -/
theorem last_eq_sum (c : Dev nD) (p q : Fin 16) :
    outsAt1 V c 3 (lt_N 3) (ix2 p q) = ∑ j : Fin 4, share (V c main_v6) (V c main_v7) p q j := by
  refine Cert.Lib.GridAcc.acc_fin_eq_sum (n := 3) (fun j : Fin 4 => outsAt1 V c j.val (lt_N j) (ix2 p q))
    (fun j : Fin 4 => share (V c main_v6) (V c main_v7) p q j) ?_ ?_
  · exact step_first V c ⟨0, lt_N 0⟩ rfl 0 rfl p q
  · intro j
    have hj : j.val < 3 := j.isLt
    exact step_next V c ⟨j.val + 1, lt_N j.succ⟩ (by show ¬(j.val + 1) % 4 = 0; omega) j.succ rfl p q

/-- The four shares add up to the whole inner product: the scores. -/
theorem sum_shares (G H : FVec Ideal ⟨2, ![16, 131072]⟩ .f32) (p q : Fin 16) :
    ∑ j : Fin 4, share G H p q j = Cert.Attention.scores G H (ix2 p q) := by
  rw [Cert.Attention.scores_apply]
  exact (Cert.Lib.GridAcc.sum_blocks (B := 4) (J := 32768) (fun x : Fin 131072 => G (ix2 p x) * H (ix2 q x))).symm

/-- After the last point the output block is the scores of the two arrays. -/
theorem last_eq_scores (c : Dev nD) :
    (outsAt1 V c 3 (lt_N 3) : S16x16.Idx → EReal) = Cert.Attention.scores (V c main_v6) (V c main_v7) := by
  funext i
  obtain ⟨p, q, rfl⟩ : ∃ (p q : Fin 16), i = ix2 p q := ⟨i 0, i 1, eq_ix2 i⟩
  exact (last_eq_sum V c p q).trans (sum_shares (V c main_v6) (V c main_v7) p q)

end Accumulation

/-! ## From the last write-back to the array -/

section Array

variable (V : (c : Dev nD) → (b : Ref sig .tc) → Buf (Elt Ideal) ((c : Thread nD τ).loc b))

/-- The scores of the two arrays, as contents of the output array. -/
abbrev result (c : Dev nD) : Buf (Elt Ideal) ((c : Thread nD τ).loc main_v8) :=
  Cert.Attention.scores (V c main_v6) (V c main_v7)

/-- The one write-back, after the last point, writes the scores: the output's one block, read through zero offsets,
    is the whole 16 × 16 array. -/
theorem flushed_eq (c : Dev nD) (t : Fin cfg1.N) (hf : (cfg1.win 2).flush t = true) :
    (dat1 V c).flushed 2 t = ((cfg1.win 2).blk t).view.read (Elt Ideal) (result V c) := by
  have hN : cfg1.N = 4 := N_1
  have h3 : t.val = 3 := by have := (flush1_2 t).mp hf; have := t.isLt; omega
  obtain rfl : t = t1_3 := Fin.ext h3
  show (cfg1.win 2).cut (grid1.coords t1_3) ((dat1 V c).after 2 t1_3) = _
  rw [after1_2, show outsAt1 V c t1_3.val t1_3.isLt = result V c from last_eq_scores V c]
  have hz' : (fun a => win1_2.index t1_3 a * main_v8.ty.shape.size a) = fun _ => 0 :=
    funext fun a => by fin_cases a <;> decide
  exact (Memref.read_access_unit_zero (Elt Ideal) main_v8 hz' (fun a => by rw [congrFun hz' a]; simp) (result V c)).symm

/-- THE SCORES. For every contents of the buffers when the region is entered, the output array ends holding the
    scores of the two input arrays: entry `(p, q)` is the inner product of row `p` of the first and row `q` of the
    second over all 131072 columns. The last point's block is the whole array, so its write-back decides every entry. -/
theorem scores_eq (c : Dev nD) :
    ((dat1 (F := Ideal) V c).arrAt 2 cfg1.N : S16x16.Idx → EReal) = Cert.Attention.scores (V c main_v6) (V c main_v7) :=
  (dat1 V c).arrAt_eq_of_cover 2 (result V c) (flushed_eq V c) fun i =>
    ⟨t1_3, (flush1_2 t1_3).mpr rfl, by
      show i ∈ ((View.whole main_v8).slice (win1_2.rect t1_3)).set
      rw [View.set_slice_whole, Rect.mem_set_unit]
      intro a
      have h0 : (i 0 : Nat) < 16 := (i 0).isLt
      have h1 : (i 1 : Nat) < 16 := (i 1).isLt
      match a with
      | ⟨0, _⟩ =>
        show win1_2.index t1_3 0 * win1_2.size 0 ≤ (i 0 : Nat)
          ∧ (i 0 : Nat) < win1_2.index t1_3 0 * win1_2.size 0 + win1_2.xsize (grid1.coords t1_3) 0
        rw [show win1_2.index t1_3 0 * win1_2.size 0 = 0 from by decide +kernel,
          show win1_2.xsize (grid1.coords t1_3) 0 = 16 from by decide +kernel]
        omega
      | ⟨1, _⟩ =>
        show win1_2.index t1_3 1 * win1_2.size 1 ≤ (i 1 : Nat)
          ∧ (i 1 : Nat) < win1_2.index t1_3 1 * win1_2.size 1 + win1_2.xsize (grid1.coords t1_3) 1
        rw [show win1_2.index t1_3 1 * win1_2.size 1 = 0 from by decide +kernel,
          show win1_2.xsize (grid1.coords t1_3) 1 = 16 from by decide +kernel]
        omega⟩

end Array

end Cert.Attention.Region1

end
-- ==== Proof.LibReshape2.lean ====
/-
  A row-major reshape between two matrices, read at an entry.
-/
import Idealize.ShloMosaic.Lib.Pipeline.Value
import Idealize.ShloMosaic.Lib.ValueIdx

noncomputable section

namespace Cert.Lib.Reshape2

open Idealize.ShloMosaic Idealize.ShloMosaic.ValueIdx

/-- For any extents: an `[a, b]` array reshaped to `[a', b']` (the same number of entries, row-major on both sides),
    read at `(p', q')`, is the operand's entry `(p, q)` at the same flat position, `p·b + q = p'·b' + q'` — for a body
    that regroups the columns of a block into rows (one row per pixel, say) and back. -/
theorem reshape2_apply {α : Type} {a b a' b' : ℕ} (x : (⟨2, ![a, b]⟩ : Shape).Idx → α)
    (h : (⟨2, ![a, b]⟩ : Shape).ShapeCasts ⟨2, ![a', b']⟩) (p' : Fin a') (q' : Fin b') (p : Fin a) (q : Fin b)
    (hk : p.val * b + q.val = p'.val * b' + q'.val) :
    shapeCast ⟨2, ![a', b']⟩ x h (ix2 p' q') = x (ix2 p q) :=
  shapeCast_apply x h _ _ (by rw [Shape.rowMajor_val_two, Shape.rowMajor_val_two]; exact hk)

end Cert.Lib.Reshape2

end
-- ==== Proof.Region2Pay.lean ====
/-
  Region 2 (the finishing stage) at one grid point: the body's value at entry (p, n) of its 16 × 32768 block.
  With the point's blocks β (16×16 weights), x (16 × 32768: 128 pixels of 256 channels per row), Wh, the bias row
  and the scale γ, entry (p, n), n = 256·pix + d, is
      γ · (Σ_c (Σ_q β[p,q]·x[q, 256·pix + c]) · Wh[c,d] + bh[0,d]) + x[p,n]:
  the batch mix β·x is reshaped to one row per (batch, pixel) pair (row 128·p + pix), multiplied by Wh, given its bias,
  and reshaped back; the two reshapes are row-major, so row 128·p + pix, column d, is entry (p, 256·pix + d).
-/
import proofs.«145494_j13391708029779_2_alg».proof.Proof.Gen.KernelIdeal.Skeleton
import proofs.«145494_j13391708029779_2_alg».proof.Proof.LibDotCols
import proofs.«145494_j13391708029779_2_alg».proof.Proof.LibReshape2
import Idealize.ShloMosaic.Lib.Pipeline.Value
import Idealize.ShloMosaic.Lib.ValueLayout
import Idealize.ShloMosaic.Lib.ValueIdx

noncomputable section

namespace Cert.Attention.Region2

open Cert.KernelIdeal Cert.KernelIdeal.Gen
open Idealize.ShloMosaic Idealize.ShloMosaic.ValueIdx
open Cert.Lib.Reshape2 (reshape2_apply)

/-- Column `256·(n / 256) + c` of a block row: channel `c` of the pixel column `n` belongs to. -/
def pixColB (n : Fin 32768) (c : Fin 256) : Fin 32768 :=
  ⟨256 * (n.val / 256) + c.val, by have := n.isLt; have := c.isLt; omega⟩

def chanB (n : Fin 32768) : Fin 256 := ⟨n.val % 256, Nat.mod_lt _ (by decide)⟩

/-- The row of the (batch, pixel) matrix that entry `(p, n)` of the block comes from. -/
def pixRow (p : Fin 16) (n : Fin 32768) : Fin 2048 :=
  ⟨128 * p.val + n.val / 256, by have := p.isLt; have := n.isLt; omega⟩

/-- The (batch, pixel) rows: a 16 × 32768 array reshaped to 2048 × 256, multiplied by the 256 × 256 weights into a
    zero accumulator, given the bias row, and reshaped back, read at entry `(p, n)`. -/
theorem rows_apply (M : FVec Ideal S16x32768 .f32) (x2 : FVec Ideal S256x256 .f32) (x3 : FVec Ideal S1x256 .f32)
    (p : Fin 16) (n : Fin 32768) :
    shapeCast S16x32768
        (addf
          (matmul dot_S2048x256_S256x256_S2048x256_1_0_0_1_n_n none
            (truncf FTy.bf16 (shapeCast S2048x256 M shapeCasts_S16x32768_S2048x256) bitsLt_bf16_f32)
            (truncf FTy.bf16 x2 bitsLt_bf16_f32) (constant S2048x256 FTy.f32 0#32))
          (broadcastTo S2048x256 x3 broadcasts_S1x256_S2048x256))
        shapeCasts_S2048x256_S16x32768 (ix2 p n)
      = (∑ c : Fin 256, M (ix2 p (pixColB n c)) * x2 (ix2 c (chanB n))) + x3 (ix2 (0 : Fin 1) (chanB n)) := by
  refine (reshape2_apply _ shapeCasts_S2048x256_S16x32768 p n (pixRow p n) (chanB n) (by
    show (128 * p.val + n.val / 256) * 256 + n.val % 256 = p.val * 32768 + n.val; omega)).trans ?_
  show FloatOps.matmul dot_S2048x256_S256x256_S2048x256_1_0_0_1_n_n none _ _ (constant S2048x256 FTy.f32 0#32) (ix2 (pixRow p n) (chanB n))
      + broadcastTo S2048x256 x3 broadcasts_S1x256_S2048x256 (ix2 (pixRow p n) (chanB n)) = _
  refine congrArg₂ (· + ·) ?_ (broadcastTo_1b_ab_apply x3 broadcasts_S1x256_S2048x256 (pixRow p n) (chanB n))
  refine (Cert.Lib.DotCols.matmul_cols_apply dot_S2048x256_S256x256_S2048x256_1_0_0_1_n_n rfl none _ _ (pixRow p n) (chanB n)).trans ?_
  refine Finset.sum_congr rfl fun c _ => ?_
  refine congrArg (· * x2 (ix2 c (chanB n))) ?_
  exact reshape2_apply M shapeCasts_S16x32768_S2048x256 (pixRow p n) c p (pixColB n c) (by
    show p.val * 32768 + (256 * (n.val / 256) + c.val) = (128 * p.val + n.val / 256) * 256 + c.val; omega)

theorem pay_apply (x0 : Vec Ideal S16x16 .f32) (x1 : Vec Ideal S16x32768 .f32) (x2 : Vec Ideal S256x256 .f32)
    (x3 : Vec Ideal S1x256 .f32) (x4 : Vec Ideal S1x1 .f32) (p : Fin 16) (n : Fin 32768) :
    k2_pay1 x0 x1 x2 x3 x4 (ix2 p n)
      = x4 (ix2 (0 : Fin 1) (0 : Fin 1))
          * ((∑ c : Fin 256, (∑ q : Fin 16, x0 (ix2 p q) * x1 (ix2 q (pixColB n c))) * x2 (ix2 c (chanB n)))
              + x3 (ix2 (0 : Fin 1) (chanB n)))
        + x1 (ix2 p n) := by
  unfold k2_pay1
  rw [shapeCast_self x0, shapeCast_self x1, shapeCast_self x3]
  show extractAt ![0, 0] x4 inpos_S1x1_p0_0 * (shapeCast S16x32768 _ shapeCasts_S2048x256_S16x32768 (ix2 p n)) + x1 (ix2 p n) = _
  refine (congrArg₂ (· + ·) (congrArg (extractAt ![0, 0] x4 inpos_S1x1_p0_0 * ·) (rows_apply _ x2 x3 p n)) rfl).trans ?_
  have hg : extractAt ![0, 0] x4 inpos_S1x1_p0_0 = x4 (ix2 (0 : Fin 1) (0 : Fin 1)) :=
    congrArg x4 (funext fun a => Fin.ext (by match a with | ⟨0, _⟩ => rfl | ⟨1, _⟩ => rfl))
  rw [hg]
  congr 2
  congr 1
  refine Finset.sum_congr rfl fun c _ => ?_
  congr 1
  exact Cert.Lib.DotCols.matmul_cols_apply _ rfl none _ _ p (pixColB n c)

end Cert.Attention.Region2

end
-- ==== Proof.Region2.lean ====
/-
  Region 2 (the finishing stage) as one array: after the region the output array is `finish` of the region's operand
  arrays. Grid point t handles columns [32768·t, 32768·(t+1)) of the 16 × 1048576 flattened arrays — 128 whole pixels —,
  with the weights β, Wh, the bias row and the scale staged whole at every point; a pixel's 256 channels never straddle
  two blocks, so the block's value at (p, n) is the whole array's function at (p, 32768·t + n), and the 32 blocks
  tile the array.
-/
import proofs.«145494_j13391708029779_2_alg».proof.Proof.Gen.KernelIdeal.Frame
import proofs.«145494_j13391708029779_2_alg».proof.Proof.Region2Pay
import proofs.«145494_j13391708029779_2_alg».proof.Proof.Spec

set_option maxRecDepth 16384

noncomputable section

namespace Cert.Attention.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: every operand but the flattened input and the output sits at block (0, 0); those two
    move along the columns with the point. -/
theorem idx_facts : ∀ t : Fin cfg2.N,
    win2_0.index t (0 : Fin 2) = 0 ∧ win2_0.index t (1 : Fin 2) = 0
    ∧ win2_1.index t (0 : Fin 2) = 0 ∧ win2_1.index t (1 : Fin 2) = t.val
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = t.val ∧ t.val < 32 :=
  (by decide +kernel : ∀ t : Fin grid2.N, _)

/-- Column `32768·t + n` of the flattened arrays. -/
def col (t : Fin cfg2.N) (n : Fin 32768) : Fin 1048576 :=
  ⟨32768 * t.val + n.val, by have := (idx_facts t).2.2.2.2.2.2.2.2.2.2.2.2; have := n.isLt; omega⟩

theorem blk0 (c : Dev nD) (t : Fin cfg2.N) (p q : Fin 16) : iblk2 V c 0 t (ix2 p q) = V c main_v19 (ix2 p q) := by
  obtain ⟨e0, e1, -⟩ := idx_facts t
  show V c main_v19 (((cfg2.win 0).blk t).view.emb (ix2 p q)) = V c main_v19 (ix2 p q)
  refine congrArg (V c main_v19) (funext fun a => Fin.ext ?_)
  match a with
  | ⟨0, _⟩ => show win2_0.index t (0 : Fin 2) * 16 + 1 * p.val = p.val; omega
  | ⟨1, _⟩ => show win2_0.index t (1 : Fin 2) * 16 + 1 * q.val = q.val; omega

theorem blk1 (c : Dev nD) (t : Fin cfg2.N) (q : Fin 16) (n : Fin 32768) : iblk2 V c 1 t (ix2 q n) = V c main_v20 (ix2 q (col t n)) := by
  obtain ⟨-, -, e0, e1, -⟩ := idx_facts t
  show V c main_v20 (((cfg2.win 1).blk t).view.emb (ix2 q n)) = V c main_v20 (ix2 q (col t n))
  refine congrArg (V c main_v20) (funext fun a => Fin.ext ?_)
  match a with
  | ⟨0, _⟩ => show win2_1.index t (0 : Fin 2) * 16 + 1 * q.val = q.val; omega
  | ⟨1, _⟩ => show win2_1.index t (1 : Fin 2) * 32768 + 1 * n.val = 32768 * t.val + n.val; omega

theorem blk2 (c : Dev nD) (t : Fin cfg2.N) (a b : Fin 256) : iblk2 V c 2 t (ix2 a b) = V c main_arg3 (ix2 a b) := by
  obtain ⟨-, -, -, -, e0, e1, -⟩ := idx_facts t
  show V c main_arg3 (((cfg2.win 2).blk t).view.emb (ix2 a b)) = V c main_arg3 (ix2 a b)
  refine congrArg (V c main_arg3) (funext fun x => Fin.ext ?_)
  match x with
  | ⟨0, _⟩ => show win2_2.index t (0 : Fin 2) * 256 + 1 * a.val = a.val; omega
  | ⟨1, _⟩ => show win2_2.index t (1 : Fin 2) * 256 + 1 * b.val = b.val; omega

theorem blk3 (c : Dev nD) (t : Fin cfg2.N) (b : Fin 256) : iblk2 V c 3 t (ix2 (0 : Fin 1) b) = V c main_v3 (ix2 (0 : Fin 1) b) := by
  obtain ⟨-, -, -, -, -, -, e0, e1, -⟩ := idx_facts t
  show V c main_v3 (((cfg2.win 3).blk t).view.emb (ix2 (0 : Fin 1) b)) = V c main_v3 (ix2 (0 : Fin 1) b)
  refine congrArg (V c main_v3) (funext fun x => Fin.ext ?_)
  match x with
  | ⟨0, _⟩ => show win2_3.index t (0 : Fin 2) * 1 + 1 * 0 = 0; omega
  | ⟨1, _⟩ => show win2_3.index t (1 : Fin 2) * 256 + 1 * b.val = b.val; omega

theorem blk4 (c : Dev nD) (t : Fin cfg2.N) : iblk2 V c 4 t (ix2 (0 : Fin 1) (0 : Fin 1)) = V c main_v4 (ix2 (0 : Fin 1) (0 : Fin 1)) := by
  obtain ⟨-, -, -, -, -, -, -, -, e0, e1, -⟩ := idx_facts t
  show V c main_v4 (((cfg2.win 4).blk t).view.emb (ix2 (0 : Fin 1) (0 : Fin 1))) = V c main_v4 (ix2 (0 : Fin 1) (0 : Fin 1))
  refine congrArg (V c main_v4) (funext fun x => Fin.ext ?_)
  match x with
  | ⟨0, _⟩ => show win2_4.index t (0 : Fin 2) * 1 + 1 * 0 = 0; omega
  | ⟨1, _⟩ => show win2_4.index t (1 : Fin 2) * 1 + 1 * 0 = 0; omega

/-- Entry `(p, n)` of the output's block at point `t` is entry `(p, 32768·t + n)` of the array. -/
theorem emb5 (t : Fin cfg2.N) (p : Fin 16) (n : Fin 32768) :
    ((cfg2.win 5).blk t).view.emb (ix2 p n) = ix2 p (col t n) := by
  obtain ⟨-, -, -, -, -, -, -, -, -, -, e0, e1, -⟩ := idx_facts t
  refine funext fun a => Fin.ext ?_
  match a with
  | ⟨0, _⟩ => show win2_5.index t (0 : Fin 2) * 16 + 1 * p.val = p.val; omega
  | ⟨1, _⟩ => show win2_5.index t (1 : Fin 2) * 32768 + 1 * n.val = 32768 * t.val + n.val; omega

theorem pixCol_col (t : Fin cfg2.N) (n : Fin 32768) (c : Fin 256) : pixCol (col t n) c = col t (pixColB n c) := by
  apply Fin.ext
  show 256 * ((32768 * t.val + n.val) / 256) + c.val = 32768 * t.val + (256 * (n.val / 256) + c.val)
  omega

theorem chan_col (t : Fin cfg2.N) (n : Fin 32768) : chan (col t n) = chanB n := by
  apply Fin.ext
  show (32768 * t.val + n.val) % 256 = n.val % 256
  omega

/-- The body's value at entry `(p, n)` of the block of point `t`, when the blocks are the arrays' blocks at that point,
    is `finish` of the arrays at entry `(p, 32768·t + n)`. -/
theorem point_eq (β : FVec Ideal S16x16 .f32) (XF : FVec Ideal S16x1048576 .f32) (Wh : FVec Ideal S256x256 .f32)
    (Bh : FVec Ideal S1x256 .f32) (Γ : FVec Ideal S1x1 .f32)
    (b0 : FVec Ideal S16x16 .f32) (b1 : FVec Ideal S16x32768 .f32) (b2 : FVec Ideal S256x256 .f32)
    (b3 : FVec Ideal S1x256 .f32) (b4 : FVec Ideal S1x1 .f32) (t : Fin cfg2.N)
    (h0 : ∀ p q : Fin 16, b0 (ix2 p q) = β (ix2 p q))
    (h1 : ∀ (q : Fin 16) (n : Fin 32768), b1 (ix2 q n) = XF (ix2 q (col t n)))
    (h2 : ∀ a b : Fin 256, b2 (ix2 a b) = Wh (ix2 a b))
    (h3 : ∀ b : Fin 256, b3 (ix2 (0 : Fin 1) b) = Bh (ix2 (0 : Fin 1) b))
    (h4 : b4 (ix2 (0 : Fin 1) (0 : Fin 1)) = Γ (ix2 (0 : Fin 1) (0 : Fin 1)))
    (p : Fin 16) (n : Fin 32768) :
    k2_pay1 b0 b1 b2 b3 b4 (ix2 p n) = finish β XF Wh Bh Γ (ix2 p (col t n)) := by
  rw [finish_apply]
  refine (pay_apply b0 b1 b2 b3 b4 p n).trans ?_
  rw [h4, h1 p n, chan_col t n, h3 (chanB n)]
  congr 2
  congr 1
  refine Finset.sum_congr rfl fun d _ => ?_
  rw [h2 d (chanB n)]
  congr 1
  unfold mixAt
  refine Finset.sum_congr rfl fun q _ => ?_
  rw [h0 p q, h1 q (pixColB n d), pixCol_col t n d]

/-- What point `t` writes back is block `t` of `finish` of the region's operand arrays. -/
theorem flushed_eq (c : Dev nD) (t : Fin cfg2.N) :
    (dat2 V c).flushed 5 t = ((cfg2.win 5).blk t).view.read (Elt Ideal)
      (finish (V c main_v19) (V c main_v20) (V c main_arg3) (V c main_v3) (V c main_v4)) := by
  show (cfg2.win 5).cut (grid2.coords t) ((dat2 V c).after 5 t) = _
  rw [after2_5]
  unfold out2_5
  rw [View.canon_unit_zero hz]
  simp only [View.ld_unit_zero (S := S16x16) hz, View.ld_unit_zero (S := S16x32768) hz, View.ld_unit_zero (S := S256x256) hz,
    View.ld_unit_zero (S := S1x256) hz, View.ld_unit_zero (S := S1x1) hz]
  funext j
  obtain ⟨p, n, rfl⟩ : ∃ (p : Fin 16) (n : Fin 32768), j = ix2 p n := ⟨j 0, j 1, eq_ix2 j⟩
  show k2_pay1 (iblk2 V c 0 t) (iblk2 V c 1 t) (iblk2 V c 2 t) (iblk2 V c 3 t) (iblk2 V c 4 t) (ix2 p n)
    = finish (V c main_v19) (V c main_v20) (V c main_arg3) (V c main_v3) (V c main_v4) (((cfg2.win 5).blk t).view.emb (ix2 p n))
  rw [emb5 t p n]
  exact point_eq (V c main_v19) (V c main_v20) (V c main_arg3) (V c main_v3) (V c main_v4)
    (iblk2 V c 0 t) (iblk2 V c 1 t) (iblk2 V c 2 t) (iblk2 V c 3 t) (iblk2 V c 4 t) t
    (blk0 V c t) (blk1 V c t) (blk2 V c t) (blk3 V c t) (blk4 V c t) p n

/-- The 32 blocks tile the array: column `N` is in the block of point `N / 32768`. -/
theorem cover (i : S16x1048576.Idx) : ∃ t : Fin cfg2.N, (cfg2.win 5).flush t = true ∧ i ∈ ((cfg2.win 5).blk t).view.set := by
  have h1 : (i 1).val < 1048576 := (i 1).isLt
  have h0 : (i 0).val < 16 := (i 0).isLt
  let t : Fin cfg2.N := ⟨(i 1).val / 32768, by show (i 1).val / 32768 < 32; omega⟩
  obtain ⟨-, -, -, -, -, -, -, -, -, -, e0, e1, -⟩ := idx_facts t
  have e1' : win2_5.index t (1 : Fin 2) = (i 1).val / 32768 := e1
  refine ⟨t, flush2_5 t, ?_⟩
  show i ∈ ((View.whole main_v21).slice (win2_5.rect t)).set
  rw [View.set_slice_whole, Rect.mem_set_unit]
  intro a
  match a with
  | ⟨0, _⟩ => show win2_5.index t (0 : Fin 2) * 16 ≤ (i 0).val ∧ (i 0).val < win2_5.index t (0 : Fin 2) * 16 + 16; omega
  | ⟨1, _⟩ => show win2_5.index t (1 : Fin 2) * 32768 ≤ (i 1).val ∧ (i 1).val < win2_5.index t (1 : Fin 2) * 32768 + 32768; omega

/-- After region 2 its output array is `finish` of its operand arrays as the region finds them. -/
theorem out_eq (c : Dev nD) :
    (dat2 V c).arrAt 5 cfg2.N = finish (V c main_v19) (V c main_v20) (V c main_arg3) (V c main_v3) (V c main_v4) :=
  (dat2 V c).arrAt_eq_of_cover 5 _ (fun t _ => flushed_eq V c t) cover

end Cert.Attention.Region2

end
-- ==== Proof.LibRealSums.lean ====
/-
  Finite sums of real numbers inside the extended reals, and a quotient moved across such a sum.

  General facts, with no program in sight: `Fin' x` says that the extended real `x` is a real; a finite sum and a sum of two such are
  again real (`fin'_sum`, `fin'_add`), the coercion of a finite real sum is the sum of the coercions (`coe_sum`), the inverse of any
  extended real is a real (`fin'_inv`), and `div_sum_mul`: for real `a c`, `h c` and any `D ≠ 0`,
  `(∑ c, a c · h c) / D = ∑ c, (a c / D) · h c` for the extended reals' own division.  The use: a row normalised before a
  matrix product against the same row normalised after it.

  One program divides every entry of a row of `a` by the row's total `D` and then takes the row's inner product with a
  column of `h`; the other takes the inner product first and divides once.  On the extended reals a quotient by a nonzero
  `D` is the product with the inverse of `D`, which is always a real, and a real factor moves across a finite sum of REAL
  terms — but not across a sum that may hold both infinities, which is why every entry of `a` and `h` is asked to be a real here.
  (Division by zero is not a product at all on the extended reals, hence `D ≠ 0`.)
-/
import Idealize.ShloMosaic.PureOps.Ideal

noncomputable section

open scoped BigOperators

namespace Cert.Lib.RealSums

open Idealize.ShloMosaic

/-- "Neither infinity": the extended real is a real number. -/
def Fin' (x : EReal) : Prop := x ≠ ⊤ ∧ x ≠ ⊥

theorem Fin'.exists_real {x : EReal} (h : Fin' x) : ∃ r : ℝ, x = (r : EReal) :=
  ⟨x.toReal, (EReal.coe_toReal h.1 h.2).symm⟩

theorem fin'_coe (r : ℝ) : Fin' (r : EReal) := ⟨EReal.coe_ne_top r, EReal.coe_ne_bot r⟩

/-- The coercion of a finite sum of reals is the sum of the coercions. -/
theorem coe_sum {ι : Type*} (s : Finset ι) (f : ι → ℝ) : ((∑ c ∈ s, f c : ℝ) : EReal) = ∑ c ∈ s, (f c : EReal) := by
  classical
  induction s using Finset.induction_on with
  | empty => simp
  | insert a s ha ih => rw [Finset.sum_insert ha, Finset.sum_insert ha, EReal.coe_add, ih]

/-- A finite sum of reals is a real. -/
theorem fin'_sum {ι : Type*} (s : Finset ι) (a : ι → EReal) (ha : ∀ c, Fin' (a c)) : Fin' (∑ c ∈ s, a c) := by
  choose a' ha' using fun c => (ha c).exists_real
  have : (∑ c ∈ s, a c) = ((∑ c ∈ s, a' c : ℝ) : EReal) := by
    rw [coe_sum]; exact Finset.sum_congr rfl fun c _ => ha' c
  rw [this]; exact fin'_coe _

theorem fin'_add {x y : EReal} (hx : Fin' x) (hy : Fin' y) : Fin' (x + y) := by
  obtain ⟨a, rfl⟩ := hx.exists_real
  obtain ⟨b, rfl⟩ := hy.exists_real
  rw [← EReal.coe_add]; exact fin'_coe _

theorem fin'_zero : Fin' (0 : EReal) := by
  rw [← EReal.coe_zero]; exact fin'_coe _

/-- The inverse of an extended real is never an infinity (the inverses of both infinities, and of zero, are zero). -/
theorem fin'_inv (D : EReal) : Fin' D⁻¹ := by
  induction D using EReal.rec
  · rw [EReal.inv_bot]; exact fin'_zero
  · rw [← EReal.coe_inv]; exact fin'_coe _
  · rw [EReal.inv_top]; exact fin'_zero

/-- THE LAW. For real entries and a nonzero divisor, dividing the inner product is the inner product of the divided entries:
    off zero a quotient is the product with the divisor's inverse, which is a real, and a real factor moves across a sum of reals. -/
theorem div_sum_mul {ι : Type*} (s : Finset ι) (a h : ι → EReal) (D : EReal)
    (ha : ∀ c, Fin' (a c)) (hh : ∀ c, Fin' (h c)) (hD0 : D ≠ 0) :
    Ideal.div (∑ c ∈ s, a c * h c) D = ∑ c ∈ s, Ideal.div (a c) D * h c := by
  obtain ⟨e, he⟩ := (fin'_inv D).exists_real
  choose a' ha' using fun c => (ha c).exists_real
  choose h' hh' using fun c => (hh c).exists_real
  have e1 : (∑ c ∈ s, a c * h c) = ((∑ c ∈ s, a' c * h' c : ℝ) : EReal) := by
    rw [coe_sum]; exact Finset.sum_congr rfl fun c _ => by rw [ha' c, hh' c, EReal.coe_mul]
  have e2 : (∑ c ∈ s, Ideal.div (a c) D * h c) = ((∑ c ∈ s, a' c * e * h' c : ℝ) : EReal) := by
    rw [coe_sum]
    exact Finset.sum_congr rfl fun c _ => by rw [Ideal.div, if_neg hD0, he, ha' c, hh' c, EReal.coe_mul, EReal.coe_mul]
  rw [e1, e2, Ideal.div, if_neg hD0, he, ← EReal.coe_mul, Finset.sum_mul]
  exact congrArg _ (Finset.sum_congr rfl fun c _ => by ring)

end Cert.Lib.RealSums

end
-- ==== Proof.ScoresBridge.lean ====
/-
  The two projections and the scores, on the flattened arrays and on the four-dimensional ones.

  One program flattens `x : [16, 64, 64, 256]` to 65536 pixel rows, applies a dense layer `(W, b)` row by row and
  reshapes the `[65536, 32]` result to `[16, 131072]`; the other applies the same layer on the four-dimensional array
  (a contraction over the channel axis plus the bias broadcast) and reshapes `[16, 64, 64, 32]` to `[16, 131072]`.
  Both reshapes are row-major, so entry `(p, k)` of either is the layer at pixel `(p, k / 2048, (k / 32) % 64)`,
  output channel `k % 32`:  `Σ_c x[p, k / 2048, (k / 32) % 64, c] · W[c, k % 32] + b[k % 32]`.
  The scores `Σ_k G[p, k] · F[q, k]` of two such arrays are then the same in both programs (the second transposes
  its right operand before contracting), and they are real numbers when every input entry is.
-/
import proofs.«145494_j13391708029779_2_alg».proof.Proof.Spec
import proofs.«145494_j13391708029779_2_alg».proof.Proof.Gen.ReferenceIdeal.Read
import proofs.«145494_j13391708029779_2_alg».proof.KernelIdeal
import proofs.«145494_j13391708029779_2_alg».proof.Proof.LibRealSums
import Idealize.ShloMosaic.Lib.Pipeline.Value
import Idealize.ShloMosaic.Lib.ValueIdx
import Idealize.ShloMosaic.Lib.ValueLayout

noncomputable section

open scoped BigOperators

namespace Cert.Attention.Bridge

open Idealize.ShloMosaic Idealize.ShloMosaic.ValueIdx
open Cert.KernelIdeal Cert.KernelIdeal.Facts₀
open Cert.Lib.DenseLayer Cert.Lib.RealSums

variable [Cert.KernelIdeal.Facts₀]

/-! ## The indices of entry `(p, k)` -/

/-- The pixel row of entry `(p, k)` among the 65536 rows: `4096·p + k / 32`. -/
def row (p : Fin 16) (k : Fin 131072) : Fin 65536 :=
  ⟨p.val * 4096 + k.val / 32, by have := p.isLt; have := k.isLt; omega⟩

/-- The output channel of column `k`: `k % 32`. -/
def och (k : Fin 131072) : Fin 32 := ⟨k.val % 32, Nat.mod_lt _ (by decide)⟩

/-- Channel `c` of the pixel of entry `(p, k)`: `(p, k / 2048, (k / 32) % 64, c)`. -/
def pix (p : Fin 16) (k : Fin 131072) (c : Fin 256) : S16x64x64x256.Idx :=
  ix4 p (⟨k.val / 2048, by have := k.isLt; omega⟩ : Fin 64) (⟨k.val / 32 % 64, Nat.mod_lt _ (by decide)⟩ : Fin 64) c

/-! ## The flattened projection -/

/-- The dense layer on the flattened pixel rows, reshaped to `[16, 131072]`. -/
def gflat (x : FVec Ideal S16x64x64x256 .f32) (W : FVec Ideal S256x32 .f32) (b : FVec Ideal S32 .f32) :
    FVec Ideal S16x131072 .f32 :=
  shapeCast S16x131072
    (affine (n := 65536) (K := 256) (N := 32) (shapeCast S65536x256 x shapeCasts_S16x64x64x256_S65536x256) W
      (shapeCast S1x32 b shapeCasts_S32_S1x32))
    shapeCasts_S65536x32_S16x131072

/-- Entry `(p, k)` of the flattened projection is the layer at the pixel and output channel of `(p, k)`. -/
theorem gflat_apply (x : FVec Ideal S16x64x64x256 .f32) (W : FVec Ideal S256x32 .f32) (b : FVec Ideal S32 .f32)
    (p : Fin 16) (k : Fin 131072) :
    gflat x W b (ix2 p k) = (∑ c : Fin 256, x (pix p k c) * W (ix2 c (och k))) + b (ix1 (och k)) := by
  unfold gflat
  rw [shapeCast_apply _ shapeCasts_S65536x32_S16x131072 (ix2 p k) (ix2 (row p k) (och k)) (by
      rewrite [Shape.rowMajor_val_two, Shape.rowMajor_val_two]
      have hp := p.isLt; have hk := k.isLt
      show (p.val * 4096 + k.val / 32) * 32 + k.val % 32 = p.val * 131072 + k.val
      omega),
    affine_apply, shapeCast_a_1a_apply b shapeCasts_S32_S1x32 0 (och k)]
  refine congrArg (· + b (ix1 (och k))) (Finset.sum_congr rfl fun c _ => ?_)
  rw [shapeCast_apply x shapeCasts_S16x64x64x256_S65536x256 (ix2 (row p k) c) (pix p k c) (by
      rewrite [Shape.rowMajor_val_four, Shape.rowMajor_val_two]
      have hp := p.isLt; have hk := k.isLt; have hc := c.isLt
      show ((p.val * 64 + k.val / 2048) * 64 + k.val / 32 % 64) * 256 + c.val = (p.val * 4096 + k.val / 32) * 256 + c.val
      omega)]

/-! ## The four-dimensional projection, reshaped -/

/-- Entry `(p, k)` of the reshaped four-dimensional projection (the one the scores' left operand is made of) is the
    same layer at the same pixel and output channel. -/
theorem ref_g_apply (x : FVec Ideal S16x64x64x256 .f32) (W : FVec Ideal S256x32 .f32) (b : FVec Ideal S32 .f32)
    (p : Fin 16) (k : Fin 131072) :
    Cert.ReferenceIdeal.Read.val_main_v12 (F := Ideal) x W b (ix2 p k)
      = (∑ c : Fin 256, x (pix p k c) * W (ix2 c (och k))) + b (ix1 (och k)) := by
  rw [Cert.ReferenceIdeal.Read.val_main_v12_apply, Cert.ReferenceIdeal.Read.val_main_v7_apply,
    Cert.ReferenceIdeal.Read.val_main_v4_apply, Cert.ReferenceIdeal.Read.val_main_v6_apply,
    Cert.ReferenceIdeal.Read.val_main_v5_apply]
  have hp := p.isLt
  have hk := k.isLt
  have e1 : ∀ c : Fin 256, Cert.ReferenceIdeal.Read.lidx_main_v4
      (Cert.ReferenceIdeal.Read.idx_main_v12 (ix2 p k)) c = pix p k c := fun c => funext fun a => Fin.ext (by
    match a with
    | ⟨0, _⟩ => show (p.val * 131072 + k.val) / 131072 = p.val; omega
    | ⟨1, _⟩ => show (p.val * 131072 + k.val) / 2048 % 64 = k.val / 2048; omega
    | ⟨2, _⟩ => show (p.val * 131072 + k.val) / 32 % 64 = k.val / 32 % 64; omega
    | ⟨3, _⟩ => rfl)
  have e2 : ∀ c : Fin 256, Cert.ReferenceIdeal.Read.ridx_main_v4
      (Cert.ReferenceIdeal.Read.idx_main_v12 (ix2 p k)) c = ix2 c (och k) := fun c => funext fun a => Fin.ext (by
    match a with
    | ⟨0, _⟩ => rfl
    | ⟨1, _⟩ => show (p.val * 131072 + k.val) % 32 = k.val % 32; omega)
  have e3 : Cert.ReferenceIdeal.Read.idx_main_v5 (Cert.ReferenceIdeal.Read.idx_main_v6
      (Cert.ReferenceIdeal.Read.idx_main_v12 (ix2 p k))) = ix1 (och k) := funext fun a => Fin.ext (by
    match a with
    | ⟨0, _⟩ => show (p.val * 131072 + k.val) % 32 = k.val % 32; omega)
  rw [e3]
  exact congrArg (· + b (ix1 (och k))) (Finset.sum_congr rfl fun c _ => by rw [e1 c, e2 c])

/-- The same for the other projection (the one the scores' right operand is the transpose of). -/
theorem ref_f_apply (x : FVec Ideal S16x64x64x256 .f32) (W : FVec Ideal S256x32 .f32) (b : FVec Ideal S32 .f32)
    (p : Fin 16) (k : Fin 131072) :
    Cert.ReferenceIdeal.Read.val_main_v13 (F := Ideal) x W b (ix2 p k)
      = (∑ c : Fin 256, x (pix p k c) * W (ix2 c (och k))) + b (ix1 (och k)) := by
  rw [Cert.ReferenceIdeal.Read.val_main_v13_apply, Cert.ReferenceIdeal.Read.val_main_v3_apply,
    Cert.ReferenceIdeal.Read.val_main_v0_apply, Cert.ReferenceIdeal.Read.val_main_v2_apply,
    Cert.ReferenceIdeal.Read.val_main_v1_apply]
  have hp := p.isLt
  have hk := k.isLt
  have e1 : ∀ c : Fin 256, Cert.ReferenceIdeal.Read.lidx_main_v0
      (Cert.ReferenceIdeal.Read.idx_main_v13 (ix2 p k)) c = pix p k c := fun c => funext fun a => Fin.ext (by
    match a with
    | ⟨0, _⟩ => show (p.val * 131072 + k.val) / 131072 = p.val; omega
    | ⟨1, _⟩ => show (p.val * 131072 + k.val) / 2048 % 64 = k.val / 2048; omega
    | ⟨2, _⟩ => show (p.val * 131072 + k.val) / 32 % 64 = k.val / 32 % 64; omega
    | ⟨3, _⟩ => rfl)
  have e2 : ∀ c : Fin 256, Cert.ReferenceIdeal.Read.ridx_main_v0
      (Cert.ReferenceIdeal.Read.idx_main_v13 (ix2 p k)) c = ix2 c (och k) := fun c => funext fun a => Fin.ext (by
    match a with
    | ⟨0, _⟩ => rfl
    | ⟨1, _⟩ => show (p.val * 131072 + k.val) % 32 = k.val % 32; omega)
  have e3 : Cert.ReferenceIdeal.Read.idx_main_v1 (Cert.ReferenceIdeal.Read.idx_main_v2
      (Cert.ReferenceIdeal.Read.idx_main_v13 (ix2 p k))) = ix1 (och k) := funext fun a => Fin.ext (by
    match a with
    | ⟨0, _⟩ => show (p.val * 131072 + k.val) % 32 = k.val % 32; omega)
  rw [e3]
  exact congrArg (· + b (ix1 (och k))) (Finset.sum_congr rfl fun c _ => by rw [e1 c, e2 c])

/-- The flattened projection is the reshaped four-dimensional one. -/
theorem gflat_eq_ref_g (x : FVec Ideal S16x64x64x256 .f32) (Wg : FVec Ideal S256x32 .f32) (bg : FVec Ideal S32 .f32) :
    gflat x Wg bg = Cert.ReferenceIdeal.Read.val_main_v12 (F := Ideal) x Wg bg := by
  funext i
  obtain ⟨p, k, rfl⟩ : ∃ (p : Fin 16) (k : Fin 131072), i = ix2 p k := ⟨i 0, i 1, eq_ix2 i⟩
  rw [gflat_apply, ref_g_apply]

/-- The same for the other projection, before its transposition. -/
theorem gflat_eq_ref_f (x : FVec Ideal S16x64x64x256 .f32) (Wf : FVec Ideal S256x32 .f32) (bf : FVec Ideal S32 .f32) :
    gflat x Wf bf = Cert.ReferenceIdeal.Read.val_main_v13 (F := Ideal) x Wf bf := by
  funext i
  obtain ⟨p, k, rfl⟩ : ∃ (p : Fin 16) (k : Fin 131072), i = ix2 p k := ⟨i 0, i 1, eq_ix2 i⟩
  rw [gflat_apply, ref_f_apply]

/-- The transposed projection at `(k, q)` is the flattened one at `(q, k)`. -/
theorem ref_f_transposed_apply (x : FVec Ideal S16x64x64x256 .f32) (Wf : FVec Ideal S256x32 .f32)
    (bf : FVec Ideal S32 .f32) (k : Fin 131072) (q : Fin 16) :
    Cert.ReferenceIdeal.Read.val_main_v15 (F := Ideal) x Wf bf (ix2 k q) = gflat x Wf bf (ix2 q k) := by
  rw [Cert.ReferenceIdeal.Read.val_main_v15_apply, gflat_eq_ref_f]
  exact congrArg _ (funext fun a => by match a with | ⟨0, _⟩ => rfl | ⟨1, _⟩ => rfl)

/-! ## The scores -/

/-- The scores of the two flattened projections are the product of the reshaped projection with the transposed one. -/
theorem scores_eq_ref (x : FVec Ideal S16x64x64x256 .f32) (Wf Wg : FVec Ideal S256x32 .f32)
    (bf bg : FVec Ideal S32 .f32) :
    Cert.Attention.scores (gflat x Wg bg) (gflat x Wf bf)
      = Cert.ReferenceIdeal.Read.val_main_v16 (F := Ideal) x Wf Wg bf bg := by
  funext i
  obtain ⟨p, q, rfl⟩ : ∃ (p q : Fin 16), i = ix2 p q := ⟨i 0, i 1, eq_ix2 i⟩
  rw [Cert.Attention.scores_apply, Cert.ReferenceIdeal.Read.val_main_v16_apply]
  refine Finset.sum_congr rfl fun k _ => ?_
  have el : Cert.ReferenceIdeal.Read.lidx_main_v16 (ix2 p q) k = ix2 p k :=
    funext fun a => by match a with | ⟨0, _⟩ => rfl | ⟨1, _⟩ => rfl
  have er : Cert.ReferenceIdeal.Read.ridx_main_v16 (ix2 p q) k = ix2 k q :=
    funext fun a => by match a with | ⟨0, _⟩ => rfl | ⟨1, _⟩ => rfl
  rw [el, er, ref_f_transposed_apply, ← gflat_eq_ref_g]

/-! ## The scores are real numbers when the inputs are -/

/-- A product of two reals is a real. -/
theorem fin'_mul {u v : EReal} (hu : Fin' u) (hv : Fin' v) : Fin' (u * v) := by
  obtain ⟨a, rfl⟩ := hu.exists_real
  obtain ⟨c, rfl⟩ := hv.exists_real
  rw [← EReal.coe_mul]; exact fin'_coe _

/-- The image of a real number is neither infinity. -/
theorem fin'_of_real {u : EReal} (h : ∃ r : ℝ, u = (r : EReal)) : Fin' u := by
  obtain ⟨r, rfl⟩ := h; exact fin'_coe r

/-- Every entry of the flattened projection of real inputs is a real. -/
theorem gflat_real (x : FVec Ideal S16x64x64x256 .f32) (W : FVec Ideal S256x32 .f32) (b : FVec Ideal S32 .f32)
    (hx : ∀ i, ∃ r : ℝ, x i = (r : EReal)) (hW : ∀ i, ∃ r : ℝ, W i = (r : EReal))
    (hb : ∀ i, ∃ r : ℝ, b i = (r : EReal)) (p : Fin 16) (k : Fin 131072) : Fin' (gflat x W b (ix2 p k)) := by
  rw [gflat_apply]
  exact fin'_add (fin'_sum _ _ fun c => fin'_mul (fin'_of_real (hx _)) (fin'_of_real (hW _))) (fin'_of_real (hb _))

/-- The scores of real inputs are real numbers. -/
theorem scores_real (x : FVec Ideal S16x64x64x256 .f32) (Wf Wg : FVec Ideal S256x32 .f32)
    (bf bg : FVec Ideal S32 .f32)
    (hx : ∀ i, ∃ r : ℝ, x i = (r : EReal)) (hWf : ∀ i, ∃ r : ℝ, Wf i = (r : EReal))
    (hWg : ∀ i, ∃ r : ℝ, Wg i = (r : EReal)) (hbf : ∀ i, ∃ r : ℝ, bf i = (r : EReal))
    (hbg : ∀ i, ∃ r : ℝ, bg i = (r : EReal)) :
    ∀ i, ∃ r : ℝ, Cert.Attention.scores (gflat x Wg bg) (gflat x Wf bf) i = (r : EReal) := by
  intro i
  obtain ⟨p, q, rfl⟩ : ∃ (p q : Fin 16), i = ix2 p q := ⟨i 0, i 1, eq_ix2 i⟩
  rw [Cert.Attention.scores_apply]
  exact (fin'_sum _ _ fun k => fin'_mul (gflat_real x Wg bg hx hWg hbg p k) (gflat_real x Wf bf hx hWf hbf q k)).exists_real

end Cert.Attention.Bridge

end
-- ==== Proof.KernelValue.lean ====
/-
  The idealized kernel's result as one function of its argument arrays: the three regions' values (projections,
  scores, finishing stage) composed through the reshapes and the softmax of the host stretches between them.
-/
import proofs.«145494_j13391708029779_2_alg».proof.Proof.Boundary
import proofs.«145494_j13391708029779_2_alg».proof.Proof.Weights
import proofs.«145494_j13391708029779_2_alg».proof.Proof.Region0
import proofs.«145494_j13391708029779_2_alg».proof.Proof.Region1
import proofs.«145494_j13391708029779_2_alg».proof.Proof.Region2
import proofs.«145494_j13391708029779_2_alg».proof.Proof.ScoresBridge

set_option maxRecDepth 16384

noncomputable section

namespace Cert.Attention.KernelValue

open Cert.KernelIdeal Cert.KernelIdeal.Gen
open Idealize.ShloMosaic Idealize.ShloMosaic.TcCoe Idealize.SL.Sem
open Cert.Lib.DenseLayer (affine)
open Cert.Attention.Bridge (gflat)

/-- The kernel's result from its eight arguments. -/
def result (x : FVec Ideal S16x64x64x256 .f32) (Wf Wg : FVec Ideal S256x32 .f32) (Wh : FVec Ideal S256x256 .f32)
    (bf bg : FVec Ideal S32 .f32) (bh : FVec Ideal S256 .f32) (gamma : FVec Ideal S1 .f32) :
    FVec Ideal S16x64x64x256 .f32 :=
  shapeCast S16x64x64x256
    (finish (Cert.Attention.Softmax.softmaxRows (scores (gflat x Wg bg) (gflat x Wf bf)))
      (shapeCast S16x1048576 x shapeCasts_S16x64x64x256_S16x1048576) Wh
      (shapeCast S1x256 bh shapeCasts_S256_S1x256) (shapeCast S1x1 gamma shapeCasts_S1_S1x1))
    shapeCasts_S16x1048576_S16x64x64x256

variable (m : (ℓ : Loc nD τ sig) → Buf (Elt Ideal) ℓ) (ρ : Dev nD → PrngReg)

/-- The last boundary's contents of the result buffer are `result` of the launch memory's argument arrays. -/
theorem W7_result (c : Dev nD) :
    W7 m ρ c (Proc.devRef .tc main_v22)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  rw [Boundary.W7_v22, Region2.out_eq (V5 m ρ) c, Boundary.V5_v19, Boundary.V5_v20, Boundary.V5_arg3, Boundary.V5_v3,
    Boundary.V5_v4, Region1.scores_eq (V3 m ρ) c, Boundary.V3_v6, Boundary.V3_v7, Region0.proj_g (V1 m ρ) c,
    Region0.proj_f (V1 m ρ) c, Boundary.V1_v0, Boundary.V1_arg1, Boundary.V1_arg2, Boundary.V1_v1, Boundary.V1_v2]
  rfl

end Cert.Attention.KernelValue

end
-- ==== Proof.FiniteInputs.lean ====
/-
  Finiteness of the inputs, read back from the precondition. The predicate `finite_inputs` is the
  conjunction, over the eight argument arrays, of "every entry `x` has `|x| < +inf`". At the ideal instance a
  float is an extended real, `|x| = max x (-x)`, and the pattern 0x7F800000 denotes `⊤`; so
  `|x| < ⊤` excludes both `⊤` and `⊥`, and `x` is the image of a real number.
-/
import proofs.«145494_j13391708029779_2_alg».proof.Defs
import proofs.«145494_j13391708029779_2_alg».proof.Proof.Gen.Pre_finite_inputs
import Idealize.ShloMosaic.Lib.ReduceAll
import Idealize.ShloMosaic.Lib.ValueIdx

noncomputable section

namespace Cert.Attention.Finite

open Idealize.ShloMosaic Idealize.SL.Sem
open Cert.Pre_finite_inputs (S16x64x64x256 S256x32 S256x256 S32 S256 S1 S_)

/-- The scalar shape has exactly one index. -/
instance : Subsingleton S_.Idx := ⟨fun a b => funext fun d => d.elim0⟩

/-- A one-bit word made from a boolean is 1 exactly when the boolean is true. -/
theorem ofBool_eq_one {b : Bool} : BitVec.ofBool b = 1#1 ↔ b = true := by cases b <;> decide

/-- The f32 pattern of `+inf` denotes the top of the extended reals. -/
theorem inf_eq_top : Ideal.ofBits .f32 0x7F800000#32 = (⊤ : EReal) := by
  simp [Ideal.ofBits, Ideal.ieee]

/-- An extended real whose absolute value is below `+inf` is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have h' : max x (-x) < (⊤ : EReal) := by
    have h1 : Ideal.cmp .olt (max x (-x)) (Ideal.ofBits .f32 0x7F800000#32) = 1#1 := h
    rw [inf_eq_top] at h1
    exact of_decide_eq_true (ofBool_eq_one.1 h1)
  induction x using EReal.rec with
  | bot => simp at h'
  | coe r => exact ⟨r, rfl⟩
  | top => simp at h'

/-- One conjunct of the predicate: the conjunction over all entries `x` of an array (of any shape) of
    `|x| < +inf`, read at the scalar result's one index, says every entry of the array is a real number. -/
theorem real_of_all {s : Shape} {axes : List (Fin s.rank)}
    (hb : S_.BroadcastsInDim s (![] : Fin 0 → Fin s.rank)) (hr : s.ReducesTo axes S_) (hu : 0 < S_.numel)
    (a : FVec Ideal s .f32)
    (h : Host.reduce IntOp.andi
          (cmpf .olt (Host.absf a) (broadcastInDim s ![] hb (constant (F := Ideal) S_ .f32 0x7F800000#32)))
          (constantI S_ 1 1#1) hr hu ValueIdx.ix0 = 1#1)
    (i : s.Idx) : ∃ r : ℝ, a i = (r : EReal) :=
  real_of_abs_lt (a i) (Host.reduce_andi_all _ _ hr hu _ h i)

/-- The predicate `finite_inputs` holding of eight arrays makes every entry of each a real number. -/
theorem real_of_fn [Cert.Pre_finite_inputs.Facts]
    (a0 : FVec Ideal S16x64x64x256 .f32) (a1 a2 : FVec Ideal S256x32 .f32) (a3 : FVec Ideal S256x256 .f32)
    (a4 a5 : FVec Ideal S32 .f32) (a6 : FVec Ideal S256 .f32) (a7 : FVec Ideal S1 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal)) ∧
    (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) := by
  have h := congrFun h ValueIdx.ix0
  dsimp only [Cert.Pre_finite_inputs.fn, Cert.Pre_finite_inputs.fn_part1, Cert.Pre_finite_inputs.fn_part2,
    andi] at h
  simp only [IntOp.andi_eq_one] at h
  obtain ⟨⟨⟨⟨⟨⟨⟨h0, h1⟩, h2⟩, h3⟩, h4⟩, h5⟩, h6⟩, h7⟩ := h
  exact ⟨real_of_all _ _ _ a0 h0, real_of_all _ _ _ a1 h1, real_of_all _ _ _ a2 h2, real_of_all _ _ _ a3 h3,
    real_of_all _ _ _ a4 h4, real_of_all _ _ _ a5 h5, real_of_all _ _ _ a6 h6, real_of_all _ _ _ a7 h7⟩

/-- The same, in the form the claim uses: under the kernel's precondition every entry of every argument
    array, on every device, is a real number. -/
theorem real_of_pre [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i : S16x64x64x256.Idx, ∃ r : ℝ, m ((c.tc : Thread Cert.KernelIdeal.nD Cert.KernelIdeal.τ).loc Cert.KernelIdeal.main_arg0) i = (r : EReal)) ∧
    (∀ i : S256x32.Idx, ∃ r : ℝ, m ((c.tc : Thread Cert.KernelIdeal.nD Cert.KernelIdeal.τ).loc Cert.KernelIdeal.main_arg1) i = (r : EReal)) ∧
    (∀ i : S256x32.Idx, ∃ r : ℝ, m ((c.tc : Thread Cert.KernelIdeal.nD Cert.KernelIdeal.τ).loc Cert.KernelIdeal.main_arg2) i = (r : EReal)) ∧
    (∀ i : S256x256.Idx, ∃ r : ℝ, m ((c.tc : Thread Cert.KernelIdeal.nD Cert.KernelIdeal.τ).loc Cert.KernelIdeal.main_arg3) i = (r : EReal)) ∧
    (∀ i : S32.Idx, ∃ r : ℝ, m ((c.tc : Thread Cert.KernelIdeal.nD Cert.KernelIdeal.τ).loc Cert.KernelIdeal.main_arg4) i = (r : EReal)) ∧
    (∀ i : S32.Idx, ∃ r : ℝ, m ((c.tc : Thread Cert.KernelIdeal.nD Cert.KernelIdeal.τ).loc Cert.KernelIdeal.main_arg5) i = (r : EReal)) ∧
    (∀ i : S256.Idx, ∃ r : ℝ, m ((c.tc : Thread Cert.KernelIdeal.nD Cert.KernelIdeal.τ).loc Cert.KernelIdeal.main_arg6) i = (r : EReal)) ∧
    (∀ i : S1.Idx, ∃ r : ℝ, m ((c.tc : Thread Cert.KernelIdeal.nD Cert.KernelIdeal.τ).loc Cert.KernelIdeal.main_arg7) i = (r : EReal)) :=
  real_of_fn _ _ _ _ _ _ _ _ (hpre c)

end Cert.Attention.Finite

end
-- ==== Proof.LibSlots.lean ====
/-
  Layout operations of a "cells by slots" arrangement, read at an index given by coordinates.

  A flat list of E = n · m entries (m consecutive slots per cell) is reshaped to [n, m] (or, with c columns,
  [E, c] to [n, m, c]) and summed along the slot axis; a per-row vector [a] is made a column [a, 1] and the
  column is spread over b columns, both by a broadcast that names the axes it keeps.  Each lemma reads one
  of these at literal coordinates: entry (p, j) of the reshaped list is entry m p + j of the list; the sum
  along the slot axis at (p, q) is the initial value plus the sum over the slots j of the entries (p, j, q).
-/
import Idealize.ShloMosaic.Lib.ValueLayout
import Idealize.ShloMosaic.Lib.Pipeline.Value
import Idealize.ShloMosaic.Lib.ValueIdx
import Idealize.ShloMosaic.Lib.IdealHost
import Idealize.ShloMosaic.PureOps.Reduce
import Idealize.ShloMosaic.PureOps.Ideal.Laws

open scoped BigOperators

namespace Cert.Lib.Slots

open Idealize.ShloMosaic Idealize.ShloMosaic.ValueIdx

variable {α : Type}

/-! ## A vector as a column, a column over the columns -/

/-- An [a] vector broadcast to an [a, 1] column along axis 0 reads, at (i, u), the vector at i. -/
theorem bcastCol_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- An [a, 1] column broadcast to [a, b] along both axes reads, at (p, c), the column's entry in row p. -/
theorem bcastRow_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-! ## The flat list as cells by slots -/

/-- [E] reshaped to [n, m] reads, at (p, j), entry m p + j of the list. -/
theorem slots2_apply {n m E : ℕ} (x : (⟨1, ![E]⟩ : Shape).Idx → α)
    (h : (⟨1, ![E]⟩ : Shape).ShapeCasts ⟨2, ![n, m]⟩) (p : Fin n) (j : Fin m) (e : Fin E)
    (he : e.val = m * p.val + j.val) : shapeCast ⟨2, ![n, m]⟩ x h (ix2 p j) = x (ix1 e) :=
  shapeCast_apply x h _ _ (by
    rw [Shape.rowMajor_val_two, Shape.rowMajor_val_one]
    show e.val = p.val * m + j.val
    rw [he, Nat.mul_comm])

/-- [E, c] reshaped to [n, m, c] reads, at (p, j, q), row m p + j of the list, column q. -/
theorem slots3_apply {n m c E : ℕ} (x : (⟨2, ![E, c]⟩ : Shape).Idx → α)
    (h : (⟨2, ![E, c]⟩ : Shape).ShapeCasts ⟨3, ![n, m, c]⟩) (p : Fin n) (j : Fin m) (q : Fin c) (e : Fin E)
    (he : e.val = m * p.val + j.val) : shapeCast ⟨3, ![n, m, c]⟩ x h (ix3 p j q) = x (ix2 e q) :=
  shapeCast_apply x h _ _ (by
    rw [Shape.rowMajor_val_two, Shape.rowMajor_val_three]
    show e.val * c + q.val = (p.val * m + j.val) * c + q.val
    rw [he, Nat.mul_comm m])

/-! ## Sums along the slot axis -/

/-- The indices of [a, b] that a reduction along axis 1 runs over at p are (p, j). -/
theorem lift2 {a b : ℕ} (h : (⟨2, ![a, b]⟩ : Shape).Reduces [1] ⟨1, ![a]⟩) (p : Fin a) (j : Fin b) :
    h.lift (ix1 p) j = ix2 p j := by
  funext d
  apply Fin.ext
  match d with
  | ⟨0, _⟩ => rfl
  | ⟨1, _⟩ => rfl

/-- The indices of [a, b, c] that a reduction along axis 1 runs over at (p, q) are (p, j, q). -/
theorem lift3 {a b c : ℕ} (h : (⟨3, ![a, b, c]⟩ : Shape).Reduces [1] ⟨2, ![a, c]⟩) (p : Fin a) (q : Fin c) (j : Fin b) :
    h.lift (ix2 p q) j = ix3 p j q := by
  funext d
  apply Fin.ext
  match d with
  | ⟨0, _⟩ => rfl
  | ⟨1, _⟩ => rfl
  | ⟨2, _⟩ => rfl

/-- The host's sum of an [a, b] array along axis 1, at p: the initial value plus the sum over j of (p, j). -/
theorem hostSum2_apply {a b : ℕ} {φ : FTy} {u : Shape} (x : FVec Ideal ⟨2, ![a, b]⟩ φ) (init : u.Idx → Ideal φ)
    (h' : (⟨2, ![a, b]⟩ : Shape).ReducesTo [1] ⟨1, ![a]⟩) (hu : 0 < u.numel) (p : Fin a) :
    Host.reduceAdd x init h' hu (ix1 p) = init (Shape.Idx.first hu) + ∑ j : Fin b, x (ix2 p j) := by
  have h : (⟨2, ![a, b]⟩ : Shape).Reduces [1] ⟨1, ![a]⟩ := by
    obtain ⟨hr, hs⟩ := h'
    exact ⟨hr, Nat.one_pos, hs⟩
  refine (Ideal.hostReduceAdd_single h' h x _ (ix1 p)).trans ?_
  refine congrArg (init (Shape.Idx.first hu) + ·) ?_
  show ∑ j : Fin b, x (h.lift (ix1 p) j) = _
  exact Finset.sum_congr rfl fun j _ => by rw [lift2]

/-- The host's sum of an [a, b, c] array along axis 1, at (p, q): the initial value plus the sum over j of (p, j, q). -/
theorem hostSum3_apply {a b c : ℕ} {φ : FTy} {u : Shape} (x : FVec Ideal ⟨3, ![a, b, c]⟩ φ) (init : u.Idx → Ideal φ)
    (h' : (⟨3, ![a, b, c]⟩ : Shape).ReducesTo [1] ⟨2, ![a, c]⟩) (hu : 0 < u.numel) (p : Fin a) (q : Fin c) :
    Host.reduceAdd x init h' hu (ix2 p q) = init (Shape.Idx.first hu) + ∑ j : Fin b, x (ix3 p j q) := by
  have h : (⟨3, ![a, b, c]⟩ : Shape).Reduces [1] ⟨2, ![a, c]⟩ := by
    obtain ⟨hr, hs⟩ := h'
    exact ⟨hr, Nat.succ_pos _, hs⟩
  refine (Ideal.hostReduceAdd_single h' h x _ (ix2 p q)).trans ?_
  refine congrArg (init (Shape.Idx.first hu) + ·) ?_
  show ∑ j : Fin b, x (h.lift (ix2 p q) j) = _
  exact Finset.sum_congr rfl fun j _ => by rw [lift3]

end Cert.Lib.Slots
-- ==== Proof.LibSegSup.lean ====
/-
  The supremum of an extended-real function of the natural numbers over a run of consecutive positions,
  `segSup f a n = sup { f (a + k) | k < n }` (the bottom element when the run is empty), and the one law a
  pooling argument needs of it: a run of `n + n'` positions is its first `n` positions followed by the next
  `n'`, so its supremum is the larger of the two parts' suprema. Only the order structure is used — the supremum
  of a finite family does not depend on how the family is cut or grouped, and holds at the infinities as anywhere
  else. Also: a left fold of `max` from the bottom element over a finite family is that family's supremum, and a
  supremum over `Fin n` is the supremum over the run of `n` positions.
-/
import Mathlib.Data.EReal.Basic
import Mathlib.Order.Interval.Finset.Nat

namespace SegSup

/-- The supremum of `f` over the `n` consecutive positions `a, a + 1, …, a + n - 1`. -/
noncomputable def segSup (f : ℕ → EReal) (a n : ℕ) : EReal := (Finset.range n).sup fun k => f (a + k)

theorem segSup_zero (f : ℕ → EReal) (a : ℕ) : segSup f a 0 = ⊥ := by
  unfold segSup; rw [Finset.range_zero, Finset.sup_empty]

theorem segSup_succ (f : ℕ → EReal) (a n : ℕ) : segSup f a (n + 1) = segSup f a n ⊔ f (a + n) := by
  unfold segSup; rw [Finset.range_add_one, Finset.sup_insert, sup_comm]

/-- A run of `n + n'` positions is a run of `n` followed by a run of `n'`. -/
theorem segSup_add (f : ℕ → EReal) (a n n' : ℕ) : segSup f a (n + n') = segSup f a n ⊔ segSup f (a + n) n' := by
  induction n' with
  | zero => rw [Nat.add_zero, segSup_zero, sup_bot_eq]
  | succ k ih => rw [← Nat.add_assoc, segSup_succ, ih, segSup_succ, sup_assoc, Nat.add_assoc]

/-- Two runs of equal length whose entries agree position by position have one supremum. -/
theorem segSup_congr {f g : ℕ → EReal} {a b n : ℕ} (h : ∀ k, k < n → f (a + k) = g (b + k)) : segSup f a n = segSup g b n := by
  unfold segSup; exact Finset.sup_congr rfl fun k hk => h k (Finset.mem_range.1 hk)

/-- The supremum over `Fin n` of the entries at `a + k` is the supremum over the run. -/
theorem sup_univ_fin (f : ℕ → EReal) (a n : ℕ) : (Finset.univ : Finset (Fin n)).sup (fun k => f (a + k.val)) = segSup f a n := by
  unfold segSup
  apply le_antisymm
  · exact Finset.sup_le fun k _ => Finset.le_sup (f := fun k => f (a + k)) (Finset.mem_range.2 k.isLt)
  · exact Finset.sup_le fun k hk =>
      Finset.le_sup (f := fun k : Fin n => f (a + k.val)) (Finset.mem_univ (⟨k, Finset.mem_range.1 hk⟩ : Fin n))

/-- Folding `max` from the bottom element over a finite family gives its supremum. -/
theorem fold_max_bot {ι : Type*} (s : Finset ι) (g : ι → EReal) : s.fold max ⊥ g = s.sup g := rfl

end SegSup
-- ==== Proof.LibHostMax.lean ====
/-
  A host reduction with a maximum body, started from the bottom element (the pattern of −∞), read at an index over the
  extended reals: reducing the LAST axis of an [n, w] array gives at row `r` the supremum of that row's `w` entries, and
  reducing the last axis of an [n, q, w] array gives at (r, i) the supremum of the `w` entries of group `i` of row `r`. The
  reduction is a fold of `max` over the reduced axis's coordinates in some order; a fold of `max` from the bottom element
  over a finite family is the family's supremum, whatever the order. The same for a lane reduction of an [n, w] vector
  (`multiReduction_rows`), and a vector cast to one column read back (`shapeCast_col_apply`). Also: two arrays of `q` columns and of one column set
  side by side, read at column `j`, give the first array's column `j` when `j < q` and the second's only column otherwise.
-/
import Idealize.ShloMosaic.Lib.ValueIdx
import Idealize.ShloMosaic.Lib.Pipeline.Value
import Idealize.ShloMosaic.PureOps.Ideal.Laws
import proofs.«145494_j13391708029779_2_alg».proof.Proof.LibSegSup

noncomputable section

namespace HostMax

open Idealize.ShloMosaic Idealize.ShloMosaic.ValueIdx SegSup

/-- The pattern of −∞ denotes the bottom element of the extended reals. -/
theorem ofBits_neg_inf : Ideal.ofBits .f32 0xFF800000#32 = (⊥ : EReal) := by
  simp [Ideal.ofBits, Ideal.ieee]

/-- Row `r` of an [n, w] array with coordinate `k` put back on the reduced (last) axis is (r, k). -/
theorem lift_rows {n w : ℕ} (h : (⟨2, ![n, w]⟩ : Shape).Reduces [1] (⟨1, ![n]⟩ : Shape)) (r : Fin n)
    (k : Fin ((⟨2, ![n, w]⟩ : Shape).size 1)) : h.lift (ix1 r) k = ix2 r (⟨k.val, k.isLt⟩ : Fin w) := by
  funext c; apply Fin.ext
  fin_cases c <;> rfl

/-- Group (r, i) of an [n, q, w] array with coordinate `k` put back on the reduced (last) axis is (r, i, k). -/
theorem lift_groups {n q w : ℕ} (h : (⟨3, ![n, q, w]⟩ : Shape).Reduces [2] (⟨2, ![n, q]⟩ : Shape)) (r : Fin n) (i : Fin q)
    (k : Fin ((⟨3, ![n, q, w]⟩ : Shape).size 2)) : h.lift (ix2 r i) k = ix3 r i (⟨k.val, k.isLt⟩ : Fin w) := by
  funext c; apply Fin.ext
  fin_cases c <;> rfl

/-- From −∞ the host's maximum over the last axis of an [n, w] array, at row `r`, is the supremum of the row. -/
theorem reduce_rows {n w : ℕ} (v : FVec Ideal ⟨2, ![n, w]⟩ .f32) (init : (⟨0, ![]⟩ : Shape).Idx → Ideal .f32)
    (hinit : ∀ i, init i = (⊥ : EReal))
    (h' : (⟨2, ![n, w]⟩ : Shape).ReducesTo [1] (⟨1, ![n]⟩ : Shape)) (h : (⟨2, ![n, w]⟩ : Shape).Reduces [1] (⟨1, ![n]⟩ : Shape))
    (hu : 0 < (⟨0, ![]⟩ : Shape).numel) (r : Fin n) :
    Host.reduce FloatOps.maximumf v init h' hu (ix1 r) = (Finset.univ : Finset (Fin w)).sup fun k => v (ix2 r k) := by
  rw [Host.reduce_eq_fold_single FloatOps.maximumf v init h' h hu, hinit]
  have hf : (v ∘ h.lift (ix1 r)) = fun k : Fin w => v (ix2 r k) := funext fun k => congrArg v (lift_rows h r k)
  exact congrArg (fun f => Finset.fold max (⊥ : EReal) f (Finset.univ : Finset (Fin w))) hf

/-- From −∞ the host's maximum over the last axis of an [n, q, w] array, at (r, i), is the supremum of that group. -/
theorem reduce_groups {n q w : ℕ} (v : FVec Ideal ⟨3, ![n, q, w]⟩ .f32) (init : (⟨0, ![]⟩ : Shape).Idx → Ideal .f32)
    (hinit : ∀ i, init i = (⊥ : EReal))
    (h' : (⟨3, ![n, q, w]⟩ : Shape).ReducesTo [2] (⟨2, ![n, q]⟩ : Shape))
    (h : (⟨3, ![n, q, w]⟩ : Shape).Reduces [2] (⟨2, ![n, q]⟩ : Shape))
    (hu : 0 < (⟨0, ![]⟩ : Shape).numel) (r : Fin n) (i : Fin q) :
    Host.reduce FloatOps.maximumf v init h' hu (ix2 r i) = (Finset.univ : Finset (Fin w)).sup fun k => v (ix3 r i k) := by
  rw [Host.reduce_eq_fold_single FloatOps.maximumf v init h' h hu, hinit]
  have hf : (v ∘ h.lift (ix2 r i)) = fun k : Fin w => v (ix3 r i k) := funext fun k => congrArg v (lift_groups h r i k)
  exact congrArg (fun f => Finset.fold max (⊥ : EReal) f (Finset.univ : Finset (Fin w))) hf

/-- From −∞ a lane reduction with a maximum body over the last axis of an [n, w] vector, at row `r`, is the supremum of
    the row: the kernel-side reading of the same fold. -/
theorem multiReduction_rows {n w : ℕ} (P : FVec Ideal ⟨2, ![n, w]⟩ .f32)
    (h : (⟨2, ![n, w]⟩ : Shape).Reduces [1] (⟨1, ![n]⟩ : Shape)) (hφ : FKind.Formats .f32)
    (hacc : (0xFF800000#32 : BitVec FTy.f32.bits) = FKind.maximumf.neutral .f32 hφ) (r : Fin n) :
    multiReduction (F := Ideal) .maximumf [1] (⟨1, ![n]⟩ : Shape) P 0xFF800000#32 h hφ hacc (ix1 r)
      = (Finset.univ : Finset (Fin w)).sup fun k => P (ix2 r k) := by
  refine (Ideal.multiReduction_maximumf_single (φ := .f32) P 0xFF800000#32 h hφ hacc (ix1 r)).trans ?_
  have hf : (P ∘ h.lift (ix1 r)) = fun k : Fin w => P (ix2 r k) := funext fun k => congrArg P (lift_rows h r k)
  have hb : FloatOps.ofBits (F := Ideal) .f32 0xFF800000#32 = (⊥ : EReal) := ofBits_neg_inf
  rw [hb]
  exact congrArg (fun f => Finset.fold max (⊥ : EReal) f (Finset.univ : Finset (Fin w))) hf

/-- A vector of `n` entries cast to one column, read at (r, 0), is entry `r`. -/
theorem shapeCast_col_apply {α : Type} {n : ℕ} (v : (⟨1, ![n]⟩ : Shape).Idx → α)
    (h : (⟨1, ![n]⟩ : Shape).ShapeCasts (⟨2, ![n, 1]⟩ : Shape)) (y : (⟨2, ![n, 1]⟩ : Shape).Idx) (r : Fin n)
    (hy : (y 0).val = r.val) : shapeCast (⟨2, ![n, 1]⟩ : Shape) v h y = v (ix1 r) := by
  refine shapeCast_apply v h y (ix1 r) ?_
  rw [Shape.rowMajor_val_one, Shape.rowMajor_val_two]
  have h1 : (y 1).val < 1 := (y 1).isLt
  show r.val = (y 0).val * 1 + (y 1).val
  omega

/-- An array of `q` columns and an array of one column set side by side: column `j` of the join is the first array's
    column `j` when `j < q`, and otherwise (`j = q`) the second array's only column. -/
theorem join_cols {α : Type} {n q : ℕ} (A : (⟨2, ![n, q]⟩ : Shape).Idx → α) (B : (⟨2, ![n, 1]⟩ : Shape).Idx → α)
    (h : Shape.Concatenates [(⟨2, ![n, q]⟩ : Shape), (⟨2, ![n, 1]⟩ : Shape)] (⟨2, ![n, q + 1]⟩ : Shape) (1 : Fin 2))
    (r : Fin n) (j : Fin (q + 1)) :
    concatenate (⟨2, ![n, q + 1]⟩ : Shape) (1 : Fin 2) [⟨(⟨2, ![n, q]⟩ : Shape), A⟩, ⟨(⟨2, ![n, 1]⟩ : Shape), B⟩] h (ix2 r j)
      = if hj : j.val < q then A (ix2 r ⟨j.val, hj⟩) else B (ix2 r (0 : Fin 1)) := by
  split
  · rename_i hj
    exact concatenate_pair_apply_left (1 : Fin 2) A B h (ix2 r j) rfl (ix2 r ⟨j.val, hj⟩) (fun b => by fin_cases b <;> rfl)
  · rename_i hj
    refine concatenate_pair_apply_right (1 : Fin 2) A B h (ix2 r j) rfl rfl (ix2 r (0 : Fin 1)) (fun b hb => ?_) ?_
    · fin_cases b
      · rfl
      · exact absurd rfl hb
    · show 0 + q = j.val
      have := j.isLt; omega

end HostMax

end
-- ==== Proof.Softmax.lean ====
/-
  The row-wise softmax of a 16 × 16 array of REAL scores is an array of real weights whose rows sum to one, and the
  law by which such weights move across an affine map.

  The softmax (the definition of the module imported below) is read index by index: the row maximum at row `p` is the
  supremum of the row's sixteen entries (joined once more with −∞, which changes nothing); the shifted exponential at
  `(p, q)` is `exp (s(p,q) − max_p)`; the row sum at `p` is the sum over `q` of these; the result at `(p, q)` is the
  quotient of the two.  When every score is a real number, the supremum of a nonempty finite row is one of its entries,
  hence a real `M p`; the exponential of a real difference is a positive real; a sum of sixteen positive reals is a
  positive real `D p`, in particular not zero; and the extended reals' quotient of two reals by a nonzero divisor is the
  real quotient.  So the result is `w p q = exp (r p q − M p) / D p`, and `Σ_q w p q = D p / D p = 1`.

  The mixing law: for real weights `w` with `Σ_q w q = 1`, real data `X`, `W` and a real `b`,
    `Σ_c (Σ_q w q · X q c) · W c + b  =  Σ_q w q · (Σ_c X q c · W c + b)`,
  stated on the extended reals through the coercion of each real.  Both sides are coercions of real expressions (a sum
  or product of coerced reals is the coercion of the real sum or product), and over the reals the identity is the
  exchange of the two finite sums together with `b = (Σ_q w q) · b`.
-/
import Idealize.ShloMosaic.PureOps.Ideal
import Idealize.ShloMosaic.PureOps.Ideal.Laws
import Idealize.ShloMosaic.Lib.ValueIdx
import Idealize.ShloMosaic.Lib.IdealHost
import proofs.«145494_j13391708029779_2_alg».proof.KernelIdeal
import proofs.«145494_j13391708029779_2_alg».proof.Proof.SoftmaxDef
import proofs.«145494_j13391708029779_2_alg».proof.Proof.LibSlots
import proofs.«145494_j13391708029779_2_alg».proof.Proof.LibHostMax
import proofs.«145494_j13391708029779_2_alg».proof.Proof.LibRealSums

noncomputable section

open scoped BigOperators

namespace Cert.Attention.Softmax

open Idealize.ShloMosaic Idealize.ShloMosaic.ValueIdx
open Cert.KernelIdeal Cert.KernelIdeal.Facts₀
open Cert.Lib.Slots Cert.Lib.RealSums

section Rows

variable [Cert.KernelIdeal.Facts₀]

/-! ## The three intermediate arrays -/

/-- The row maxima: the maximum reduction of the last axis from −∞, joined with −∞. -/
def rowMax (s : FVec Ideal S16x16 .f32) : FVec Ideal S16 .f32 :=
  maximumf (broadcastInDim S16 ![] bcast_S_S16 (constant (F := Ideal) S_ .f32 0xFF800000#32))
    (Host.reduce (FloatOps.maximumf (F := Ideal) (φ := .f32)) s (constant (F := Ideal) S_ .f32 0xFF800000#32)
      reducesTo_S16x16_S16_d1 h_S_)

/-- The exponential of every entry less its row's maximum. -/
def expShift (s : FVec Ideal S16x16 .f32) : FVec Ideal S16x16 .f32 :=
  Host.exp (subf s
    (broadcastInDim S16x16 ![0, 1] bcast_S16x1_S16x16_0_1 (broadcastInDim S16x1 ![0] bcast_S16_S16x1_0 (rowMax s))))

/-- The row sums of the shifted exponentials, from 0. -/
def rowSum (s : FVec Ideal S16x16 .f32) : FVec Ideal S16 .f32 :=
  Host.reduceAdd (expShift s) (constant (F := Ideal) S_ .f32 0x00000000#32) reducesTo_S16x16_S16_d1 h_S_

/-- The softmax is the quotient of the shifted exponentials by their row sums spread over the columns. -/
theorem softmaxRows_eq (s : FVec Ideal S16x16 .f32) :
    softmaxRows s = Host.divf (expShift s)
      (broadcastInDim S16x16 ![0, 1] bcast_S16x1_S16x16_0_1 (broadcastInDim S16x1 ![0] bcast_S16_S16x1_0 (rowSum s))) := rfl

/-! ## Read at an index -/

/-- The row maximum at row `p` is the supremum of the row. -/
theorem rowMax_apply (s : FVec Ideal S16x16 .f32) (p : Fin 16) :
    rowMax s (ix1 p) = (Finset.univ : Finset (Fin 16)).sup fun k => s (ix2 p k) := by
  have hR : S16x16.Reduces [1] S16 := by
    obtain ⟨hr, hs⟩ := (reducesTo_S16x16_S16_d1 : S16x16.ReducesTo [1] S16)
    exact ⟨hr, Nat.one_pos, hs⟩
  unfold rowMax
  rw [maximumf_apply, broadcastInDim_scalar_apply, constant_apply, HostMax.ofBits_neg_inf,
    HostMax.reduce_rows s _ (fun i => by rw [constant_apply, HostMax.ofBits_neg_inf]) _ hR h_S_ p]
  exact max_eq_right bot_le

/-- The shifted exponential at `(p, q)`. -/
theorem expShift_apply (s : FVec Ideal S16x16 .f32) (p q : Fin 16) :
    expShift s (ix2 p q) = Ideal.exp (s (ix2 p q) - rowMax s (ix1 p)) := by
  show Ideal.exp (s (ix2 p q) - broadcastInDim S16x16 ![0, 1] bcast_S16x1_S16x16_0_1
    (broadcastInDim S16x1 ![0] bcast_S16_S16x1_0 (rowMax s)) (ix2 p q)) = _
  rw [bcastRow_apply, bcastCol_apply]

/-- The row sum at row `p`. -/
theorem rowSum_apply (s : FVec Ideal S16x16 .f32) (p : Fin 16) :
    rowSum s (ix1 p) = ∑ j : Fin 16, expShift s (ix2 p j) := by
  unfold rowSum
  rw [hostSum2_apply, constant_apply, Ideal.ofBits_zero_f32, zero_add]

/-- The softmax at `(p, q)`: the shifted exponential over its row's sum. -/
theorem softmaxRows_apply (s : FVec Ideal S16x16 .f32) (p q : Fin 16) :
    softmaxRows s (ix2 p q) = Ideal.div (expShift s (ix2 p q)) (rowSum s (ix1 p)) := by
  rw [softmaxRows_eq, hostDivf_apply, bcastRow_apply, bcastCol_apply]

/-! ## Real scores give real weights that sum to one along each row -/

theorem softmaxRows_real (s : FVec Ideal S16x16 .f32) (hs : ∀ i, ∃ r : ℝ, s i = (r : EReal)) :
    ∃ w : Fin 16 → Fin 16 → ℝ,
      (∀ p q, softmaxRows s (ix2 p q) = ((w p q : ℝ) : EReal)) ∧ (∀ p, ∑ q, w p q = 1) := by
  choose r hr using hs
  -- the supremum of a nonempty finite row is one of its entries, a real
  have hM : ∀ p : Fin 16, ∃ m : ℝ, rowMax s (ix1 p) = (m : EReal) := fun p => by
    obtain ⟨k, _, hk⟩ := Finset.exists_mem_eq_sup (Finset.univ : Finset (Fin 16)) ⟨0, Finset.mem_univ _⟩
      (fun k => s (ix2 p k))
    exact ⟨r (ix2 p k), by rw [rowMax_apply, hk, hr]⟩
  choose m hm using hM
  -- the exponential of a real difference
  have hE : ∀ p q : Fin 16, expShift s (ix2 p q) = ((Real.exp (r (ix2 p q) - m p) : ℝ) : EReal) := fun p q => by
    rw [expShift_apply, hr, hm, ← EReal.coe_sub, Ideal.exp_coe]
  -- the row sum is the real sum
  have hD : ∀ p : Fin 16, rowSum s (ix1 p) = ((∑ j : Fin 16, Real.exp (r (ix2 p j) - m p) : ℝ) : EReal) := fun p => by
    rw [rowSum_apply, coe_sum]
    exact Finset.sum_congr rfl fun j _ => hE p j
  -- and positive
  have hpos : ∀ p : Fin 16, 0 < ∑ j : Fin 16, Real.exp (r (ix2 p j) - m p) := fun p =>
    Finset.sum_pos (fun j _ => Real.exp_pos _) ⟨0, Finset.mem_univ _⟩
  refine ⟨fun p q => Real.exp (r (ix2 p q) - m p) / ∑ j : Fin 16, Real.exp (r (ix2 p j) - m p),
    fun p q => ?_, fun p => ?_⟩
  · rw [softmaxRows_apply, hE, hD, Ideal.div, if_neg (EReal.coe_ne_zero.2 (ne_of_gt (hpos p))), ← EReal.coe_inv,
      ← EReal.coe_mul]
    exact congrArg _ (div_eq_mul_inv _ _).symm
  · rw [← Finset.sum_div]
    exact div_self (ne_of_gt (hpos p))

end Rows

/-! ## Weights that sum to one move across an affine map -/

theorem mix_law (w : Fin 16 → ℝ) (hw : ∑ q, w q = 1) (X : Fin 16 → Fin 256 → ℝ) (W : Fin 256 → ℝ) (b : ℝ) :
    (∑ c : Fin 256, (∑ q : Fin 16, ((w q : ℝ) : EReal) * ((X q c : ℝ) : EReal)) * ((W c : ℝ) : EReal)) + ((b : ℝ) : EReal)
      = ∑ q : Fin 16, ((w q : ℝ) : EReal) * ((∑ c : Fin 256, ((X q c : ℝ) : EReal) * ((W c : ℝ) : EReal)) + ((b : ℝ) : EReal)) := by
  have hL : (∑ c : Fin 256, (∑ q : Fin 16, ((w q : ℝ) : EReal) * ((X q c : ℝ) : EReal)) * ((W c : ℝ) : EReal)) + ((b : ℝ) : EReal)
      = (((∑ c : Fin 256, (∑ q : Fin 16, w q * X q c) * W c) + b : ℝ) : EReal) := by
    simp only [EReal.coe_add, EReal.coe_mul, coe_sum]
  have hR : (∑ q : Fin 16, ((w q : ℝ) : EReal) * ((∑ c : Fin 256, ((X q c : ℝ) : EReal) * ((W c : ℝ) : EReal)) + ((b : ℝ) : EReal)))
      = ((∑ q : Fin 16, w q * ((∑ c : Fin 256, X q c * W c) + b) : ℝ) : EReal) := by
    simp only [EReal.coe_add, EReal.coe_mul, coe_sum]
  rw [hL, hR]
  refine congrArg _ ?_
  calc (∑ c : Fin 256, (∑ q : Fin 16, w q * X q c) * W c) + b
      = (∑ q : Fin 16, w q * ∑ c : Fin 256, X q c * W c) + (∑ q : Fin 16, w q) * b := by
        rw [hw, one_mul]
        refine congrArg (· + b) ?_
        simp only [Finset.sum_mul, Finset.mul_sum]
        rw [Finset.sum_comm]
        exact Finset.sum_congr rfl fun q _ => Finset.sum_congr rfl fun c _ => mul_assoc _ _ _
    _ = ∑ q : Fin 16, w q * ((∑ c : Fin 256, X q c * W c) + b) := by
        rw [Finset.sum_mul, ← Finset.sum_add_distrib]
        exact Finset.sum_congr rfl fun q _ => (mul_add _ _ _).symm

end Cert.Attention.Softmax

end
-- ==== Proof.FinalBridge.lean ====
/-
  The two programs' results, read at one output element and compared.

  With `β` the row-wise softmax of the 16 × 16 scores, the input `x` (16 images of 64 × 64 pixels and 256 channels), the
  weights `Wh`, the bias `bh` and the scale `γ`:
  * one program flattens every image to a row of 1048576 entries (pixel-major, 256 channels per pixel), mixes the batch
    first and multiplies by the channel matrix afterwards (the finishing stage of the specification), and reshapes the
    rows back to images; at image `b`, pixel `(h, w)`, channel `d` its value is
      `γ · (Σ_c (Σ_q β[b,q] · x[q,h,w,c]) · Wh[c,d] + bh[d]) + x[b,h,w,d]`;
  * the other multiplies by the channel matrix and adds the bias first, flattens, mixes the batch, and reshapes; its
    value there is
      `γ · (Σ_q β[b,q] · (Σ_c x[q,h,w,c] · Wh[c,d] + bh[d])) + x[b,h,w,d]`.
  Entry `(h, w, c)` of an image is entry `(64 h + w) · 256 + c` of its row (`col`); all index work is this one
  correspondence and its inverse (quotient and remainder by 256 and by 1048576 = 64 · 64 · 256).
  The two values agree when the scores, `x`, `Wh` and `bh` are real: the softmax weights are then reals whose rows sum
  to one, and such weights move across the affine map `v ↦ Σ_c v[c] · Wh[c,d] + bh[d]` (the mixing law).  The scale
  `γ` is a common factor of one common term and need not be real.
-/
import proofs.«145494_j13391708029779_2_alg».proof.Proof.Spec
import proofs.«145494_j13391708029779_2_alg».proof.Proof.Softmax
import proofs.«145494_j13391708029779_2_alg».proof.Proof.Gen.ReferenceIdeal.Read
import proofs.«145494_j13391708029779_2_alg».proof.KernelIdeal
import Idealize.ShloMosaic.Lib.Pipeline.Value
import Idealize.ShloMosaic.Lib.ValueIdx
import Idealize.ShloMosaic.Lib.ValueLayout

noncomputable section

open scoped BigOperators

namespace Cert.Attention.Bridge2

open Idealize.ShloMosaic Idealize.ShloMosaic.ValueIdx
open Cert.KernelIdeal Cert.KernelIdeal.Facts₀
open Cert.ReferenceIdeal.Read

variable [Cert.KernelIdeal.Facts₀]

/-! ## The softmax weights of the reference -/

/-- The reference's eleven operations after its scores are the softmax of the scores. -/
theorem ref_weights (x : FVec Ideal S16x64x64x256 .f32) (Wf Wg : FVec Ideal S256x32 .f32) (bf bg : FVec Ideal S32 .f32) :
    val_main_v27 (F := Ideal) x Wf Wg bf bg
      = Cert.Attention.Softmax.softmaxRows (val_main_v16 (F := Ideal) x Wf Wg bf bg) := rfl

/-! ## An image entry inside its flattened row -/

/-- Entry `(h, w, c)` of an image sits at position `(64 h + w) · 256 + c` of the image's row. -/
def col (h w : Fin 64) (c : Fin 256) : Fin 1048576 :=
  ⟨(h.val * 64 + w.val) * 256 + c.val, by have := h.isLt; have := w.isLt; have := c.isLt; omega⟩

theorem chan_col (h w : Fin 64) (d : Fin 256) : chan (col h w d) = d :=
  Fin.ext (by
    show ((h.val * 64 + w.val) * 256 + d.val) % 256 = d.val
    have := d.isLt; omega)

theorem pixCol_col (h w : Fin 64) (d c : Fin 256) : pixCol (col h w d) c = col h w c :=
  Fin.ext (by
    show 256 * (((h.val * 64 + w.val) * 256 + d.val) / 256) + c.val = (h.val * 64 + w.val) * 256 + c.val
    have := d.isLt; omega)

/-- The flattened input at row `q`, position `col h w c`, is the input at `(q, h, w, c)`. -/
theorem flat_apply {α : Type} (x : S16x64x64x256.Idx → α) (q : Fin 16) (h w : Fin 64) (c : Fin 256) :
    shapeCast S16x1048576 x shapeCasts_S16x64x64x256_S16x1048576 (ix2 q (col h w c)) = x (ix4 q h w c) :=
  shapeCast_apply x shapeCasts_S16x64x64x256_S16x1048576 _ _ (by
    rw [Shape.rowMajor_val_four, Shape.rowMajor_val_two]
    show ((q.val * 64 + h.val) * 64 + w.val) * 256 + c.val = q.val * 1048576 + ((h.val * 64 + w.val) * 256 + c.val)
    omega)

/-- Rows reshaped to images: the image entry `(b, h, w, d)` is the row entry `(b, col h w d)`. -/
theorem unflat_apply {α : Type} (y : S16x1048576.Idx → α) (b : Fin 16) (h w : Fin 64) (d : Fin 256) :
    shapeCast S16x64x64x256 y shapeCasts_S16x1048576_S16x64x64x256 (ix4 b h w d) = y (ix2 b (col h w d)) :=
  shapeCast_apply y shapeCasts_S16x1048576_S16x64x64x256 _ _ (by
    rw [Shape.rowMajor_val_two, Shape.rowMajor_val_four]
    show b.val * 1048576 + ((h.val * 64 + w.val) * 256 + d.val) = ((b.val * 64 + h.val) * 64 + w.val) * 256 + d.val
    omega)

/-! ## The mix-first program at one element -/

theorem kernel_read (β : FVec Ideal S16x16 .f32) (x : FVec Ideal S16x64x64x256 .f32) (Wh : FVec Ideal S256x256 .f32)
    (bh : FVec Ideal S256 .f32) (gamma : FVec Ideal S1 .f32) (b : Fin 16) (h w : Fin 64) (d : Fin 256) :
    shapeCast S16x64x64x256
        (Cert.Attention.finish β (shapeCast S16x1048576 x shapeCasts_S16x64x64x256_S16x1048576) Wh
          (shapeCast S1x256 bh shapeCasts_S256_S1x256) (shapeCast S1x1 gamma shapeCasts_S1_S1x1))
        shapeCasts_S16x1048576_S16x64x64x256 (ix4 b h w d)
      = gamma (ix1 (0 : Fin 1))
          * ((∑ c : Fin 256, (∑ q : Fin 16, β (ix2 b q) * x (ix4 q h w c)) * Wh (ix2 c d)) + bh (ix1 d))
        + x (ix4 b h w d) := by
  rw [unflat_apply, finish_apply, chan_col, flat_apply,
    shapeCast_a_1a_apply bh shapeCasts_S256_S1x256 (0 : Fin 1) d,
    shapeCast_a_1a_apply gamma shapeCasts_S1_S1x1 (0 : Fin 1) (0 : Fin 1)]
  refine congrArg (fun A => gamma (ix1 (0 : Fin 1)) * (A + bh (ix1 d)) + x (ix4 b h w d)) ?_
  refine Finset.sum_congr rfl fun c _ => ?_
  refine congrArg (· * Wh (ix2 c d)) ?_
  unfold mixAt
  rw [pixCol_col]
  exact Finset.sum_congr rfl fun q _ => by rw [flat_apply]

/-! ## The product-first program at one element -/

/-- The channel product with its bias at `(q, h, w, d)`. -/
theorem ref_v11 (x : FVec Ideal S16x64x64x256 .f32) (Wh : FVec Ideal S256x256 .f32) (bh : FVec Ideal S256 .f32)
    (q : Fin 16) (h w : Fin 64) (d : Fin 256) :
    val_main_v11 (F := Ideal) x Wh bh (ix4 q h w d) = (∑ c : Fin 256, x (ix4 q h w c) * Wh (ix2 c d)) + bh (ix1 d) := by
  rw [val_main_v11_apply, val_main_v8_apply, val_main_v10_apply, val_main_v9_apply]
  show (∑ c : Fin 256, x (lidx_main_v8 (ix4 q h w d) c) * Wh (ridx_main_v8 (ix4 q h w d) c))
    + bh (idx_main_v9 (idx_main_v10 (ix4 q h w d))) = _
  have e1 : ∀ c : Fin 256, lidx_main_v8 (ix4 q h w d) c = ix4 q h w c := fun c => funext fun a => by
    match a with | ⟨0, _⟩ => rfl | ⟨1, _⟩ => rfl | ⟨2, _⟩ => rfl | ⟨3, _⟩ => rfl
  have e2 : ∀ c : Fin 256, ridx_main_v8 (ix4 q h w d) c = ix2 c d := fun c => funext fun a => by
    match a with | ⟨0, _⟩ => rfl | ⟨1, _⟩ => rfl
  have e3 : idx_main_v9 (idx_main_v10 (ix4 q h w d)) = ix1 d := funext fun a => by
    match a with | ⟨0, _⟩ => rfl
  rw [e3]
  exact congrArg (· + bh (ix1 d)) (Finset.sum_congr rfl fun c _ => by rw [e1, e2])

/-- The same, read in the flattened row. -/
theorem ref_v14 (x : FVec Ideal S16x64x64x256 .f32) (Wh : FVec Ideal S256x256 .f32) (bh : FVec Ideal S256 .f32)
    (q : Fin 16) (h w : Fin 64) (d : Fin 256) :
    val_main_v14 (F := Ideal) x Wh bh (ix2 q (col h w d)) = (∑ c : Fin 256, x (ix4 q h w c) * Wh (ix2 c d)) + bh (ix1 d) := by
  have e : idx_main_v14 (ix2 q (col h w d)) = ix4 q h w d := funext fun a => Fin.ext (by
    have := q.isLt; have := h.isLt; have := w.isLt; have := d.isLt
    match a with
    | ⟨0, _⟩ => show (q.val * 1048576 + ((h.val * 64 + w.val) * 256 + d.val)) / 1048576 = q.val; omega
    | ⟨1, _⟩ => show (q.val * 1048576 + ((h.val * 64 + w.val) * 256 + d.val)) / 16384 % 64 = h.val; omega
    | ⟨2, _⟩ => show (q.val * 1048576 + ((h.val * 64 + w.val) * 256 + d.val)) / 256 % 64 = w.val; omega
    | ⟨3, _⟩ => show (q.val * 1048576 + ((h.val * 64 + w.val) * 256 + d.val)) % 256 = d.val; omega)
  rw [val_main_v14_apply, e, ref_v11]

/-- The batch mix of the flattened rows at `(b, col h w d)`. -/
theorem ref_v28 (x : FVec Ideal S16x64x64x256 .f32) (Wf Wg : FVec Ideal S256x32 .f32) (Wh : FVec Ideal S256x256 .f32)
    (bf bg : FVec Ideal S32 .f32) (bh : FVec Ideal S256 .f32) (b : Fin 16) (h w : Fin 64) (d : Fin 256) :
    val_main_v28 (F := Ideal) x Wf Wg Wh bf bg bh (ix2 b (col h w d))
      = ∑ q : Fin 16, val_main_v27 (F := Ideal) x Wf Wg bf bg (ix2 b q)
          * ((∑ c : Fin 256, x (ix4 q h w c) * Wh (ix2 c d)) + bh (ix1 d)) := by
  rw [val_main_v28_apply]
  refine Finset.sum_congr rfl fun q _ => ?_
  have e1 : lidx_main_v28 (ix2 b (col h w d)) q = ix2 b q := funext fun a => by
    match a with | ⟨0, _⟩ => rfl | ⟨1, _⟩ => rfl
  have e2 : ridx_main_v28 (ix2 b (col h w d)) q = ix2 q (col h w d) := funext fun a => by
    match a with | ⟨0, _⟩ => rfl | ⟨1, _⟩ => rfl
  rw [e1, e2, ref_v14]

/-- The rows reshaped to images. -/
theorem ref_v29 (x : FVec Ideal S16x64x64x256 .f32) (Wf Wg : FVec Ideal S256x32 .f32) (Wh : FVec Ideal S256x256 .f32)
    (bf bg : FVec Ideal S32 .f32) (bh : FVec Ideal S256 .f32) (b : Fin 16) (h w : Fin 64) (d : Fin 256) :
    val_main_v29 (F := Ideal) x Wf Wg Wh bf bg bh (ix4 b h w d)
      = val_main_v28 (F := Ideal) x Wf Wg Wh bf bg bh (ix2 b (col h w d)) := by
  have e : idx_main_v29 (ix4 b h w d) = ix2 b (col h w d) := funext fun a => Fin.ext (by
    have := b.isLt; have := h.isLt; have := w.isLt; have := d.isLt
    match a with
    | ⟨0, _⟩ => show (((b.val * 64 + h.val) * 64 + w.val) * 256 + d.val) / 1048576 = b.val; omega
    | ⟨1, _⟩ => show (((b.val * 64 + h.val) * 64 + w.val) * 256 + d.val) % 1048576 = (h.val * 64 + w.val) * 256 + d.val; omega)
  rw [val_main_v29_apply, e]

theorem ref_read (x : FVec Ideal S16x64x64x256 .f32) (Wf Wg : FVec Ideal S256x32 .f32) (Wh : FVec Ideal S256x256 .f32)
    (bf bg : FVec Ideal S32 .f32) (bh : FVec Ideal S256 .f32) (gamma : FVec Ideal S1 .f32)
    (b : Fin 16) (h w : Fin 64) (d : Fin 256) :
    val_main_v33 (F := Ideal) x Wf Wg Wh bf bg bh gamma (ix4 b h w d)
      = gamma (ix1 (0 : Fin 1))
          * (∑ q : Fin 16, val_main_v27 (F := Ideal) x Wf Wg bf bg (ix2 b q)
              * ((∑ c : Fin 256, x (ix4 q h w c) * Wh (ix2 c d)) + bh (ix1 d)))
        + x (ix4 b h w d) := by
  rw [val_main_v33_apply, val_main_v32_apply, val_main_v31_apply, val_main_v30_apply, ref_v29, ref_v28]
  have e : idx_main_v30 (idx_main_v31 (ix4 b h w d)) = ix1 (0 : Fin 1) := funext fun a => by
    match a with | ⟨0, _⟩ => rfl
  rw [e]
  rfl

/-! ## The two results are one array -/

theorem result_eq (x : FVec Ideal S16x64x64x256 .f32) (Wf Wg : FVec Ideal S256x32 .f32) (Wh : FVec Ideal S256x256 .f32)
    (bf bg : FVec Ideal S32 .f32) (bh : FVec Ideal S256 .f32) (gamma : FVec Ideal S1 .f32)
    (hx : ∀ i, ∃ r : ℝ, x i = (r : EReal)) (hWh : ∀ i, ∃ r : ℝ, Wh i = (r : EReal))
    (hbh : ∀ i, ∃ r : ℝ, bh i = (r : EReal))
    (hS : ∀ i, ∃ r : ℝ, val_main_v16 (F := Ideal) x Wf Wg bf bg i = (r : EReal)) :
    shapeCast S16x64x64x256
        (Cert.Attention.finish (Cert.Attention.Softmax.softmaxRows (val_main_v16 (F := Ideal) x Wf Wg bf bg))
          (shapeCast S16x1048576 x shapeCasts_S16x64x64x256_S16x1048576) Wh
          (shapeCast S1x256 bh shapeCasts_S256_S1x256) (shapeCast S1x1 gamma shapeCasts_S1_S1x1))
        shapeCasts_S16x1048576_S16x64x64x256
      = val_main_v33 (F := Ideal) x Wf Wg Wh bf bg bh gamma := by
  funext i
  obtain ⟨b, h, w, d, rfl⟩ : ∃ (b : Fin 16) (h w : Fin 64) (d : Fin 256), i = ix4 b h w d :=
    ⟨i 0, i 1, i 2, i 3, eq_ix4 i⟩
  rw [kernel_read, ref_read, ref_weights]
  obtain ⟨wt, hwt, hsum⟩ := Cert.Attention.Softmax.softmaxRows_real _ hS
  choose rx hrx using hx
  choose rW hrW using hWh
  choose rb hrb using hbh
  refine congrArg (fun A => gamma (ix1 (0 : Fin 1)) * A + x (ix4 b h w d)) ?_
  have eL : (∑ c : Fin 256, (∑ q : Fin 16,
        Cert.Attention.Softmax.softmaxRows (val_main_v16 (F := Ideal) x Wf Wg bf bg) (ix2 b q) * x (ix4 q h w c))
          * Wh (ix2 c d)) + bh (ix1 d)
      = (∑ c : Fin 256, (∑ q : Fin 16, ((wt b q : ℝ) : EReal) * ((rx (ix4 q h w c) : ℝ) : EReal))
          * ((rW (ix2 c d) : ℝ) : EReal)) + ((rb (ix1 d) : ℝ) : EReal) := by
    rw [hrb]
    refine congrArg (· + ((rb (ix1 d) : ℝ) : EReal)) (Finset.sum_congr rfl fun c _ => ?_)
    rw [hrW]
    exact congrArg (· * ((rW (ix2 c d) : ℝ) : EReal)) (Finset.sum_congr rfl fun q _ => by rw [hwt, hrx])
  have eR : (∑ q : Fin 16,
        Cert.Attention.Softmax.softmaxRows (val_main_v16 (F := Ideal) x Wf Wg bf bg) (ix2 b q)
          * ((∑ c : Fin 256, x (ix4 q h w c) * Wh (ix2 c d)) + bh (ix1 d)))
      = ∑ q : Fin 16, ((wt b q : ℝ) : EReal)
          * ((∑ c : Fin 256, ((rx (ix4 q h w c) : ℝ) : EReal) * ((rW (ix2 c d) : ℝ) : EReal)) + ((rb (ix1 d) : ℝ) : EReal)) := by
    refine Finset.sum_congr rfl fun q _ => ?_
    rw [hwt, hrb]
    refine congrArg (fun A => ((wt b q : ℝ) : EReal) * (A + ((rb (ix1 d) : ℝ) : EReal))) ?_
    exact Finset.sum_congr rfl fun c _ => by rw [hrx, hrW]
  rw [eL, eR]
  exact Cert.Attention.Softmax.mix_law (wt b) (hsum b) (fun q c => rx (ix4 q h w c)) (fun c => rW (ix2 c d)) (rb (ix1 d))

end Cert.Attention.Bridge2

end
-- ==== Proof.lean ====
/-
  The five claims of this certificate.

  The three frames: the kernel's two (word-level and idealized) are the generated frame certificates of a program of
  three regions; the reference has no kernel, and its frame is its generated run with the result dropped.
  The idealization rewrote nothing, so `preserves` is trivial.

  The algebraic claim. At the extended reals both programs compute, for a batch of 16 feature maps x (64 × 64 pixels of
  256 channels), f = x·Wf + bf and g = x·Wg + bg (per pixel, 32 channels), the 16 × 16 scores s[p,q] = Σ_k g[p,k]·f[q,k]
  over the 131072 flattened (pixel, channel) positions, the weights β = the softmax of s along its rows, and
  out = γ·o + x. They differ in o: the reference takes h = x·Wh + bh per pixel and then mixes the batch,
  o[b] = Σ_q β[b,q]·h[q]; the kernel mixes first and applies Wh afterwards, o[b] = (Σ_q β[b,q]·x[q])·Wh + bh, and
  accumulates s over four blocks of 32768 positions. A sum is the same however it is blocked; the two forms of o agree
  because every row of β is made of real numbers that sum to 1 and x, Wh, bh are real — which is where the
  precondition (every input finite) is used: on the extended reals the distributive law fails at infinities.
-/
import proofs.«145494_j13391708029779_2_alg».proof.Defs
import proofs.«145494_j13391708029779_2_alg».proof.Proof.Gen.Kernel
import proofs.«145494_j13391708029779_2_alg».proof.Proof.Gen.Kernel.Frame
import proofs.«145494_j13391708029779_2_alg».proof.Proof.Gen.KernelIdeal
import proofs.«145494_j13391708029779_2_alg».proof.Proof.Gen.KernelIdeal.Frame
import proofs.«145494_j13391708029779_2_alg».proof.Proof.Gen.ReferenceIdeal
import proofs.«145494_j13391708029779_2_alg».proof.Proof.Gen.Pre_finite_inputs
import proofs.«145494_j13391708029779_2_alg».proof.Proof.Gen.ReferenceIdeal.Run
import proofs.«145494_j13391708029779_2_alg».proof.Proof.Gen.ReferenceIdeal.Read
import proofs.«145494_j13391708029779_2_alg».proof.Proof.NamedRun
import proofs.«145494_j13391708029779_2_alg».proof.Proof.KernelValue
import proofs.«145494_j13391708029779_2_alg».proof.Proof.FiniteInputs
import proofs.«145494_j13391708029779_2_alg».proof.Proof.ScoresBridge
import proofs.«145494_j13391708029779_2_alg».proof.Proof.FinalBridge
import Idealize.ShloMosaic.Adequacy
import Idealize.ShloMosaic.Init

noncomputable section

namespace Cert.Proof

open Idealize.ShloMosaic Idealize.SL.Sem

/-- Under the precondition the kernel's function of the arguments is the reference's last stage of the same arguments. -/
theorem kernel_eq_ref (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    Cert.Attention.KernelValue.result
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
      = Cert.ReferenceIdeal.Read.val_main_v33 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)) := by
  obtain ⟨f0, f1, f2, f3, f4, f5, f6, f7⟩ := Cert.Attention.Finite.real_of_pre m hpre c
  generalize m ((c.tc : Thread Cert.KernelIdeal.nD Cert.KernelIdeal.τ).loc Cert.KernelIdeal.main_arg0) = x at *
  generalize m ((c.tc : Thread Cert.KernelIdeal.nD Cert.KernelIdeal.τ).loc Cert.KernelIdeal.main_arg1) = Wf at *
  generalize m ((c.tc : Thread Cert.KernelIdeal.nD Cert.KernelIdeal.τ).loc Cert.KernelIdeal.main_arg2) = Wg at *
  generalize m ((c.tc : Thread Cert.KernelIdeal.nD Cert.KernelIdeal.τ).loc Cert.KernelIdeal.main_arg3) = Wh at *
  generalize m ((c.tc : Thread Cert.KernelIdeal.nD Cert.KernelIdeal.τ).loc Cert.KernelIdeal.main_arg4) = bf at *
  generalize m ((c.tc : Thread Cert.KernelIdeal.nD Cert.KernelIdeal.τ).loc Cert.KernelIdeal.main_arg5) = bg at *
  generalize m ((c.tc : Thread Cert.KernelIdeal.nD Cert.KernelIdeal.τ).loc Cert.KernelIdeal.main_arg6) = bh at *
  generalize m ((c.tc : Thread Cert.KernelIdeal.nD Cert.KernelIdeal.τ).loc Cert.KernelIdeal.main_arg7) = gamma at *
  have hs : Cert.Attention.scores (Cert.Attention.Bridge.gflat x Wg bg) (Cert.Attention.Bridge.gflat x Wf bf)
      = Cert.ReferenceIdeal.Read.val_main_v16 (F := Ideal) x Wf Wg bf bg := Cert.Attention.Bridge.scores_eq_ref x Wf Wg bf bg
  have hS : ∀ i, ∃ r : ℝ, Cert.ReferenceIdeal.Read.val_main_v16 (F := Ideal) x Wf Wg bf bg i = (r : EReal) := by
    rw [← hs]; exact Cert.Attention.Bridge.scores_real x Wf Wg bf bg f0 f1 f2 f4 f5
  unfold Cert.Attention.KernelValue.result
  rw [hs]
  exact Cert.Attention.Bridge2.result_eq x Wf Wg Wh bf bg bh gamma f0 f3 f6 hS

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the reference's last stage of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.Read.val_main_v33 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · refine (θ_run Cert.KernelIdeal.defs _ _).mono (fun r h c => ⟨(h c).1.trans ?_, (h c).2⟩)
      (Cert.KernelIdeal.Named.run (F := Ideal) m ρ)
    exact (Cert.Attention.KernelValue.W7_result m ρ c).trans (kernel_eq_ref m hpre c)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v33_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
